-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) (main_arg1 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Kernel.lean ====
abbrev S16384x512 : Shape := ⟨2, ![16384, 512]⟩
abbrev S_ : Shape := ⟨0, ![]⟩
abbrev S16384x1 : Shape := ⟨2, ![16384, 1]⟩
abbrev S1024x512 : Shape := ⟨2, ![1024, 512]⟩
abbrev S1024x1 : Shape := ⟨2, ![1024, 1]⟩
abbrev S512x1024 : Shape := ⟨2, ![512, 1024]⟩
abbrev S1024x1024 : Shape := ⟨2, ![1024, 1024]⟩
abbrev S1024 : Shape := ⟨1, ![1024]⟩
abbrev S16384 : Shape := ⟨1, ![16384]⟩

abbrev nBuf : Space → Nat
  | .hbm => 32
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .bf16⟩
  | .hbm, ⟨3, _⟩ => ⟨S16384x512, .bf16⟩
  | .hbm, ⟨4, _⟩ => ⟨S_, .f32⟩
  | .hbm, ⟨5, _⟩ => ⟨S16384x512, .f32⟩
  | .hbm, ⟨6, _⟩ => ⟨S16384x512, .f32⟩
  | .hbm, ⟨7, _⟩ => ⟨S16384x512, .bf16⟩
  | .hbm, ⟨8, _⟩ => ⟨S_, .f32⟩
  | .hbm, ⟨9, _⟩ => ⟨S16384x512, .f32⟩
  | .hbm, ⟨10, _⟩ => ⟨S16384x512, .f32⟩
  | .hbm, ⟨11, _⟩ => ⟨S16384x512, .bf16⟩
  | .hbm, ⟨12, _⟩ => ⟨S16384x1, .f32⟩
  | .hbm, ⟨13, _⟩ => ⟨S16384x1, .f32⟩
  | .hbm, ⟨14, _⟩ => ⟨S16384x512, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_cst_6 : Ref sig .tc := ⟨.hbm, 30, rfl⟩
abbrev main_v21 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bitsLt_bf16_f32 : FTy.bits .bf16 < FTy.bits .f32
  bcast_S_S16384x512 : S_.BroadcastsInDim S16384x512 (![] : Fin 0 → Fin S16384x512.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  reduces_S1024x1024_S1024 : S1024x1024.Reduces [1] S1024
  shapeCasts_S1024_S1024x1 : S1024.ShapeCasts S1024x1
  broadcasts_S1024x1_S1024x1024 : S1024x1.Broadcasts S1024x1024
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  reducesTo_S16384x1_S_d0_1 : S16384x1.ReducesTo [0, 1] S_
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .bf16 = 32 ∨ (Rect.block (s := S16384x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S16384x512.size a
  hwx0_1 : ∀ i : grid0.Coords, EltTy.bits .bf16 = 32 ∨ (Rect.block (s := S16384x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S16384x512.size a
  hwx1_0 : ∀ i : grid1.Coords, EltTy.bits .bf16 = 32 ∨ (Rect.block (s := S16384x512) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S16384x512.size a
  hwx1_1 : ∀ i : grid1.Coords, EltTy.bits .bf16 = 32 ∨ (Rect.block (s := S16384x512) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S16384x1.size a
  hwx1_2 : ∀ i : grid1.Coords, EltTy.bits .f32 = 32 ∨ (Rect.block (s := S16384x1) S1024x1.size (cc1_transform_2 i) (hinb1_2 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v4) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v7) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16384x512 : Shape := ⟨2, ![16384, 512]⟩
abbrev S512x16384 : Shape := ⟨2, ![512, 16384]⟩
abbrev S16384x16384 : Shape := ⟨2, ![16384, 16384]⟩
abbrev S_ : Shape := ⟨0, ![]⟩
abbrev S16384 : Shape := ⟨1, ![16384]⟩
abbrev S16384x1 : Shape := ⟨2, ![16384, 1]⟩
abbrev S16384x1x1 : Shape := ⟨3, ![16384, 1, 1]⟩
abbrev S1 : Shape := ⟨1, ![1]⟩
abbrev S1x1x1 : Shape := ⟨3, ![1, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S512x16384, .f32⟩
  | .hbm, ⟨3, _⟩ => ⟨S16384x16384, .f32⟩
  | .hbm, ⟨4, _⟩ => ⟨S_, .f32⟩
  | .hbm, ⟨5, _⟩ => ⟨S16384x16384, .f32⟩
  | .hbm, ⟨6, _⟩ => ⟨S16384x16384, .f32⟩
  | .hbm, ⟨7, _⟩ => ⟨S16384x16384, .f32⟩
  | .hbm, ⟨8, _⟩ => ⟨S16384, .i32⟩
  | .hbm, ⟨9, _⟩ => ⟨S_, .f32⟩
  | .hbm, ⟨10, _⟩ => ⟨S16384, .f32⟩
  | .hbm, ⟨11, _⟩ => ⟨S_, .f32⟩
  | .hbm, ⟨12, _⟩ => ⟨S16384, .f32⟩
  | .hbm, ⟨13, _⟩ => ⟨S16384, .f32⟩
  | .hbm, ⟨14, _⟩ => ⟨S16384x1, .f32⟩
  | .hbm, ⟨15, _⟩ => ⟨S16384x16384, .f32⟩
  | .hbm, ⟨16, _⟩ => ⟨S16384x16384, .f32⟩
  | .hbm, ⟨17, _⟩ => ⟨S16384x16384, .f32⟩
  | .hbm, ⟨18, _⟩ => ⟨S_, .f32⟩
  | .hbm, ⟨19, _⟩ => ⟨S16384, .f32⟩
  | .hbm, ⟨20, _⟩ => ⟨S16384x1, .f32⟩
  | .hbm, ⟨21, _⟩ => ⟨S16384x1, .f32⟩
  | .hbm, ⟨22, _⟩ => ⟨S16384x16384, .f32⟩
  | .hbm, ⟨23, _⟩ => ⟨S16384x16384, .f32⟩
  | .hbm, ⟨24, _⟩ => ⟨S16384x1, .i32⟩
  | .hbm, ⟨25, _⟩ => ⟨S_, .i32⟩
  | .hbm, ⟨26, _⟩ => ⟨S16384x1, .i32⟩
  | .hbm, ⟨27, _⟩ => ⟨S16384x1, .i1⟩
  | .hbm, ⟨28, _⟩ => ⟨S_, .i32⟩
  | .hbm, ⟨29, _⟩ => ⟨S16384x1, .i32⟩
  | .hbm, ⟨30, _⟩ => ⟨S16384x1, .i32⟩
  | .hbm, ⟨31, _⟩ => ⟨S16384x1, .i32⟩
  | .hbm, ⟨32, _⟩ => ⟨S16384x1x1, .i32⟩
  | .hbm, ⟨33, _⟩ => ⟨S1, .i32⟩
  | .hbm, ⟨34, _⟩ => ⟨S_, .i32⟩
  | .hbm, ⟨35, _⟩ => ⟨S16384x1x1, .i32⟩
  | .hbm, ⟨36, _⟩ => ⟨S16384x1x1, .i1⟩
  | .hbm, ⟨37, _⟩ => ⟨S1x1x1, .i32⟩
  | .hbm, ⟨38, _⟩ => ⟨S16384x1x1, .i32⟩
  | .hbm, ⟨39, _⟩ => ⟨S16384x1x1, .i1⟩
  | .hbm, ⟨40, _⟩ => ⟨S16384x1x1, .i1⟩
  | .hbm, ⟨41, _⟩ => ⟨S_, .i1⟩
  | .hbm, ⟨42, _⟩ => ⟨S16384x1, .i1⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S16384, .f32⟩
  | .hbm, ⟨54, _⟩ => ⟨S_, .f32⟩
  | .hbm, ⟨55, _⟩ => ⟨S16384, .f32⟩
  | .hbm, ⟨56, _⟩ => ⟨S16384, .f32⟩
  | .hbm, ⟨57, _⟩ => ⟨S16384x1, .f32⟩
  | .hbm, ⟨58, _⟩ => ⟨S16384x16384, .f32⟩
  | .hbm, ⟨59, _⟩ => ⟨S16384x16384, .f32⟩
  | .hbm, ⟨60, _⟩ => ⟨S16384x16384, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S16384x1, .f32⟩
  | .hbm, ⟨65, _⟩ => ⟨S16384x16384, .f32⟩
  | .hbm, ⟨66, _⟩ => ⟨S16384x16384, .f32⟩
  | .hbm, ⟨67, _⟩ => ⟨S16384x1, .i32⟩
  | .hbm, ⟨68, _⟩ => ⟨S_, .i32⟩
  | .hbm, ⟨69, _⟩ => ⟨S16384x1, .i32⟩
  | .hbm, ⟨70, _⟩ => ⟨S16384x1, .i1⟩
  | .hbm, ⟨71, _⟩ => ⟨S_, .i32⟩
  | .hbm, ⟨72, _⟩ => ⟨S16384x1, .i32⟩
  | .hbm, ⟨73, _⟩ => ⟨S16384x1, .i32⟩
  | .hbm, ⟨74, _⟩ => ⟨S16384x1, .i32⟩
  | .hbm, ⟨75, _⟩ => ⟨S16384x1x1, .i32⟩
  | .hbm, ⟨76, _⟩ => ⟨S1, .i32⟩
  | .hbm, ⟨77, _⟩ => ⟨S_, .i32⟩
  | .hbm, ⟨78, _⟩ => ⟨S16384x1x1, .i32⟩
  | .hbm, ⟨79, _⟩ => ⟨S16384x1x1, .i1⟩
  | .hbm, ⟨80, _⟩ => ⟨S1x1x1, .i32⟩
  | .hbm, ⟨81, _⟩ => ⟨S16384x1x1, .i32⟩
  | .hbm, ⟨82, _⟩ => ⟨S16384x1x1, .i1⟩
  | .hbm, ⟨83, _⟩ => ⟨S16384x1x1, .i1⟩
  | .hbm, ⟨84, _⟩ => ⟨S_, .i1⟩
  | .hbm, ⟨85, _⟩ => ⟨S16384x1, .i1⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v6 : Ref sig .tc := ⟨.hbm, 23, rfl⟩
abbrev main_v7 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v8 : Ref sig .tc := ⟨.hbm, 46, rfl⟩
abbrev main_cst_0 : Ref sig .tc := ⟨.hbm, 47, rfl⟩
abbrev main_v9 : Ref sig .tc := ⟨.hbm, 48, rfl⟩
abbrev main_cst_1 : Ref sig .tc := ⟨.hbm, 49, rfl⟩
abbrev main_v10 : Ref sig .tc := ⟨.hbm, 50, rfl⟩
abbrev main_v11 : Ref sig .tc := ⟨.hbm, 51, rfl⟩
abbrev main_call2_cst : Ref sig .tc := ⟨.hbm, 52, rfl⟩
abbrev main_call2_v0 : Ref sig .tc := ⟨.hbm, 53, rfl⟩
abbrev main_call2_cst_0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_cst_1 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_v12 : Ref sig .tc := ⟨.hbm, 66, rfl⟩
abbrev main_v13 : Ref sig .tc := ⟨.hbm, 67, rfl⟩
abbrev main_call3_c : Ref sig .tc := ⟨.hbm, 68, rfl⟩
abbrev main_call3_v0 : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_c_1 : Ref sig .tc := ⟨.hbm, 76, rfl⟩
abbrev main_call3_c_2 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_3 : Ref sig .tc := ⟨.hbm, 84, rfl⟩
abbrev main_call3_v12 : Ref sig .tc := ⟨.hbm, 85, rfl⟩
abbrev main_call3_v13 : Ref sig .tc := ⟨.hbm, 86, rfl⟩
abbrev main_call3_cst : Ref sig .tc := ⟨.hbm, 87, rfl⟩
abbrev main_call3_v14 : Ref sig .tc := ⟨.hbm, 88, rfl⟩
abbrev main_v14 : Ref sig .tc := ⟨.hbm, 89, rfl⟩
abbrev main_cst_2 : Ref sig .tc := ⟨.hbm, 90, rfl⟩
abbrev main_v15 : Ref sig .tc := ⟨.hbm, 91, rfl⟩
abbrev main_cst_3 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_cst_4 : Ref sig .tc := ⟨.hbm, 96, rfl⟩
abbrev main_v19 : Ref sig .tc := ⟨.hbm, 97, rfl⟩

abbrev nD : Nat := 1
abbrev τ : Topo := Topo.v7x

variable {F : FTy → Type} [FloatOps F]

class Facts₀ : Prop where
  transposes_S16384x512_S512x16384_1_0 : S16384x512.Transposes [1, 0] S512x16384
  bcast_S_S16384x16384 : S_.BroadcastsInDim S16384x16384 (![] : Fin 0 → Fin S16384x16384.rank)
  transposes_S16384x16384_S16384x16384_1_0 : S16384x16384.Transposes [1, 0] S16384x16384
  reducesTo_S16384x16384_S16384_d1 : S16384x16384.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16384_0_1 : S16384x1.BroadcastsInDim S16384x16384 (![0, 1] : Fin 2 → Fin S16384x16384.rank)
  bcast_S_S16384x1 : S_.BroadcastsInDim S16384x1 (![] : Fin 0 → Fin S16384x1.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  reducesTo_S16384x1_S_d0_1 : S16384x1.ReducesTo [0, 1] S_
  dot_S16384x512_S512x16384_S16384x16384_1_0_0_1_n_n_wf : DotDims.WF S16384x512 S512x16384 S16384x16384 [1] [0] [0] [1] [] []
  gather_S16384x16384_S16384x1x1_S16384x1_n_1_0_0_1_2_11_wf : GatherDims.WF S16384x16384 S16384x1x1 S16384x1 [] [1] [0] [1] [0] 2 ![1, 1]

variable [Facts₀]

def dot_S16384x512_S512x16384_S16384x16384_1_0_0_1_n_n : DotDims S16384x512 S512x16384 S16384x16384 where
  lhsContracting := [1]
  rhsContracting := [0]
  lhsNonContracting := [0]
  rhsNonContracting := [1]
  lhsBatch := []
  rhsBatch := []
  wf := dot_S16384x512_S512x16384_S16384x16384_1_0_0_1_n_n_wf
def gather_S16384x16384_S16384x1x1_S16384x1_n_1_0_0_1_2_11 : GatherDims S16384x16384 S16384x1x1 S16384x1 where
  offsetDims := []
  collapsedSliceDims := [1]
  operandBatchingDims := [0]
  startIndicesBatchingDims := [0]
  startIndexMap := [1]
  indexVectorDim := 2
  sliceSizes := ![1, 1]
  wf := gather_S16384x16384_S16384x1x1_S16384x1_n_1_0_0_1_2_11_wf

class Facts : Prop extends Facts₀ where

variable [Facts]
-- ==== Proof.KBShared.lean ====
/-
  What the two regions' body runs are stated over: when the body's one branch is taken, and the memrefs the pipeline calls the
  body with.

  Each region runs the same body on a 16 × 16 grid; point `t` has row block `t / 16` and column block `t % 16`. The body
  resets its two carried columns (the running maximum and the running sum) exactly when the column block is 0.
-/
import proofs.«116465_j25151328485434_2_alg».proof.Proof.Gen.Kernel.Launch
import proofs.«116465_j25151328485434_2_alg».proof.Proof.Gen.Kernel.Skeleton
import proofs.«116465_j25151328485434_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

/-! ## The branch: the column block is the first -/

/-- The body's branch condition in region 0, from the grid coordinates: the column coordinate is `0`. -/
abbrev cond0 (i : grid0.Coords) : Prop := (Scalar.cmpi .ne (Scalar.extui (Scalar.cmpi .eq (BitVec.ofNat 32 (i 1).val) 0#32)) 0#32) = 1#1
/-- It holds at the points ≡ 0 (mod 16). -/
theorem hcond0 : ∀ t : Fin cfg0.N, cond0 (grid0.coords t) ↔ t.val % 16 = 0 :=
  (by decide +kernel : ∀ t : Fin grid0.N, cond0 (grid0.coords t) ↔ t.val % 16 = 0)

/-- The same in region 1. -/
abbrev cond1 (i : grid1.Coords) : Prop := (Scalar.cmpi .ne (Scalar.extui (Scalar.cmpi .eq (BitVec.ofNat 32 (i 1).val) 0#32)) 0#32) = 1#1
theorem hcond1 : ∀ t : Fin cfg1.N, cond1 (grid1.coords t) ↔ t.val % 16 = 0 :=
  (by decide +kernel : ∀ t : Fin grid1.N, cond1 (grid1.coords t) ↔ t.val % 16 = 0)

end Cert.Kernel.Hand

end
-- ==== Proof.KBRun0A.lean ====
/-
  Region 0's body run on whole staging memrefs, in the case where the column block is the first (the carried columns are reset first).

  The run finds, as lists of stored pieces (last first), what the output block's buffer and the two carried columns hold when
  the body returns; the two input blocks are handed back as they were.
-/
import proofs.«116465_j25151328485434_2_alg».proof.Proof.KBShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The body of region 0 in the case of a first column block: from the row block `x0`, the column block `x1`, the output buffer at
    anything and the carried columns at anything, it runs to the continuation with the input blocks as they
    were and each of the three written buffers at its pieces. -/
noncomputable def kernelRun0_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond0 i)
    (x0 : Vec F S1024x512 .bf16) (x1 : Vec F S1024x512 .bf16) :
    Σ' (L2 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__row_reduce_kernel i arg2 harg2 arg3 harg3 arg4 harg4 arg5 harg5 arg6 harg6) K } := by
  refine ⟨?_, ?_, ?_, fun E K => ?run⟩
  case run =>
    simp only [cc0__row_reduce_kernel_eq_skeleton]; unfold cc0__row_reduce_kernel_skel
    simp only [k0_part1_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.KBRun0B.lean ====
/-
  Region 0's body run on whole staging memrefs, in the case where the column block is not the first (the carried columns hold what the point before left).

  The run finds, as lists of stored pieces (last first), what the output block's buffer and the two carried columns hold when
  the body returns; the two input blocks are handed back as they were.
-/
import proofs.«116465_j25151328485434_2_alg».proof.Proof.KBRun0A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The body of region 0 in the case of a later column block: from the row block `x0`, the column block `x1`, the output buffer at
    anything and the carried columns at `xs0` (the maximum) and `xs1` (the sum), it runs to the continuation with the input blocks as they
    were and each of the three written buffers at its pieces. -/
noncomputable def kernelRun0_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond0 i)
    (x0 : Vec F S1024x512 .bf16) (x1 : Vec F S1024x512 .bf16) (xs0 : Vec F S1024x1 .f32) (xs1 : Vec F S1024x1 .f32) :
    Σ' (L2 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__row_reduce_kernel i arg2 harg2 arg3 harg3 arg4 harg4 arg5 harg5 arg6 harg6) K } := by
  refine ⟨?_, ?_, ?_, fun E K => ?run⟩
  case run =>
    simp only [cc0__row_reduce_kernel_eq_skeleton]; unfold cc0__row_reduce_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.KBRun1A.lean ====
/-
  Region 1's body run on whole staging memrefs, in the case where the column block is the first (the carried columns are reset first).

  The run finds, as lists of stored pieces (last first), what the output block's buffer and the two carried columns hold when
  the body returns; the two input blocks are handed back as they were.
-/
import proofs.«116465_j25151328485434_2_alg».proof.Proof.KBRun0B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The body of region 1 in the case of a first column block: from the row block `x0`, the column block `x1`, the output buffer at
    anything and the carried columns at anything, it runs to the continuation with the input blocks as they
    were and each of the three written buffers at its pieces. -/
noncomputable def kernelRun1_A (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond1 i)
    (x0 : Vec F S1024x512 .bf16) (x1 : Vec F S1024x512 .bf16) :
    Σ' (L2 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__row_reduce_kernel i arg2 harg2 arg3 harg3 arg4 harg4 arg5 harg5 arg6 harg6) K } := by
  refine ⟨?_, ?_, ?_, fun E K => ?run⟩
  case run =>
    simp only [cc1__row_reduce_kernel_eq_skeleton]; unfold cc1__row_reduce_kernel_skel
    simp only [k1_part1_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.KBRun1B.lean ====
/-
  Region 1's body run on whole staging memrefs, in the case where the column block is not the first (the carried columns hold what the point before left).

  The run finds, as lists of stored pieces (last first), what the output block's buffer and the two carried columns hold when
  the body returns; the two input blocks are handed back as they were.
-/
import proofs.«116465_j25151328485434_2_alg».proof.Proof.KBRun1A

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 4000000 in
/-- The body of region 1 in the case of a later column block: from the row block `x0`, the column block `x1`, the output buffer at
    anything and the carried columns at `xs0` (the maximum) and `xs1` (the sum), it runs to the continuation with the input blocks as they
    were and each of the three written buffers at its pieces. -/
noncomputable def kernelRun1_B (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond1 i)
    (x0 : Vec F S1024x512 .bf16) (x1 : Vec F S1024x512 .bf16) (xs0 : Vec F S1024x1 .f32) (xs1 : Vec F S1024x1 .f32) :
    Σ' (L2 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__row_reduce_kernel i arg2 harg2 arg3 harg3 arg4 harg4 arg5 harg5 arg6 harg6) K } := by
  refine ⟨?_, ?_, ?_, fun E K => ?run⟩
  case run =>
    simp only [cc1__row_reduce_kernel_eq_skeleton]; unfold cc1__row_reduce_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.Kernel.Hand

end
-- ==== Proof.KBBody.lean ====
/-
  The two regions' bodies against the pipeline: what the output block's buffer and the two carried columns (the running maximum
  and the running sum of each row) hold after every grid point, and the body obligation of each region.

  A region's grid is 16 row blocks by 16 column blocks, the column block moving fastest. At a first column block the body resets
  the carried columns and folds the block in; at a later one it folds the block into what the point before left. The output block
  is stored whole at every point, so what is written back after a row block's last column block is the value folded over all
  sixteen. Everything here is stated at a parameter `V`, the core's buffer contents when the region is entered.
-/
import proofs.«116465_j25151328485434_2_alg».proof.Proof.KBRun1B

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: custom_call 0, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The column window's current buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- No window of the region is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- One staging buffer of the output window, through which its contents are stated, and the two carried columns as views. -/
abbrev VO0_2 : View sig .tc .vmem S1024x1 .f32 := (Memref.whole cc0_stg2_0 : Memref sig .tc .vmem S1024x1 .f32).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The scoped buffers no window of the region stages, with the two carried columns as memrefs owned at some contents, beside
    the generator register: what the region's invariant is before its first point. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, scM0_1, owns_whole]; try rfl

/-- The pieces the case-A run leaves in the output block's buffer cover it. -/
theorem cover0_A_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond0 i)
    (x0 x1 : Vec F S1024x512 .bf16) (y : S1024x1.Idx) :
    ∃ pc ∈ (kernelRun0_A c i arg2 harg2 arg3 harg3 arg4 harg4 arg5 harg5 arg6 harg6 hc x0 x1).1, y ∈ pc.1.set :=
  View.cover_of_tiledL (kernelRun0_A c i arg2 harg2 arg3 harg3 arg4 harg4 arg5 harg5 arg6 harg6 hc x0 x1).1 S1024x1.size (by sl_kernel_rfl) y
/-- What the case-A run leaves in the output block's buffer: its pieces read back. -/
def out0_A_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond0 i)
    (x0 x1 : Vec F S1024x512 .bf16) : Vec F S1024x1 .f32 :=
  VO0_2.read (Elt F) (VO0_2.writes (Elt F) VO0_2.junk (kernelRun0_A c i arg2 harg2 arg3 harg3 arg4 harg4 arg5 harg5 arg6 harg6 hc x0 x1).1)
/-- The pieces the case-A run leaves in the carried maximum's buffer cover it. -/
theorem scover0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond0 i)
    (x0 x1 : Vec F S1024x512 .bf16) (y : S1024x1.Idx) :
    ∃ pc ∈ (kernelRun0_A c i arg2 harg2 arg3 harg3 arg4 harg4 arg5 harg5 arg6 harg6 hc x0 x1).2.1, y ∈ pc.1.set :=
  View.cover_of_tiledL (kernelRun0_A c i arg2 harg2 arg3 harg3 arg4 harg4 arg5 harg5 arg6 harg6 hc x0 x1).2.1 S1024x1.size (by sl_kernel_rfl) y
/-- What the case-A run leaves in the carried maximum's buffer. -/
def sout0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond0 i)
    (x0 x1 : Vec F S1024x512 .bf16) : Vec F S1024x1 .f32 :=
  VS0_0.read (Elt F) (VS0_0.writes (Elt F) VS0_0.junk (kernelRun0_A c i arg2 harg2 arg3 harg3 arg4 harg4 arg5 harg5 arg6 harg6 hc x0 x1).2.1)
/-- The pieces the case-A run leaves in the carried sum's buffer cover it. -/
theorem scover0_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond0 i)
    (x0 x1 : Vec F S1024x512 .bf16) (y : S1024x1.Idx) :
    ∃ pc ∈ (kernelRun0_A c i arg2 harg2 arg3 harg3 arg4 harg4 arg5 harg5 arg6 harg6 hc x0 x1).2.2.1, y ∈ pc.1.set :=
  View.cover_of_tiledL (kernelRun0_A c i arg2 harg2 arg3 harg3 arg4 harg4 arg5 harg5 arg6 harg6 hc x0 x1).2.2.1 S1024x1.size (by sl_kernel_rfl) y
/-- What the case-A run leaves in the carried sum's buffer. -/
def sout0_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond0 i)
    (x0 x1 : Vec F S1024x512 .bf16) : Vec F S1024x1 .f32 :=
  VS0_1.read (Elt F) (VS0_1.writes (Elt F) VS0_1.junk (kernelRun0_A c i arg2 harg2 arg3 harg3 arg4 harg4 arg5 harg5 arg6 harg6 hc x0 x1).2.2.1)

/-- The pieces the case-B run leaves in the output block's buffer cover it. -/
theorem cover0_B_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond0 i)
    (x0 x1 : Vec F S1024x512 .bf16) (xs0 : Vec F S1024x1 .f32) (xs1 : Vec F S1024x1 .f32) (y : S1024x1.Idx) :
    ∃ pc ∈ (kernelRun0_B c i arg2 harg2 arg3 harg3 arg4 harg4 arg5 harg5 arg6 harg6 hc x0 x1 xs0 xs1).1, y ∈ pc.1.set :=
  View.cover_of_tiledL (kernelRun0_B c i arg2 harg2 arg3 harg3 arg4 harg4 arg5 harg5 arg6 harg6 hc x0 x1 xs0 xs1).1 S1024x1.size (by sl_kernel_rfl) y
/-- What the case-B run leaves in the output block's buffer: its pieces read back. -/
def out0_B_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond0 i)
    (x0 x1 : Vec F S1024x512 .bf16) (xs0 : Vec F S1024x1 .f32) (xs1 : Vec F S1024x1 .f32) : Vec F S1024x1 .f32 :=
  VO0_2.read (Elt F) (VO0_2.writes (Elt F) VO0_2.junk (kernelRun0_B c i arg2 harg2 arg3 harg3 arg4 harg4 arg5 harg5 arg6 harg6 hc x0 x1 xs0 xs1).1)
/-- The pieces the case-B run leaves in the carried maximum's buffer cover it. -/
theorem scover0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond0 i)
    (x0 x1 : Vec F S1024x512 .bf16) (xs0 : Vec F S1024x1 .f32) (xs1 : Vec F S1024x1 .f32) (y : S1024x1.Idx) :
    ∃ pc ∈ (kernelRun0_B c i arg2 harg2 arg3 harg3 arg4 harg4 arg5 harg5 arg6 harg6 hc x0 x1 xs0 xs1).2.1, y ∈ pc.1.set :=
  View.cover_of_tiledL (kernelRun0_B c i arg2 harg2 arg3 harg3 arg4 harg4 arg5 harg5 arg6 harg6 hc x0 x1 xs0 xs1).2.1 S1024x1.size (by sl_kernel_rfl) y
/-- What the case-B run leaves in the carried maximum's buffer. -/
def sout0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond0 i)
    (x0 x1 : Vec F S1024x512 .bf16) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 hc x0 x1 xs0 xs1).2.1)
/-- The pieces the case-B run leaves in the carried sum's buffer cover it. -/
theorem scover0_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond0 i)
    (x0 x1 : Vec F S1024x512 .bf16) (xs0 : Vec F S1024x1 .f32) (xs1 : Vec F S1024x1 .f32) (y : S1024x1.Idx) :
    ∃ pc ∈ (kernelRun0_B c i arg2 harg2 arg3 harg3 arg4 harg4 arg5 harg5 arg6 harg6 hc x0 x1 xs0 xs1).2.2.1, y ∈ pc.1.set :=
  View.cover_of_tiledL (kernelRun0_B c i arg2 harg2 arg3 harg3 arg4 harg4 arg5 harg5 arg6 harg6 hc x0 x1 xs0 xs1).2.2.1 S1024x1.size (by sl_kernel_rfl) y
/-- What the case-B run leaves in the carried sum's buffer. -/
def sout0_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond0 i)
    (x0 x1 : Vec F S1024x512 .bf16) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 hc x0 x1 xs0 xs1).2.2.1)

/-! ## What the output block's buffer and the two carried columns hold after each point -/

/-- After the body at position `n`: (the output block's buffer, the carried maximum, the carried sum). At a first column block
    the reset case, from the point's two input blocks; otherwise the carrying case, from them and what the point before left
    in the carried columns. -/
def outsAt0 (c : Dev nD) : (n : ℕ) → n < cfg0.N → Vec F S1024x1 .f32 × Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0 ⟨0, hn⟩).mpr (Nat.zero_mod _)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0 ⟨0, hn⟩).mpr (Nat.zero_mod _)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0 ⟨0, hn⟩).mpr (Nat.zero_mod _)) (iblk0 V c 0 ⟨0, hn⟩) (iblk0 V c 1 ⟨0, hn⟩))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0 ⟨n + 1, hn⟩).mpr h0) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0 ⟨n + 1, hn⟩).mpr h0) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

theorem outsAt0_A (c : Dev nD) (t : Fin cfg0.N) (h0 : t.val % 16 = 0) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0 t).mpr h0) (iblk0 V c 0 t) (iblk0 V c 1 t), sout0_A_0 c (grid0.coords t) (ms0_0 t) (hs0_0 t) (ms0_1 t) (hs0_1 t) (ms0_2 t) (hs0_2 t) scM0_0 (Memref.isWhole_whole _) scM0_1 (Memref.isWhole_whole _) ((hcond0 t).mpr h0) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) ((hcond0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: before the first point every scoped buffer outside the windows at anything;
    afterwards the two carried columns at what the point before left in them. The generator register rides along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  cases n with
  | zero => exact absurd rfl hz
  | succ n => rfl

/-! ## The pipeline's proof data -/

/-- The proof data of the region on core `c`: the arrays as the region finds them; after the body at point `t` each input's
    buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input windows' memrefs hold their blocks; the column coordinate decides the case; the invariant
    hands the body the carried columns at what the point before left (at anything before the first point) and takes them back
    at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 256 := lt_of_lt_of_eq t.isLt (show cfg0.N = 256 from N_0)
  by_cases h0 : t.val % 16 = 0
  · rw [outsAt0_A V c t h0]
    unfold out0_A_2 sout0_A_0 sout0_A_1; (try dsimp only)
    by_cases hz : t.val = 0
    · rw [PhiS0_castSucc V c t, PhiS0_zero V c _ _ hz, PhiA0_eq]
      iintro ⟨⟨⟨HS0, HS1, Hb2, Hb3, Hb4, Hb5, Hb6, Hb7, Hb8, Hb9⟩, Hg⟩, Ho, ⟨%d0, H0⟩, ⟨%d1, H1⟩, ⟨%d2, H2⟩⟩
      iapply ((kernelRun0_A c (grid0.coords t) _ _ _ _ _ _ _ _ _ _ ((hcond0 t).mpr h0) (iblk0 V c 0 t) (iblk0 V c 1 t)).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hb2 Hb3 Hb4 Hb5 Hb6 Hb7 Hb8 Hb9 Hg]
      · isplitl [HS0 HS1 Hb2 Hb3 Hb4 Hb5 Hb6 Hb7 Hb8 Hb9]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          isplitl [Hb2]
          · iexact Hb2
          isplitl [Hb3]
          · iexact Hb3
          isplitl [Hb4]
          · iexact Hb4
          isplitl [Hb5]
          · iexact Hb5
          isplitl [Hb6]
          · iexact Hb6
          isplitl [Hb7]
          · iexact Hb7
          isplitl [Hb8]
          · iexact Hb8
          iexact Hb9
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _ _ _)
    · rw [PhiS0_castSucc V c t, PhiS0_pos V c _ _ hz]
      iintro ⟨⟨⟨HS0, HS1, Hb2, Hb3, Hb4, Hb5, Hb6, Hb7, Hb8, Hb9⟩, Hg⟩, Ho, ⟨%d0, H0⟩, ⟨%d1, H1⟩, ⟨%d2, H2⟩⟩
      iapply ((kernelRun0_A c (grid0.coords t) _ _ _ _ _ _ _ _ _ _ ((hcond0 t).mpr h0) (iblk0 V c 0 t) (iblk0 V c 1 t)).2.2.2 Set.univ _)
      isplitl [H0]; · iexact H0
      isplitl [H1]; · iexact H1
      isplitl [H2]; · iexists _; iexact H2
      isplitl [HS0]; · iexists _; iexact HS0
      isplitl [HS1]; · iexists _; iexact HS1
      iintro ⟨H0, H1, ⟨%e2, H2⟩, ⟨%es0, HS0⟩, ⟨%es1, HS1⟩⟩
      isplitl [HS0 HS1 Hb2 Hb3 Hb4 Hb5 Hb6 Hb7 Hb8 Hb9 Hg]
      · isplitl [HS0 HS1 Hb2 Hb3 Hb4 Hb5 Hb6 Hb7 Hb8 Hb9]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          isplitl [Hb2]
          · iexact Hb2
          isplitl [Hb3]
          · iexact Hb3
          isplitl [Hb4]
          · iexact Hb4
          isplitl [Hb5]
          · iexact Hb5
          isplitl [Hb6]
          · iexact Hb6
          isplitl [Hb7]
          · iexact Hb7
          isplitl [Hb8]
          · iexact Hb8
          iexact Hb9
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _ _ _)
  · rw [outsAt0_B V c t h0]
    unfold out0_B_2 sout0_B_0 sout0_B_1; (try dsimp only)
    by_cases hz : t.val = 0
    · exfalso; omega
    · rw [PhiS0_castSucc V c t, PhiS0_pos V c _ _ hz]
      iintro ⟨⟨⟨HS0, HS1, Hb2, Hb3, Hb4, Hb5, Hb6, Hb7, Hb8, Hb9⟩, Hg⟩, Ho, ⟨%d0, H0⟩, ⟨%d1, H1⟩, ⟨%d2, H2⟩⟩
      iapply ((kernelRun0_B c (grid0.coords t) _ _ _ _ _ _ _ _ _ _ (fun h => h0 ((hcond0 t).mp h)) (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hb2 Hb3 Hb4 Hb5 Hb6 Hb7 Hb8 Hb9 Hg]
      · isplitl [HS0 HS1 Hb2 Hb3 Hb4 Hb5 Hb6 Hb7 Hb8 Hb9]
        · isplitl [HS0]
          · unfold owns; iexists _; isplitr
            swap; · iexact HS0
            ipureintro; exact View.read_writes_of_cover _ _ _ _ _ (scover0_B_0 c _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _)
          isplitl [Hb2]
          · iexact Hb2
          isplitl [Hb3]
          · iexact Hb3
          isplitl [Hb4]
          · iexact Hb4
          isplitl [Hb5]
          · iexact Hb5
          isplitl [Hb6]
          · iexact Hb6
          isplitl [Hb7]
          · iexact Hb7
          isplitl [Hb8]
          · iexact Hb8
          iexact Hb9
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives back every scoped buffer outside the windows at some contents: the carried
    columns' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hb2, Hb3, Hb4, Hb5, Hb6, Hb7, Hb8, Hb9⟩, Hg⟩
  isplitl [HS0 HS1 Hb2 Hb3 Hb4 Hb5 Hb6 Hb7 Hb8 Hb9]
  · isplitl [HS0]
    · iexists _; iexact HS0
    isplitl [HS1]
    · iexists _; iexact HS1
    isplitl [Hb2]
    · iexact Hb2
    isplitl [Hb3]
    · iexact Hb3
    isplitl [Hb4]
    · iexact Hb4
    isplitl [Hb5]
    · iexact Hb5
    isplitl [Hb6]
    · iexact Hb6
    isplitl [Hb7]
    · iexact Hb7
    isplitl [Hb8]
    · iexact Hb8
    iexact Hb9
  iexact Hg
theorem hout0 (c : Dev nD) : (dat0 V c).Φ (Fin.last cfg0.N) ⊢ Pipeline.ΦA spec0 c :=
  Phi_out0 V c _ (by rw [Fin.val_last]; have : cfg0.N = 256 := N_0; omega)

/-! # Region 1: custom_call 1, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The column window's current buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- No window of the region is idle at any point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-- One staging buffer of the output window, through which its contents are stated, and the two carried columns as views. -/
abbrev VO1_2 : View sig .tc .vmem S1024x1 .f32 := (Memref.whole cc1_stg2_0 : Memref sig .tc .vmem S1024x1 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev scM1_0 : Memref sig .tc .vmem S1024x1 .f32 := Memref.whole cc1_scratch0
abbrev scM1_1 : Memref sig .tc .vmem S1024x1 .f32 := Memref.whole cc1_scratch1
abbrev VS1_0 : View sig .tc .vmem S1024x1 .f32 := scM1_0.view
abbrev VS1_1 : View sig .tc .vmem S1024x1 .f32 := scM1_1.view

/-- The scoped buffers no window of the region stages, with the two carried columns as memrefs owned at some contents, beside
    the generator register: what the region's invariant is before its first point. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The pieces the case-A run leaves in the output block's buffer cover it. -/
theorem cover1_A_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond1 i)
    (x0 x1 : Vec F S1024x512 .bf16) (y : S1024x1.Idx) :
    ∃ pc ∈ (kernelRun1_A c i arg2 harg2 arg3 harg3 arg4 harg4 arg5 harg5 arg6 harg6 hc x0 x1).1, y ∈ pc.1.set :=
  View.cover_of_tiledL (kernelRun1_A c i arg2 harg2 arg3 harg3 arg4 harg4 arg5 harg5 arg6 harg6 hc x0 x1).1 S1024x1.size (by sl_kernel_rfl) y
/-- What the case-A run leaves in the output block's buffer: its pieces read back. -/
def out1_A_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond1 i)
    (x0 x1 : Vec F S1024x512 .bf16) : Vec F S1024x1 .f32 :=
  VO1_2.read (Elt F) (VO1_2.writes (Elt F) VO1_2.junk (kernelRun1_A c i arg2 harg2 arg3 harg3 arg4 harg4 arg5 harg5 arg6 harg6 hc x0 x1).1)
/-- The pieces the case-A run leaves in the carried maximum's buffer cover it. -/
theorem scover1_A_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond1 i)
    (x0 x1 : Vec F S1024x512 .bf16) (y : S1024x1.Idx) :
    ∃ pc ∈ (kernelRun1_A c i arg2 harg2 arg3 harg3 arg4 harg4 arg5 harg5 arg6 harg6 hc x0 x1).2.1, y ∈ pc.1.set :=
  View.cover_of_tiledL (kernelRun1_A c i arg2 harg2 arg3 harg3 arg4 harg4 arg5 harg5 arg6 harg6 hc x0 x1).2.1 S1024x1.size (by sl_kernel_rfl) y
/-- What the case-A run leaves in the carried maximum's buffer. -/
def sout1_A_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond1 i)
    (x0 x1 : Vec F S1024x512 .bf16) : Vec F S1024x1 .f32 :=
  VS1_0.read (Elt F) (VS1_0.writes (Elt F) VS1_0.junk (kernelRun1_A c i arg2 harg2 arg3 harg3 arg4 harg4 arg5 harg5 arg6 harg6 hc x0 x1).2.1)
/-- The pieces the case-A run leaves in the carried sum's buffer cover it. -/
theorem scover1_A_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond1 i)
    (x0 x1 : Vec F S1024x512 .bf16) (y : S1024x1.Idx) :
    ∃ pc ∈ (kernelRun1_A c i arg2 harg2 arg3 harg3 arg4 harg4 arg5 harg5 arg6 harg6 hc x0 x1).2.2.1, y ∈ pc.1.set :=
  View.cover_of_tiledL (kernelRun1_A c i arg2 harg2 arg3 harg3 arg4 harg4 arg5 harg5 arg6 harg6 hc x0 x1).2.2.1 S1024x1.size (by sl_kernel_rfl) y
/-- What the case-A run leaves in the carried sum's buffer. -/
def sout1_A_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond1 i)
    (x0 x1 : Vec F S1024x512 .bf16) : Vec F S1024x1 .f32 :=
  VS1_1.read (Elt F) (VS1_1.writes (Elt F) VS1_1.junk (kernelRun1_A c i arg2 harg2 arg3 harg3 arg4 harg4 arg5 harg5 arg6 harg6 hc x0 x1).2.2.1)

/-- The pieces the case-B run leaves in the output block's buffer cover it. -/
theorem cover1_B_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond1 i)
    (x0 x1 : Vec F S1024x512 .bf16) (xs0 : Vec F S1024x1 .f32) (xs1 : Vec F S1024x1 .f32) (y : S1024x1.Idx) :
    ∃ pc ∈ (kernelRun1_B c i arg2 harg2 arg3 harg3 arg4 harg4 arg5 harg5 arg6 harg6 hc x0 x1 xs0 xs1).1, y ∈ pc.1.set :=
  View.cover_of_tiledL (kernelRun1_B c i arg2 harg2 arg3 harg3 arg4 harg4 arg5 harg5 arg6 harg6 hc x0 x1 xs0 xs1).1 S1024x1.size (by sl_kernel_rfl) y
/-- What the case-B run leaves in the output block's buffer: its pieces read back. -/
def out1_B_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond1 i)
    (x0 x1 : Vec F S1024x512 .bf16) (xs0 : Vec F S1024x1 .f32) (xs1 : Vec F S1024x1 .f32) : Vec F S1024x1 .f32 :=
  VO1_2.read (Elt F) (VO1_2.writes (Elt F) VO1_2.junk (kernelRun1_B c i arg2 harg2 arg3 harg3 arg4 harg4 arg5 harg5 arg6 harg6 hc x0 x1 xs0 xs1).1)
/-- The pieces the case-B run leaves in the carried maximum's buffer cover it. -/
theorem scover1_B_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond1 i)
    (x0 x1 : Vec F S1024x512 .bf16) (xs0 : Vec F S1024x1 .f32) (xs1 : Vec F S1024x1 .f32) (y : S1024x1.Idx) :
    ∃ pc ∈ (kernelRun1_B c i arg2 harg2 arg3 harg3 arg4 harg4 arg5 harg5 arg6 harg6 hc x0 x1 xs0 xs1).2.1, y ∈ pc.1.set :=
  View.cover_of_tiledL (kernelRun1_B c i arg2 harg2 arg3 harg3 arg4 harg4 arg5 harg5 arg6 harg6 hc x0 x1 xs0 xs1).2.1 S1024x1.size (by sl_kernel_rfl) y
/-- What the case-B run leaves in the carried maximum's buffer. -/
def sout1_B_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond1 i)
    (x0 x1 : Vec F S1024x512 .bf16) (xs0 : Vec F S1024x1 .f32) (xs1 : Vec F S1024x1 .f32) : Vec F S1024x1 .f32 :=
  VS1_0.read (Elt F) (VS1_0.writes (Elt F) VS1_0.junk (kernelRun1_B c i arg2 harg2 arg3 harg3 arg4 harg4 arg5 harg5 arg6 harg6 hc x0 x1 xs0 xs1).2.1)
/-- The pieces the case-B run leaves in the carried sum's buffer cover it. -/
theorem scover1_B_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond1 i)
    (x0 x1 : Vec F S1024x512 .bf16) (xs0 : Vec F S1024x1 .f32) (xs1 : Vec F S1024x1 .f32) (y : S1024x1.Idx) :
    ∃ pc ∈ (kernelRun1_B c i arg2 harg2 arg3 harg3 arg4 harg4 arg5 harg5 arg6 harg6 hc x0 x1 xs0 xs1).2.2.1, y ∈ pc.1.set :=
  View.cover_of_tiledL (kernelRun1_B c i arg2 harg2 arg3 harg3 arg4 harg4 arg5 harg5 arg6 harg6 hc x0 x1 xs0 xs1).2.2.1 S1024x1.size (by sl_kernel_rfl) y
/-- What the case-B run leaves in the carried sum's buffer. -/
def sout1_B_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond1 i)
    (x0 x1 : Vec F S1024x512 .bf16) (xs0 : Vec F S1024x1 .f32) (xs1 : Vec F S1024x1 .f32) : Vec F S1024x1 .f32 :=
  VS1_1.read (Elt F) (VS1_1.writes (Elt F) VS1_1.junk (kernelRun1_B c i arg2 harg2 arg3 harg3 arg4 harg4 arg5 harg5 arg6 harg6 hc x0 x1 xs0 xs1).2.2.1)

/-! ## What the output block's buffer and the two carried columns hold after each point -/

/-- After the body at position `n`: (the output block's buffer, the carried maximum, the carried sum). At a first column block
    the reset case, from the point's two input blocks; otherwise the carrying case, from them and what the point before left
    in the carried columns. -/
def outsAt1 (c : Dev nD) : (n : ℕ) → n < cfg1.N → Vec F S1024x1 .f32 × Vec F S1024x1 .f32 × Vec F S1024x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1 ⟨0, hn⟩).mpr (Nat.zero_mod _)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1 ⟨0, hn⟩).mpr (Nat.zero_mod _)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1 ⟨0, hn⟩).mpr (Nat.zero_mod _)) (iblk1 V c 0 ⟨0, hn⟩) (iblk1 V c 1 ⟨0, hn⟩))
  | n + 1, hn =>
    if h0 : (n + 1) % 16 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1 ⟨n + 1, hn⟩).mpr h0) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1 ⟨n + 1, hn⟩).mpr h0) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2)

theorem outsAt1_A (c : Dev nD) (t : Fin cfg1.N) (h0 : t.val % 16 = 0) :
    outsAt1 V c t.val t.isLt = (out1_A_2 c (grid1.coords t) (ms1_0 t) (hs1_0 t) (ms1_1 t) (hs1_1 t) (ms1_2 t) (hs1_2 t) scM1_0 (Memref.isWhole_whole _) scM1_1 (Memref.isWhole_whole _) ((hcond1 t).mpr h0) (iblk1 V c 0 t) (iblk1 V c 1 t), sout1_A_0 c (grid1.coords t) (ms1_0 t) (hs1_0 t) (ms1_1 t) (hs1_1 t) (ms1_2 t) (hs1_2 t) scM1_0 (Memref.isWhole_whole _) scM1_1 (Memref.isWhole_whole _) ((hcond1 t).mpr h0) (iblk1 V c 0 t) (iblk1 V c 1 t), sout1_A_1 c (grid1.coords t) (ms1_0 t) (hs1_0 t) (ms1_1 t) (hs1_1 t) (ms1_2 t) (hs1_2 t) scM1_0 (Memref.isWhole_whole _) scM1_1 (Memref.isWhole_whole _) ((hcond1 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = (out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: before the first point every scoped buffer outside the windows at anything;
    afterwards the two carried columns at what the point before left in them. The generator register rides along. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.1) ∗ owns (c : Thread nD τ) scM1_1 fullShare ((outsAt1 V c n hn).2.2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

/-- The proof data of the region on core `c`: the arrays as the region finds them; after the body at point `t` each input's
    buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the input windows' memrefs hold their blocks; the column coordinate decides the case; the invariant
    hands the body the carried columns at what the point before left (at anything before the first point) and takes them back
    at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 256 := lt_of_lt_of_eq t.isLt (show cfg1.N = 256 from N_1)
  by_cases h0 : t.val % 16 = 0
  · rw [outsAt1_A V c t h0]
    unfold out1_A_2 sout1_A_0 sout1_A_1; (try dsimp only)
    by_cases hz : t.val = 0
    · rw [PhiS1_castSucc V c t, PhiS1_zero V c _ _ hz, PhiA1_eq]
      iintro ⟨⟨⟨Hb0, Hb1, Hb2, Hb3, Hb4, Hb5, Hb6, Hb7, HS0, HS1⟩, Hg⟩, Ho, ⟨%d0, H0⟩, ⟨%d1, H1⟩, ⟨%d2, H2⟩⟩
      iapply ((kernelRun1_A c (grid1.coords t) _ _ _ _ _ _ _ _ _ _ ((hcond1 t).mpr h0) (iblk1 V c 0 t) (iblk1 V c 1 t)).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [Hb0 Hb1 Hb2 Hb3 Hb4 Hb5 Hb6 Hb7 HS0 HS1 Hg]
      · isplitl [Hb0 Hb1 Hb2 Hb3 Hb4 Hb5 Hb6 Hb7 HS0 HS1]
        · isplitl [Hb0]
          · iexact Hb0
          isplitl [Hb1]
          · iexact Hb1
          isplitl [Hb2]
          · iexact Hb2
          isplitl [Hb3]
          · iexact Hb3
          isplitl [Hb4]
          · iexact Hb4
          isplitl [Hb5]
          · iexact Hb5
          isplitl [Hb6]
          · iexact Hb6
          isplitl [Hb7]
          · iexact Hb7
          isplitl [HS0]
          · unfold owns; iexists _; isplitr
            swap; · iexact HS0
            ipureintro; exact View.read_writes_of_cover _ _ _ _ _ (scover1_A_0 c _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _ _ _)
    · rw [PhiS1_castSucc V c t, PhiS1_pos V c _ _ hz]
      iintro ⟨⟨⟨Hb0, Hb1, Hb2, Hb3, Hb4, Hb5, Hb6, Hb7, HS0, HS1⟩, Hg⟩, Ho, ⟨%d0, H0⟩, ⟨%d1, H1⟩, ⟨%d2, H2⟩⟩
      iapply ((kernelRun1_A c (grid1.coords t) _ _ _ _ _ _ _ _ _ _ ((hcond1 t).mpr h0) (iblk1 V c 0 t) (iblk1 V c 1 t)).2.2.2 Set.univ _)
      isplitl [H0]; · iexact H0
      isplitl [H1]; · iexact H1
      isplitl [H2]; · iexists _; iexact H2
      isplitl [HS0]; · iexists _; iexact HS0
      isplitl [HS1]; · iexists _; iexact HS1
      iintro ⟨H0, H1, ⟨%e2, H2⟩, ⟨%es0, HS0⟩, ⟨%es1, HS1⟩⟩
      isplitl [Hb0 Hb1 Hb2 Hb3 Hb4 Hb5 Hb6 Hb7 HS0 HS1 Hg]
      · isplitl [Hb0 Hb1 Hb2 Hb3 Hb4 Hb5 Hb6 Hb7 HS0 HS1]
        · isplitl [Hb0]
          · iexact Hb0
          isplitl [Hb1]
          · iexact Hb1
          isplitl [Hb2]
          · iexact Hb2
          isplitl [Hb3]
          · iexact Hb3
          isplitl [Hb4]
          · iexact Hb4
          isplitl [Hb5]
          · iexact Hb5
          isplitl [Hb6]
          · iexact Hb6
          isplitl [Hb7]
          · iexact Hb7
          isplitl [HS0]
          · unfold owns; iexists _; isplitr
            swap; · iexact HS0
            ipureintro; exact View.read_writes_of_cover _ _ _ _ _ (scover1_A_0 c _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _ _ _)
  · rw [outsAt1_B V c t h0]
    unfold out1_B_2 sout1_B_0 sout1_B_1; (try dsimp only)
    by_cases hz : t.val = 0
    · exfalso; omega
    · rw [PhiS1_castSucc V c t, PhiS1_pos V c _ _ hz]
      iintro ⟨⟨⟨Hb0, Hb1, Hb2, Hb3, Hb4, Hb5, Hb6, Hb7, HS0, HS1⟩, Hg⟩, Ho, ⟨%d0, H0⟩, ⟨%d1, H1⟩, ⟨%d2, H2⟩⟩
      iapply ((kernelRun1_B c (grid1.coords t) _ _ _ _ _ _ _ _ _ _ (fun h => h0 ((hcond1 t).mp h)) (iblk1 V c 0 t) (iblk1 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [Hb0 Hb1 Hb2 Hb3 Hb4 Hb5 Hb6 Hb7 HS0 HS1 Hg]
      · isplitl [Hb0 Hb1 Hb2 Hb3 Hb4 Hb5 Hb6 Hb7 HS0 HS1]
        · isplitl [Hb0]
          · iexact Hb0
          isplitl [Hb1]
          · iexact Hb1
          isplitl [Hb2]
          · iexact Hb2
          isplitl [Hb3]
          · iexact Hb3
          isplitl [Hb4]
          · iexact Hb4
          isplitl [Hb5]
          · iexact Hb5
          isplitl [Hb6]
          · iexact Hb6
          isplitl [Hb7]
          · iexact Hb7
          isplitl [HS0]
          · unfold owns; iexists _; isplitr
            swap; · iexact HS0
            ipureintro; exact View.read_writes_of_cover _ _ _ _ _ (scover1_B_0 c _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_B_2 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives back every scoped buffer outside the windows at some contents: the carried
    columns' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hb0, Hb1, Hb2, Hb3, Hb4, Hb5, Hb6, Hb7, HS0, HS1⟩, Hg⟩
  isplitl [Hb0 Hb1 Hb2 Hb3 Hb4 Hb5 Hb6 Hb7 HS0 HS1]
  · isplitl [Hb0]
    · iexact Hb0
    isplitl [Hb1]
    · iexact Hb1
    isplitl [Hb2]
    · iexact Hb2
    isplitl [Hb3]
    · iexact Hb3
    isplitl [Hb4]
    · iexact Hb4
    isplitl [Hb5]
    · iexact Hb5
    isplitl [Hb6]
    · iexact Hb6
    isplitl [Hb7]
    · iexact Hb7
    isplitl [HS0]
    · iexists _; iexact HS0
    iexists _; iexact HS1
  iexact Hg
theorem hout1 (c : Dev nD) : (dat1 V c).Φ (Fin.last cfg1.N) ⊢ Pipeline.ΦA spec1 c :=
  Phi_out1 V c _ (by rw [Fin.val_last]; have : cfg1.N = 256 := N_1; omega)

end Cert.Kernel.Hand

end
-- ==== Proof.KBMain.lean ====
/-
  The whole program's run: @main as four segments — the host lines before the regions, region 0, region 1, the host lines after —
  launched once, each segment entered from what the one before it left.

  The core's unscoped buffers are followed through @main as a fold from the launch memory: after the first host lines
  (`W1`), after region 0's write-backs (`W2`: its output array at what the sixteen row blocks' last points wrote, everything
  else as entered), after region 1's (`W3`), after the last host lines (`W4`). The run ends with EVERY unscoped buffer at `W4`;
  the two argument arrays read back through the fold are the launch contents.
-/
import proofs.«116465_j25151328485434_2_alg».proof.Proof.KBBody
import proofs.«116465_j25151328485434_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host lines (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host lines: what the run ends with. -/
abbrev W4 : Dev nD → Valuation τ sig (Elt F) := fun c => StableHlo.after hostOps2 (W3 m c)

/-! ### The arguments end as launched: no host line writes one and no region stages one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A stretch of host lines as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W4`, the generator register at some state. -/
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with the printed one only when unification may unfold plain
-- definitions in a metavariable's type
set_option backward.isDefEq.respectTransparency.types false in
/-- Region 0 over the thread state: entered from every unscoped buffer at `W1`, left at `W2`. Its arrays are split out
    of the unscoped buffers and put back at the exit contents; the generator register goes into the region's invariant and comes
    back; the scoped buffers outside the windows enter the invariant at anything and leave it so; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered from every unscoped buffer at `W2`, left at `W3`. Its arrays are split out
    of the unscoped buffers and put back at the exit contents; the generator register goes into the region's invariant and comes
    back; the scoped buffers outside the windows enter the invariant at anything and leave it so; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates, nothing
    faulting, and every final state holds every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => show (iprop(StableHlo.held (c : Thread nD τ) (Pipeline.ucRefs τ sig) (W4 m c) ∗ R c) : sProp 𝕄)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (run_all m ρ)

/-- The run with its result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v21) = W4 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v21 (by decide)),
     (h c _ (mem_uc main_arg0 (by decide))).trans (W4_main_arg0 m c),
     (h c _ (mem_uc main_arg1 (by decide))).trans (W4_main_arg1 m c)⟩) (run_all m ρ)

end Cert.Kernel.Hand

end
-- ==== Proof.KIShared.lean ====
/-
  What the two regions' body runs are stated over: when the body's one branch is taken, and the memrefs the pipeline calls the
  body with.

  Each region runs the same body on a 16 × 16 grid; point `t` has row block `t / 16` and column block `t % 16`. The body
  resets its two carried columns (the running maximum and the running sum) exactly when the column block is 0.
-/
import proofs.«116465_j25151328485434_2_alg».proof.Proof.Gen.KernelIdeal.Launch
import proofs.«116465_j25151328485434_2_alg».proof.Proof.Gen.KernelIdeal.Skeleton
import proofs.«116465_j25151328485434_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

/-! ## The branch: the column block is the first -/

/-- The body's branch condition in region 0, from the grid coordinates: the column coordinate is `0`. -/
abbrev cond0 (i : grid0.Coords) : Prop := (Scalar.cmpi .ne (Scalar.extui (Scalar.cmpi .eq (BitVec.ofNat 32 (i 1).val) 0#32)) 0#32) = 1#1
/-- It holds at the points ≡ 0 (mod 16). -/
theorem hcond0 : ∀ t : Fin cfg0.N, cond0 (grid0.coords t) ↔ t.val % 16 = 0 :=
  (by decide +kernel : ∀ t : Fin grid0.N, cond0 (grid0.coords t) ↔ t.val % 16 = 0)

/-- The same in region 1. -/
abbrev cond1 (i : grid1.Coords) : Prop := (Scalar.cmpi .ne (Scalar.extui (Scalar.cmpi .eq (BitVec.ofNat 32 (i 1).val) 0#32)) 0#32) = 1#1
theorem hcond1 : ∀ t : Fin cfg1.N, cond1 (grid1.coords t) ↔ t.val % 16 = 0 :=
  (by decide +kernel : ∀ t : Fin grid1.N, cond1 (grid1.coords t) ↔ t.val % 16 = 0)

end Cert.KernelIdeal.Hand

end
-- ==== Proof.KIRun0A.lean ====
/-
  Region 0's body run on whole staging memrefs, in the case where the column block is the first (the carried columns are reset first).

  The run finds, as lists of stored pieces (last first), what the output block's buffer and the two carried columns hold when
  the body returns; the two input blocks are handed back as they were.
-/
import proofs.«116465_j25151328485434_2_alg».proof.Proof.KIShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The body of region 0 in the case of a first column block: from the row block `x0`, the column block `x1`, the output buffer at
    anything and the carried columns at anything, it runs to the continuation with the input blocks as they
    were and each of the three written buffers at its pieces. -/
noncomputable def kernelRun0_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond0 i)
    (x0 : Vec F S1024x512 .bf16) (x1 : Vec F S1024x512 .bf16) :
    Σ' (L2 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__row_reduce_kernel i arg2 harg2 arg3 harg3 arg4 harg4 arg5 harg5 arg6 harg6) K } := by
  refine ⟨?_, ?_, ?_, fun E K => ?run⟩
  case run =>
    simp only [cc0__row_reduce_kernel_eq_skeleton]; unfold cc0__row_reduce_kernel_skel
    simp only [k0_part1_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KIRun0B.lean ====
/-
  Region 0's body run on whole staging memrefs, in the case where the column block is not the first (the carried columns hold what the point before left).

  The run finds, as lists of stored pieces (last first), what the output block's buffer and the two carried columns hold when
  the body returns; the two input blocks are handed back as they were.
-/
import proofs.«116465_j25151328485434_2_alg».proof.Proof.KIRun0A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The body of region 0 in the case of a later column block: from the row block `x0`, the column block `x1`, the output buffer at
    anything and the carried columns at `xs0` (the maximum) and `xs1` (the sum), it runs to the continuation with the input blocks as they
    were and each of the three written buffers at its pieces. -/
noncomputable def kernelRun0_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond0 i)
    (x0 : Vec F S1024x512 .bf16) (x1 : Vec F S1024x512 .bf16) (xs0 : Vec F S1024x1 .f32) (xs1 : Vec F S1024x1 .f32) :
    Σ' (L2 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__row_reduce_kernel i arg2 harg2 arg3 harg3 arg4 harg4 arg5 harg5 arg6 harg6) K } := by
  refine ⟨?_, ?_, ?_, fun E K => ?run⟩
  case run =>
    simp only [cc0__row_reduce_kernel_eq_skeleton]; unfold cc0__row_reduce_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KIRun1A.lean ====
/-
  Region 1's body run on whole staging memrefs, in the case where the column block is the first (the carried columns are reset first).

  The run finds, as lists of stored pieces (last first), what the output block's buffer and the two carried columns hold when
  the body returns; the two input blocks are handed back as they were.
-/
import proofs.«116465_j25151328485434_2_alg».proof.Proof.KIRun0B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The body of region 1 in the case of a first column block: from the row block `x0`, the column block `x1`, the output buffer at
    anything and the carried columns at anything, it runs to the continuation with the input blocks as they
    were and each of the three written buffers at its pieces. -/
noncomputable def kernelRun1_A (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond1 i)
    (x0 : Vec F S1024x512 .bf16) (x1 : Vec F S1024x512 .bf16) :
    Σ' (L2 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__row_reduce_kernel i arg2 harg2 arg3 harg3 arg4 harg4 arg5 harg5 arg6 harg6) K } := by
  refine ⟨?_, ?_, ?_, fun E K => ?run⟩
  case run =>
    simp only [cc1__row_reduce_kernel_eq_skeleton]; unfold cc1__row_reduce_kernel_skel
    simp only [k1_part1_eq_skeleton]
    unfold owns
    iintro ⟨⟨%f0, %hf0, H0⟩, ⟨%f1, %hf1, H1⟩, ⟨%d2, %f2, -, H2⟩, ⟨%ds0, %fs0, -, HS0⟩, ⟨%ds1, %fs1, -, HS1⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KIRun1B.lean ====
/-
  Region 1's body run on whole staging memrefs, in the case where the column block is not the first (the carried columns hold what the point before left).

  The run finds, as lists of stored pieces (last first), what the output block's buffer and the two carried columns hold when
  the body returns; the two input blocks are handed back as they were.
-/
import proofs.«116465_j25151328485434_2_alg».proof.Proof.KIRun1A

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 4000000 in
/-- The body of region 1 in the case of a later column block: from the row block `x0`, the column block `x1`, the output buffer at
    anything and the carried columns at `xs0` (the maximum) and `xs1` (the sum), it runs to the continuation with the input blocks as they
    were and each of the three written buffers at its pieces. -/
noncomputable def kernelRun1_B (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond1 i)
    (x0 : Vec F S1024x512 .bf16) (x1 : Vec F S1024x512 .bf16) (xs0 : Vec F S1024x1 .f32) (xs1 : Vec F S1024x1 .f32) :
    Σ' (L2 : List (View.Piece (Elt F) S1024x1 .f32)), Σ' (LS0 : List (View.Piece (Elt F) S1024x1 .f32)), { LS1 : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__row_reduce_kernel i arg2 harg2 arg3 harg3 arg4 harg4 arg5 harg5 arg6 harg6) K } := by
  refine ⟨?_, ?_, ?_, fun E K => ?run⟩
  case run =>
    simp only [cc1__row_reduce_kernel_eq_skeleton]; unfold cc1__row_reduce_kernel_skel
    simp only [k1_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg2.eq_unread hf0; obtain rfl := harg3.eq_unread hf1; obtain rfl := harg5.eq_unread hfs0; obtain rfl := harg6.eq_unread hfs1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    iexists _; iexact HS1

end Cert.KernelIdeal.Hand

end
-- ==== Proof.KIBody.lean ====
/-
  The two regions' bodies against the pipeline: what the output block's buffer and the two carried columns (the running maximum
  and the running sum of each row) hold after every grid point, and the body obligation of each region.

  A region's grid is 16 row blocks by 16 column blocks, the column block moving fastest. At a first column block the body resets
  the carried columns and folds the block in; at a later one it folds the block into what the point before left. The output block
  is stored whole at every point, so what is written back after a row block's last column block is the value folded over all
  sixteen. Everything here is stated at a parameter `V`, the core's buffer contents when the region is entered.
-/
import proofs.«116465_j25151328485434_2_alg».proof.Proof.KIRun1B

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: custom_call 0, at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The column window's current buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- No window of the region is idle at any point. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel

/-- One staging buffer of the output window, through which its contents are stated, and the two carried columns as views. -/
abbrev VO0_2 : View sig .tc .vmem S1024x1 .f32 := (Memref.whole cc0_stg2_0 : Memref sig .tc .vmem S1024x1 .f32).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev scM0_0 : Memref sig .tc .vmem S1024x1 .f32 := Memref.whole cc0_scratch0
abbrev scM0_1 : Memref sig .tc .vmem S1024x1 .f32 := Memref.whole cc0_scratch1
abbrev VS0_0 : View sig .tc .vmem S1024x1 .f32 := scM0_0.view
abbrev VS0_1 : View sig .tc .vmem S1024x1 .f32 := scM0_1.view

/-- The scoped buffers no window of the region stages, with the two carried columns as memrefs owned at some contents, beside
    the generator register: what the region's invariant is before its first point. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, scM0_1, owns_whole]; try rfl

/-- The pieces the case-A run leaves in the output block's buffer cover it. -/
theorem cover0_A_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond0 i)
    (x0 x1 : Vec F S1024x512 .bf16) (y : S1024x1.Idx) :
    ∃ pc ∈ (kernelRun0_A c i arg2 harg2 arg3 harg3 arg4 harg4 arg5 harg5 arg6 harg6 hc x0 x1).1, y ∈ pc.1.set :=
  View.cover_of_tiledL (kernelRun0_A c i arg2 harg2 arg3 harg3 arg4 harg4 arg5 harg5 arg6 harg6 hc x0 x1).1 S1024x1.size (by sl_kernel_rfl) y
/-- What the case-A run leaves in the output block's buffer: its pieces read back. -/
def out0_A_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond0 i)
    (x0 x1 : Vec F S1024x512 .bf16) : Vec F S1024x1 .f32 :=
  VO0_2.read (Elt F) (VO0_2.writes (Elt F) VO0_2.junk (kernelRun0_A c i arg2 harg2 arg3 harg3 arg4 harg4 arg5 harg5 arg6 harg6 hc x0 x1).1)
/-- The pieces the case-A run leaves in the carried maximum's buffer cover it. -/
theorem scover0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond0 i)
    (x0 x1 : Vec F S1024x512 .bf16) (y : S1024x1.Idx) :
    ∃ pc ∈ (kernelRun0_A c i arg2 harg2 arg3 harg3 arg4 harg4 arg5 harg5 arg6 harg6 hc x0 x1).2.1, y ∈ pc.1.set :=
  View.cover_of_tiledL (kernelRun0_A c i arg2 harg2 arg3 harg3 arg4 harg4 arg5 harg5 arg6 harg6 hc x0 x1).2.1 S1024x1.size (by sl_kernel_rfl) y
/-- What the case-A run leaves in the carried maximum's buffer. -/
def sout0_A_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond0 i)
    (x0 x1 : Vec F S1024x512 .bf16) : Vec F S1024x1 .f32 :=
  VS0_0.read (Elt F) (VS0_0.writes (Elt F) VS0_0.junk (kernelRun0_A c i arg2 harg2 arg3 harg3 arg4 harg4 arg5 harg5 arg6 harg6 hc x0 x1).2.1)
/-- The pieces the case-A run leaves in the carried sum's buffer cover it. -/
theorem scover0_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond0 i)
    (x0 x1 : Vec F S1024x512 .bf16) (y : S1024x1.Idx) :
    ∃ pc ∈ (kernelRun0_A c i arg2 harg2 arg3 harg3 arg4 harg4 arg5 harg5 arg6 harg6 hc x0 x1).2.2.1, y ∈ pc.1.set :=
  View.cover_of_tiledL (kernelRun0_A c i arg2 harg2 arg3 harg3 arg4 harg4 arg5 harg5 arg6 harg6 hc x0 x1).2.2.1 S1024x1.size (by sl_kernel_rfl) y
/-- What the case-A run leaves in the carried sum's buffer. -/
def sout0_A_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond0 i)
    (x0 x1 : Vec F S1024x512 .bf16) : Vec F S1024x1 .f32 :=
  VS0_1.read (Elt F) (VS0_1.writes (Elt F) VS0_1.junk (kernelRun0_A c i arg2 harg2 arg3 harg3 arg4 harg4 arg5 harg5 arg6 harg6 hc x0 x1).2.2.1)

/-- The pieces the case-B run leaves in the output block's buffer cover it. -/
theorem cover0_B_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond0 i)
    (x0 x1 : Vec F S1024x512 .bf16) (xs0 : Vec F S1024x1 .f32) (xs1 : Vec F S1024x1 .f32) (y : S1024x1.Idx) :
    ∃ pc ∈ (kernelRun0_B c i arg2 harg2 arg3 harg3 arg4 harg4 arg5 harg5 arg6 harg6 hc x0 x1 xs0 xs1).1, y ∈ pc.1.set :=
  View.cover_of_tiledL (kernelRun0_B c i arg2 harg2 arg3 harg3 arg4 harg4 arg5 harg5 arg6 harg6 hc x0 x1 xs0 xs1).1 S1024x1.size (by sl_kernel_rfl) y
/-- What the case-B run leaves in the output block's buffer: its pieces read back. -/
def out0_B_2 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond0 i)
    (x0 x1 : Vec F S1024x512 .bf16) (xs0 : Vec F S1024x1 .f32) (xs1 : Vec F S1024x1 .f32) : Vec F S1024x1 .f32 :=
  VO0_2.read (Elt F) (VO0_2.writes (Elt F) VO0_2.junk (kernelRun0_B c i arg2 harg2 arg3 harg3 arg4 harg4 arg5 harg5 arg6 harg6 hc x0 x1 xs0 xs1).1)
/-- The pieces the case-B run leaves in the carried maximum's buffer cover it. -/
theorem scover0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond0 i)
    (x0 x1 : Vec F S1024x512 .bf16) (xs0 : Vec F S1024x1 .f32) (xs1 : Vec F S1024x1 .f32) (y : S1024x1.Idx) :
    ∃ pc ∈ (kernelRun0_B c i arg2 harg2 arg3 harg3 arg4 harg4 arg5 harg5 arg6 harg6 hc x0 x1 xs0 xs1).2.1, y ∈ pc.1.set :=
  View.cover_of_tiledL (kernelRun0_B c i arg2 harg2 arg3 harg3 arg4 harg4 arg5 harg5 arg6 harg6 hc x0 x1 xs0 xs1).2.1 S1024x1.size (by sl_kernel_rfl) y
/-- What the case-B run leaves in the carried maximum's buffer. -/
def sout0_B_0 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond0 i)
    (x0 x1 : Vec F S1024x512 .bf16) (xs0 : Vec F S1024x1 .f32) (xs1 : Vec F S1024x1 .f32) : Vec F S1024x1 .f32 :=
  VS0_0.read (Elt F) (VS0_0.writes (Elt F) VS0_0.junk (kernelRun0_B c i arg2 harg2 arg3 harg3 arg4 harg4 arg5 harg5 arg6 harg6 hc x0 x1 xs0 xs1).2.1)
/-- The pieces the case-B run leaves in the carried sum's buffer cover it. -/
theorem scover0_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond0 i)
    (x0 x1 : Vec F S1024x512 .bf16) (xs0 : Vec F S1024x1 .f32) (xs1 : Vec F S1024x1 .f32) (y : S1024x1.Idx) :
    ∃ pc ∈ (kernelRun0_B c i arg2 harg2 arg3 harg3 arg4 harg4 arg5 harg5 arg6 harg6 hc x0 x1 xs0 xs1).2.2.1, y ∈ pc.1.set :=
  View.cover_of_tiledL (kernelRun0_B c i arg2 harg2 arg3 harg3 arg4 harg4 arg5 harg5 arg6 harg6 hc x0 x1 xs0 xs1).2.2.1 S1024x1.size (by sl_kernel_rfl) y
/-- What the case-B run leaves in the carried sum's buffer. -/
def sout0_B_1 (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond0 i)
    (x0 x1 : Vec F S1024x512 .bf16) (xs0 : Vec F S1024x1 .f32) (xs1 : Vec F S1024x1 .f32) : Vec F S1024x1 .f32 :=
  VS0_1.read (Elt F) (VS0_1.writes (Elt F) VS0_1.junk (kernelRun0_B c i arg2 harg2 arg3 harg3 arg4 harg4 arg5 harg5 arg6 harg6 hc x0 x1 xs0 xs1).2.2.1)

/-! ## What the output block's buffer and the two carried columns hold after each point -/

/-- After the body at position `n`: (the output block's buffer, the carried maximum, the carried sum). At a first column block
    the reset case, from the point's two input blocks; otherwise the carrying case, from them and what the point before left
    in the carried columns. -/
def outsAt0 (c : Dev nD) : (n : ℕ) → n < cfg0.N → Vec F S1024x1 .f32 × Vec F S1024x1 .f32 × Vec F S1024x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0 ⟨0, hn⟩).mpr (Nat.zero_mod _)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0 ⟨0, hn⟩).mpr (Nat.zero_mod _)) (iblk0 V c 0 ⟨0, hn⟩) (iblk0 V c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) ((hcond0 ⟨0, hn⟩).mpr (Nat.zero_mod _)) (iblk0 V c 0 ⟨0, hn⟩) (iblk0 V c 1 ⟨0, hn⟩))
  | n + 1, hn =>
    if h0 : (n + 1) % 16 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0 ⟨n + 1, hn⟩).mpr h0) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0 ⟨n + 1, hn⟩).mpr h0) (iblk0 V c 0 ⟨n + 1, hn⟩) (iblk0 V c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) ((hcond0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) (fun h => h0 ((hcond0 ⟨n + 1, hn⟩).mp h)) (iblk0 V c 0 ⟨n + 1, hn⟩) (iblk0 V c 1 ⟨n + 1, hn⟩) (outsAt0 c n (Nat.lt_of_succ_lt hn)).2.1 (outsAt0 c n (Nat.lt_of_succ_lt hn)).2.2)

theorem outsAt0_A (c : Dev nD) (t : Fin cfg0.N) (h0 : t.val % 16 = 0) :
    outsAt0 V c t.val t.isLt = (out0_A_2 c (grid0.coords t) (ms0_0 t) (hs0_0 t) (ms0_1 t) (hs0_1 t) (ms0_2 t) (hs0_2 t) scM0_0 (Memref.isWhole_whole _) scM0_1 (Memref.isWhole_whole _) ((hcond0 t).mpr h0) (iblk0 V c 0 t) (iblk0 V c 1 t), sout0_A_0 c (grid0.coords t) (ms0_0 t) (hs0_0 t) (ms0_1 t) (hs0_1 t) (ms0_2 t) (hs0_2 t) scM0_0 (Memref.isWhole_whole _) scM0_1 (Memref.isWhole_whole _) ((hcond0 t).mpr h0) (iblk0 V c 0 t) (iblk0 V c 1 t), sout0_A_1 c (grid0.coords t) (ms0_0 t) (hs0_0 t) (ms0_1 t) (hs0_1 t) (ms0_2 t) (hs0_2 t) scM0_0 (Memref.isWhole_whole _) scM0_1 (Memref.isWhole_whole _) ((hcond0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 V c t.val t.isLt = (out0_B_2 c (grid0.coords t) (ms0_0 t) (hs0_0 t) (ms0_1 t) (hs0_1 t) (ms0_2 t) (hs0_2 t) scM0_0 (Memref.isWhole_whole _) scM0_1 (Memref.isWhole_whole _) (fun h => h0 ((hcond0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) scM0_0 (Memref.isWhole_whole _) scM0_1 (Memref.isWhole_whole _) (fun h => h0 ((hcond0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) scM0_0 (Memref.isWhole_whole _) scM0_1 (Memref.isWhole_whole _) (fun h => h0 ((hcond0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: before the first point every scoped buffer outside the windows at anything;
    afterwards the two carried columns at what the point before left in them. The generator register rides along. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0_0 fullShare ((outsAt0 V c n hn).2.1) ∗ owns (c : Thread nD τ) scM0_1 fullShare ((outsAt0 V c n hn).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := rfl
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.1) ∗ owns (c : Thread nD τ) scM0_1 fullShare ((outsAt0 V c (n - 1) (by omega)).2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  cases n with
  | zero => exact absurd rfl hz
  | succ n => rfl

/-! ## The pipeline's proof data -/

/-- The proof data of the region on core `c`: the arrays as the region finds them; after the body at point `t` each input's
    buffer at its block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the input windows' memrefs hold their blocks; the column coordinate decides the case; the invariant
    hands the body the carried columns at what the point before left (at anything before the first point) and takes them back
    at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 256 := lt_of_lt_of_eq t.isLt (show cfg0.N = 256 from N_0)
  by_cases h0 : t.val % 16 = 0
  · rw [outsAt0_A V c t h0]
    unfold out0_A_2 sout0_A_0 sout0_A_1; (try dsimp only)
    by_cases hz : t.val = 0
    · rw [PhiS0_castSucc V c t, PhiS0_zero V c _ _ hz, PhiA0_eq]
      iintro ⟨⟨⟨HS0, HS1, Hb2, Hb3, Hb4, Hb5, Hb6, Hb7, Hb8, Hb9⟩, Hg⟩, Ho, ⟨%d0, H0⟩, ⟨%d1, H1⟩, ⟨%d2, H2⟩⟩
      iapply ((kernelRun0_A c (grid0.coords t) _ _ _ _ _ _ _ _ _ _ ((hcond0 t).mpr h0) (iblk0 V c 0 t) (iblk0 V c 1 t)).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hb2 Hb3 Hb4 Hb5 Hb6 Hb7 Hb8 Hb9 Hg]
      · isplitl [HS0 HS1 Hb2 Hb3 Hb4 Hb5 Hb6 Hb7 Hb8 Hb9]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          isplitl [Hb2]
          · iexact Hb2
          isplitl [Hb3]
          · iexact Hb3
          isplitl [Hb4]
          · iexact Hb4
          isplitl [Hb5]
          · iexact Hb5
          isplitl [Hb6]
          · iexact Hb6
          isplitl [Hb7]
          · iexact Hb7
          isplitl [Hb8]
          · iexact Hb8
          iexact Hb9
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _ _ _)
    · rw [PhiS0_castSucc V c t, PhiS0_pos V c _ _ hz]
      iintro ⟨⟨⟨HS0, HS1, Hb2, Hb3, Hb4, Hb5, Hb6, Hb7, Hb8, Hb9⟩, Hg⟩, Ho, ⟨%d0, H0⟩, ⟨%d1, H1⟩, ⟨%d2, H2⟩⟩
      iapply ((kernelRun0_A c (grid0.coords t) _ _ _ _ _ _ _ _ _ _ ((hcond0 t).mpr h0) (iblk0 V c 0 t) (iblk0 V c 1 t)).2.2.2 Set.univ _)
      isplitl [H0]; · iexact H0
      isplitl [H1]; · iexact H1
      isplitl [H2]; · iexists _; iexact H2
      isplitl [HS0]; · iexists _; iexact HS0
      isplitl [HS1]; · iexists _; iexact HS1
      iintro ⟨H0, H1, ⟨%e2, H2⟩, ⟨%es0, HS0⟩, ⟨%es1, HS1⟩⟩
      isplitl [HS0 HS1 Hb2 Hb3 Hb4 Hb5 Hb6 Hb7 Hb8 Hb9 Hg]
      · isplitl [HS0 HS1 Hb2 Hb3 Hb4 Hb5 Hb6 Hb7 Hb8 Hb9]
        · isplitl [HS0]
          · unfold owns; iexists _; isplitr
            swap; · iexact HS0
            ipureintro; exact View.read_writes_of_cover _ _ _ _ _ (scover0_A_0 c _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _)
          isplitl [Hb2]
          · iexact Hb2
          isplitl [Hb3]
          · iexact Hb3
          isplitl [Hb4]
          · iexact Hb4
          isplitl [Hb5]
          · iexact Hb5
          isplitl [Hb6]
          · iexact Hb6
          isplitl [Hb7]
          · iexact Hb7
          isplitl [Hb8]
          · iexact Hb8
          iexact Hb9
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _ _ _)
  · rw [outsAt0_B V c t h0]
    unfold out0_B_2 sout0_B_0 sout0_B_1; (try dsimp only)
    by_cases hz : t.val = 0
    · exfalso; omega
    · rw [PhiS0_castSucc V c t, PhiS0_pos V c _ _ hz]
      iintro ⟨⟨⟨HS0, HS1, Hb2, Hb3, Hb4, Hb5, Hb6, Hb7, Hb8, Hb9⟩, Hg⟩, Ho, ⟨%d0, H0⟩, ⟨%d1, H1⟩, ⟨%d2, H2⟩⟩
      iapply ((kernelRun0_B c (grid0.coords t) _ _ _ _ _ _ _ _ _ _ (fun h => h0 ((hcond0 t).mp h)) (iblk0 V c 0 t) (iblk0 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 Hb2 Hb3 Hb4 Hb5 Hb6 Hb7 Hb8 Hb9 Hg]
      · isplitl [HS0 HS1 Hb2 Hb3 Hb4 Hb5 Hb6 Hb7 Hb8 Hb9]
        · isplitl [HS0]
          · unfold owns; iexists _; isplitr
            swap; · iexact HS0
            ipureintro; exact View.read_writes_of_cover _ _ _ _ _ (scover0_B_0 c _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _)
          isplitl [Hb2]
          · iexact Hb2
          isplitl [Hb3]
          · iexact Hb3
          isplitl [Hb4]
          · iexact Hb4
          isplitl [Hb5]
          · iexact Hb5
          isplitl [Hb6]
          · iexact Hb6
          isplitl [Hb7]
          · iexact Hb7
          isplitl [Hb8]
          · iexact Hb8
          iexact Hb9
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- After any point but the first the invariant gives back every scoped buffer outside the windows at some contents: the carried
    columns' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, Hb2, Hb3, Hb4, Hb5, Hb6, Hb7, Hb8, Hb9⟩, Hg⟩
  isplitl [HS0 HS1 Hb2 Hb3 Hb4 Hb5 Hb6 Hb7 Hb8 Hb9]
  · isplitl [HS0]
    · iexists _; iexact HS0
    isplitl [HS1]
    · iexists _; iexact HS1
    isplitl [Hb2]
    · iexact Hb2
    isplitl [Hb3]
    · iexact Hb3
    isplitl [Hb4]
    · iexact Hb4
    isplitl [Hb5]
    · iexact Hb5
    isplitl [Hb6]
    · iexact Hb6
    isplitl [Hb7]
    · iexact Hb7
    isplitl [Hb8]
    · iexact Hb8
    iexact Hb9
  iexact Hg
theorem hout0 (c : Dev nD) : (dat0 V c).Φ (Fin.last cfg0.N) ⊢ Pipeline.ΦA spec0 c :=
  Phi_out0 V c _ (by rw [Fin.val_last]; have : cfg0.N = 256 := N_0; omega)

/-! # Region 1: custom_call 1, at the entry contents `V` -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The column window's current buffer holds its block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- No window of the region is idle at any point. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel

/-- One staging buffer of the output window, through which its contents are stated, and the two carried columns as views. -/
abbrev VO1_2 : View sig .tc .vmem S1024x1 .f32 := (Memref.whole cc1_stg2_0 : Memref sig .tc .vmem S1024x1 .f32).view
abbrev ms1_0 (t : Fin cfg1.N) : Memref sig .tc .vmem S1024x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
abbrev scM1_0 : Memref sig .tc .vmem S1024x1 .f32 := Memref.whole cc1_scratch0
abbrev scM1_1 : Memref sig .tc .vmem S1024x1 .f32 := Memref.whole cc1_scratch1
abbrev VS1_0 : View sig .tc .vmem S1024x1 .f32 := scM1_0.view
abbrev VS1_1 : View sig .tc .vmem S1024x1 .f32 := scM1_1.view

/-- The scoped buffers no window of the region stages, with the two carried columns as memrefs owned at some contents, beside
    the generator register: what the region's invariant is before its first point. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

/-- The pieces the case-A run leaves in the output block's buffer cover it. -/
theorem cover1_A_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond1 i)
    (x0 x1 : Vec F S1024x512 .bf16) (y : S1024x1.Idx) :
    ∃ pc ∈ (kernelRun1_A c i arg2 harg2 arg3 harg3 arg4 harg4 arg5 harg5 arg6 harg6 hc x0 x1).1, y ∈ pc.1.set :=
  View.cover_of_tiledL (kernelRun1_A c i arg2 harg2 arg3 harg3 arg4 harg4 arg5 harg5 arg6 harg6 hc x0 x1).1 S1024x1.size (by sl_kernel_rfl) y
/-- What the case-A run leaves in the output block's buffer: its pieces read back. -/
def out1_A_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond1 i)
    (x0 x1 : Vec F S1024x512 .bf16) : Vec F S1024x1 .f32 :=
  VO1_2.read (Elt F) (VO1_2.writes (Elt F) VO1_2.junk (kernelRun1_A c i arg2 harg2 arg3 harg3 arg4 harg4 arg5 harg5 arg6 harg6 hc x0 x1).1)
/-- The pieces the case-A run leaves in the carried maximum's buffer cover it. -/
theorem scover1_A_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond1 i)
    (x0 x1 : Vec F S1024x512 .bf16) (y : S1024x1.Idx) :
    ∃ pc ∈ (kernelRun1_A c i arg2 harg2 arg3 harg3 arg4 harg4 arg5 harg5 arg6 harg6 hc x0 x1).2.1, y ∈ pc.1.set :=
  View.cover_of_tiledL (kernelRun1_A c i arg2 harg2 arg3 harg3 arg4 harg4 arg5 harg5 arg6 harg6 hc x0 x1).2.1 S1024x1.size (by sl_kernel_rfl) y
/-- What the case-A run leaves in the carried maximum's buffer. -/
def sout1_A_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond1 i)
    (x0 x1 : Vec F S1024x512 .bf16) : Vec F S1024x1 .f32 :=
  VS1_0.read (Elt F) (VS1_0.writes (Elt F) VS1_0.junk (kernelRun1_A c i arg2 harg2 arg3 harg3 arg4 harg4 arg5 harg5 arg6 harg6 hc x0 x1).2.1)
/-- The pieces the case-A run leaves in the carried sum's buffer cover it. -/
theorem scover1_A_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond1 i)
    (x0 x1 : Vec F S1024x512 .bf16) (y : S1024x1.Idx) :
    ∃ pc ∈ (kernelRun1_A c i arg2 harg2 arg3 harg3 arg4 harg4 arg5 harg5 arg6 harg6 hc x0 x1).2.2.1, y ∈ pc.1.set :=
  View.cover_of_tiledL (kernelRun1_A c i arg2 harg2 arg3 harg3 arg4 harg4 arg5 harg5 arg6 harg6 hc x0 x1).2.2.1 S1024x1.size (by sl_kernel_rfl) y
/-- What the case-A run leaves in the carried sum's buffer. -/
def sout1_A_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : cond1 i)
    (x0 x1 : Vec F S1024x512 .bf16) : Vec F S1024x1 .f32 :=
  VS1_1.read (Elt F) (VS1_1.writes (Elt F) VS1_1.junk (kernelRun1_A c i arg2 harg2 arg3 harg3 arg4 harg4 arg5 harg5 arg6 harg6 hc x0 x1).2.2.1)

/-- The pieces the case-B run leaves in the output block's buffer cover it. -/
theorem cover1_B_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond1 i)
    (x0 x1 : Vec F S1024x512 .bf16) (xs0 : Vec F S1024x1 .f32) (xs1 : Vec F S1024x1 .f32) (y : S1024x1.Idx) :
    ∃ pc ∈ (kernelRun1_B c i arg2 harg2 arg3 harg3 arg4 harg4 arg5 harg5 arg6 harg6 hc x0 x1 xs0 xs1).1, y ∈ pc.1.set :=
  View.cover_of_tiledL (kernelRun1_B c i arg2 harg2 arg3 harg3 arg4 harg4 arg5 harg5 arg6 harg6 hc x0 x1 xs0 xs1).1 S1024x1.size (by sl_kernel_rfl) y
/-- What the case-B run leaves in the output block's buffer: its pieces read back. -/
def out1_B_2 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond1 i)
    (x0 x1 : Vec F S1024x512 .bf16) (xs0 : Vec F S1024x1 .f32) (xs1 : Vec F S1024x1 .f32) : Vec F S1024x1 .f32 :=
  VO1_2.read (Elt F) (VO1_2.writes (Elt F) VO1_2.junk (kernelRun1_B c i arg2 harg2 arg3 harg3 arg4 harg4 arg5 harg5 arg6 harg6 hc x0 x1 xs0 xs1).1)
/-- The pieces the case-B run leaves in the carried maximum's buffer cover it. -/
theorem scover1_B_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond1 i)
    (x0 x1 : Vec F S1024x512 .bf16) (xs0 : Vec F S1024x1 .f32) (xs1 : Vec F S1024x1 .f32) (y : S1024x1.Idx) :
    ∃ pc ∈ (kernelRun1_B c i arg2 harg2 arg3 harg3 arg4 harg4 arg5 harg5 arg6 harg6 hc x0 x1 xs0 xs1).2.1, y ∈ pc.1.set :=
  View.cover_of_tiledL (kernelRun1_B c i arg2 harg2 arg3 harg3 arg4 harg4 arg5 harg5 arg6 harg6 hc x0 x1 xs0 xs1).2.1 S1024x1.size (by sl_kernel_rfl) y
/-- What the case-B run leaves in the carried maximum's buffer. -/
def sout1_B_0 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond1 i)
    (x0 x1 : Vec F S1024x512 .bf16) (xs0 : Vec F S1024x1 .f32) (xs1 : Vec F S1024x1 .f32) : Vec F S1024x1 .f32 :=
  VS1_0.read (Elt F) (VS1_0.writes (Elt F) VS1_0.junk (kernelRun1_B c i arg2 harg2 arg3 harg3 arg4 harg4 arg5 harg5 arg6 harg6 hc x0 x1 xs0 xs1).2.1)
/-- The pieces the case-B run leaves in the carried sum's buffer cover it. -/
theorem scover1_B_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond1 i)
    (x0 x1 : Vec F S1024x512 .bf16) (xs0 : Vec F S1024x1 .f32) (xs1 : Vec F S1024x1 .f32) (y : S1024x1.Idx) :
    ∃ pc ∈ (kernelRun1_B c i arg2 harg2 arg3 harg3 arg4 harg4 arg5 harg5 arg6 harg6 hc x0 x1 xs0 xs1).2.2.1, y ∈ pc.1.set :=
  View.cover_of_tiledL (kernelRun1_B c i arg2 harg2 arg3 harg3 arg4 harg4 arg5 harg5 arg6 harg6 hc x0 x1 xs0 xs1).2.2.1 S1024x1.size (by sl_kernel_rfl) y
/-- What the case-B run leaves in the carried sum's buffer. -/
def sout1_B_1 (c : Dev nD) (i : grid1.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1024x1 .f32) (harg5 : arg5.IsWhole) (arg6 : Memref sig .tc .vmem S1024x1 .f32) (harg6 : arg6.IsWhole) (hc : ¬cond1 i)
    (x0 x1 : Vec F S1024x512 .bf16) (xs0 : Vec F S1024x1 .f32) (xs1 : Vec F S1024x1 .f32) : Vec F S1024x1 .f32 :=
  VS1_1.read (Elt F) (VS1_1.writes (Elt F) VS1_1.junk (kernelRun1_B c i arg2 harg2 arg3 harg3 arg4 harg4 arg5 harg5 arg6 harg6 hc x0 x1 xs0 xs1).2.2.1)

/-! ## What the output block's buffer and the two carried columns hold after each point -/

/-- After the body at position `n`: (the output block's buffer, the carried maximum, the carried sum). At a first column block
    the reset case, from the point's two input blocks; otherwise the carrying case, from them and what the point before left
    in the carried columns. -/
def outsAt1 (c : Dev nD) : (n : ℕ) → n < cfg1.N → Vec F S1024x1 .f32 × Vec F S1024x1 .f32 × Vec F S1024x1 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1 ⟨0, hn⟩).mpr (Nat.zero_mod _)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1 ⟨0, hn⟩).mpr (Nat.zero_mod _)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1 ⟨0, hn⟩).mpr (Nat.zero_mod _)) (iblk1 V c 0 ⟨0, hn⟩) (iblk1 V c 1 ⟨0, hn⟩))
  | n + 1, hn =>
    if h0 : (n + 1) % 16 = 0 then
      (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1 ⟨n + 1, hn⟩).mpr h0) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1 ⟨n + 1, hn⟩).mpr h0) (iblk1 V c 0 ⟨n + 1, hn⟩) (iblk1 V c 1 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1 ⟨n + 1, hn⟩).mpr h0) (iblk1 V c 0 ⟨n + 1, hn⟩) (iblk1 V c 1 ⟨n + 1, hn⟩))
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1 ⟨n + 1, hn⟩).mp h)) (iblk1 V c 0 ⟨n + 1, hn⟩) (iblk1 V c 1 ⟨n + 1, hn⟩) (outsAt1 c n (Nat.lt_of_succ_lt hn)).2.1 (outsAt1 c n (Nat.lt_of_succ_lt hn)).2.2)

theorem outsAt1_A (c : Dev nD) (t : Fin cfg1.N) (h0 : t.val % 16 = 0) :
    outsAt1 V c t.val t.isLt = (out1_A_2 c (grid1.coords t) (ms1_0 t) (hs1_0 t) (ms1_1 t) (hs1_1 t) (ms1_2 t) (hs1_2 t) scM1_0 (Memref.isWhole_whole _) scM1_1 (Memref.isWhole_whole _) ((hcond1 t).mpr h0) (iblk1 V c 0 t) (iblk1 V c 1 t), sout1_A_0 c (grid1.coords t) (ms1_0 t) (hs1_0 t) (ms1_1 t) (hs1_1 t) (ms1_2 t) (hs1_2 t) scM1_0 (Memref.isWhole_whole _) scM1_1 (Memref.isWhole_whole _) ((hcond1 t).mpr h0) (iblk1 V c 0 t) (iblk1 V c 1 t), sout1_A_1 c (grid1.coords t) (ms1_0 t) (hs1_0 t) (ms1_1 t) (hs1_1 t) (ms1_2 t) (hs1_2 t) scM1_0 (Memref.isWhole_whole _) scM1_1 (Memref.isWhole_whole _) ((hcond1 t).mpr h0) (iblk1 V c 0 t) (iblk1 V c 1 t)) := by
  obtain ⟨n, hn⟩ := t
  cases n with
  | zero => exact rfl
  | succ n => exact (dif_pos h0).trans rfl

theorem outsAt1_B (c : Dev nD) (t : Fin cfg1.N) (h0 : ¬t.val % 16 = 0) :
    outsAt1 V c t.val t.isLt = (out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1 t).mp h)) (iblk1 V c 0 t) (iblk1 V c 1 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The region's invariant before position `n`: before the first point every scoped buffer outside the windows at anything;
    afterwards the two carried columns at what the point before left in them. The generator register rides along. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.1) ∗ owns (c : Thread nD τ) scM1_1 fullShare ((outsAt1 V c n hn).2.2)) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c n hn).2.1) ∗ owns (c : Thread nD τ) scM1_1 fullShare ((outsAt1 V c n hn).2.2)) ∗ (∃ r, prngReg c r)) := rfl
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ owns (c : Thread nD τ) scM1_0 fullShare ((outsAt1 V c (n - 1) (by omega)).2.1) ∗ owns (c : Thread nD τ) scM1_1 fullShare ((outsAt1 V c (n - 1) (by omega)).2.2)) ∗ (∃ r, prngReg c r)) := by
  cases n with
  | zero => exact absurd rfl hz
  | succ n => rfl

/-! ## The pipeline's proof data -/

/-- The proof data of the region on core `c`: the arrays as the region finds them; after the body at point `t` each input's
    buffer at its block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the input windows' memrefs hold their blocks; the column coordinate decides the case; the invariant
    hands the body the carried columns at what the point before left (at anything before the first point) and takes them back
    at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 256 := lt_of_lt_of_eq t.isLt (show cfg1.N = 256 from N_1)
  by_cases h0 : t.val % 16 = 0
  · rw [outsAt1_A V c t h0]
    unfold out1_A_2 sout1_A_0 sout1_A_1; (try dsimp only)
    by_cases hz : t.val = 0
    · rw [PhiS1_castSucc V c t, PhiS1_zero V c _ _ hz, PhiA1_eq]
      iintro ⟨⟨⟨Hb0, Hb1, Hb2, Hb3, Hb4, Hb5, Hb6, Hb7, HS0, HS1⟩, Hg⟩, Ho, ⟨%d0, H0⟩, ⟨%d1, H1⟩, ⟨%d2, H2⟩⟩
      iapply ((kernelRun1_A c (grid1.coords t) _ _ _ _ _ _ _ _ _ _ ((hcond1 t).mpr h0) (iblk1 V c 0 t) (iblk1 V c 1 t)).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [Hb0 Hb1 Hb2 Hb3 Hb4 Hb5 Hb6 Hb7 HS0 HS1 Hg]
      · isplitl [Hb0 Hb1 Hb2 Hb3 Hb4 Hb5 Hb6 Hb7 HS0 HS1]
        · isplitl [Hb0]
          · iexact Hb0
          isplitl [Hb1]
          · iexact Hb1
          isplitl [Hb2]
          · iexact Hb2
          isplitl [Hb3]
          · iexact Hb3
          isplitl [Hb4]
          · iexact Hb4
          isplitl [Hb5]
          · iexact Hb5
          isplitl [Hb6]
          · iexact Hb6
          isplitl [Hb7]
          · iexact Hb7
          isplitl [HS0]
          · unfold owns; iexists _; isplitr
            swap; · iexact HS0
            ipureintro; exact View.read_writes_of_cover _ _ _ _ _ (scover1_A_0 c _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _ _ _)
    · rw [PhiS1_castSucc V c t, PhiS1_pos V c _ _ hz]
      iintro ⟨⟨⟨Hb0, Hb1, Hb2, Hb3, Hb4, Hb5, Hb6, Hb7, HS0, HS1⟩, Hg⟩, Ho, ⟨%d0, H0⟩, ⟨%d1, H1⟩, ⟨%d2, H2⟩⟩
      iapply ((kernelRun1_A c (grid1.coords t) _ _ _ _ _ _ _ _ _ _ ((hcond1 t).mpr h0) (iblk1 V c 0 t) (iblk1 V c 1 t)).2.2.2 Set.univ _)
      isplitl [H0]; · iexact H0
      isplitl [H1]; · iexact H1
      isplitl [H2]; · iexists _; iexact H2
      isplitl [HS0]; · iexists _; iexact HS0
      isplitl [HS1]; · iexists _; iexact HS1
      iintro ⟨H0, H1, ⟨%e2, H2⟩, ⟨%es0, HS0⟩, ⟨%es1, HS1⟩⟩
      isplitl [Hb0 Hb1 Hb2 Hb3 Hb4 Hb5 Hb6 Hb7 HS0 HS1 Hg]
      · isplitl [Hb0 Hb1 Hb2 Hb3 Hb4 Hb5 Hb6 Hb7 HS0 HS1]
        · isplitl [Hb0]
          · iexact Hb0
          isplitl [Hb1]
          · iexact Hb1
          isplitl [Hb2]
          · iexact Hb2
          isplitl [Hb3]
          · iexact Hb3
          isplitl [Hb4]
          · iexact Hb4
          isplitl [Hb5]
          · iexact Hb5
          isplitl [Hb6]
          · iexact Hb6
          isplitl [Hb7]
          · iexact Hb7
          isplitl [HS0]
          · unfold owns; iexists _; isplitr
            swap; · iexact HS0
            ipureintro; exact View.read_writes_of_cover _ _ _ _ _ (scover1_A_0 c _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_A_2 c _ _ _ _ _ _ _ _ _ _ _ _ _ _)
  · rw [outsAt1_B V c t h0]
    unfold out1_B_2 sout1_B_0 sout1_B_1; (try dsimp only)
    by_cases hz : t.val = 0
    · exfalso; omega
    · rw [PhiS1_castSucc V c t, PhiS1_pos V c _ _ hz]
      iintro ⟨⟨⟨Hb0, Hb1, Hb2, Hb3, Hb4, Hb5, Hb6, Hb7, HS0, HS1⟩, Hg⟩, Ho, ⟨%d0, H0⟩, ⟨%d1, H1⟩, ⟨%d2, H2⟩⟩
      iapply ((kernelRun1_B c (grid1.coords t) _ _ _ _ _ _ _ _ _ _ (fun h => h0 ((hcond1 t).mp h)) (iblk1 V c 0 t) (iblk1 V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [Hb0 Hb1 Hb2 Hb3 Hb4 Hb5 Hb6 Hb7 HS0 HS1 Hg]
      · isplitl [Hb0 Hb1 Hb2 Hb3 Hb4 Hb5 Hb6 Hb7 HS0 HS1]
        · isplitl [Hb0]
          · iexact Hb0
          isplitl [Hb1]
          · iexact Hb1
          isplitl [Hb2]
          · iexact Hb2
          isplitl [Hb3]
          · iexact Hb3
          isplitl [Hb4]
          · iexact Hb4
          isplitl [Hb5]
          · iexact Hb5
          isplitl [Hb6]
          · iexact Hb6
          isplitl [Hb7]
          · iexact Hb7
          isplitl [HS0]
          · unfold owns; iexists _; isplitr
            swap; · iexact HS0
            ipureintro; exact View.read_writes_of_cover _ _ _ _ _ (scover1_B_0 c _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_B_2 c _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- After any point but the first the invariant gives back every scoped buffer outside the windows at some contents: the carried
    columns' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hb0, Hb1, Hb2, Hb3, Hb4, Hb5, Hb6, Hb7, HS0, HS1⟩, Hg⟩
  isplitl [Hb0 Hb1 Hb2 Hb3 Hb4 Hb5 Hb6 Hb7 HS0 HS1]
  · isplitl [Hb0]
    · iexact Hb0
    isplitl [Hb1]
    · iexact Hb1
    isplitl [Hb2]
    · iexact Hb2
    isplitl [Hb3]
    · iexact Hb3
    isplitl [Hb4]
    · iexact Hb4
    isplitl [Hb5]
    · iexact Hb5
    isplitl [Hb6]
    · iexact Hb6
    isplitl [Hb7]
    · iexact Hb7
    isplitl [HS0]
    · iexists _; iexact HS0
    iexists _; iexact HS1
  iexact Hg
theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Hand

end
-- ==== Proof.KIMain.lean ====
/-
  The whole program's run: @main as four segments — the host lines before the regions, region 0, region 1, the host lines after —
  launched once, each segment entered from what the one before it left.

  The core's unscoped buffers are followed through @main as a fold from the launch memory: after the first host lines
  (`W1`), after region 0's write-backs (`W2`: its output array at what the sixteen row blocks' last points wrote, everything
  else as entered), after region 1's (`W3`), after the last host lines (`W4`). The run ends with EVERY unscoped buffer at `W4`;
  the two argument arrays read back through the fold are the launch contents.
-/
import proofs.«116465_j25151328485434_2_alg».proof.Proof.KIBody
import proofs.«116465_j25151328485434_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => m (c, b)
/-- After the first host lines (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At region 0's exit (region 1's entry): its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit: its arrays at what the pipeline leaves, every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host lines: what the run ends with. -/
abbrev W4 : Dev nD → Valuation τ sig (Elt F) := fun c => StableHlo.after hostOps2 (W3 m c)

/-! ### The arguments end as launched: no host line writes one and no region stages one -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and the core owing nothing. -/
abbrev R (c : Dev nD) : sProp 𝕄 := iprop((∃ r, prngReg c r) ∗ ∃ W, owes (c : Thread nD τ) (0 : CellTallies nD τ sig Unit) W)
/-- A stretch of host lines as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what the core owes: every unscoped buffer at `W4`, the generator register at some state. -/
abbrev Tₙ (c : Dev nD) : sProp 𝕄 := iprop(StableHlo.held (c : Thread nD τ) (Pipeline.ucRefs τ sig) (W4 m c) ∗ ∃ r, prngReg c r)

/-! ## The regions as segments -/

-- a library lemma stated over the pinned configuration unifies with the printed one only when unification may unfold plain
-- definitions in a metavariable's type
set_option backward.isDefEq.respectTransparency.types false in
/-- Region 0 over the thread state: entered from every unscoped buffer at `W1`, left at `W2`. Its arrays are split out
    of the unscoped buffers and put back at the exit contents; the generator register goes into the region's invariant and comes
    back; the scoped buffers outside the windows enter the invariant at anything and leave it so; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered from every unscoped buffer at `W2`, left at `W3`. Its arrays are split out
    of the unscoped buffers and put back at the exit contents; the generator register goes into the region's invariant and comes
    back; the scoped buffers outside the windows enter the invariant at anything and leave it so; nothing is owed. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates, nothing
    faulting, and every final state holds every unscoped buffer of every core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => show (iprop(StableHlo.held (c : Thread nD τ) (Pipeline.ucRefs τ sig) (W4 m c) ∗ R c) : sProp 𝕄)
        ⊢ iprop(Tₙ m c ∗ ∃ W, owes (c : Thread nD τ) (0 : CellTallies nD τ sig Unit) W) from by
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (run_all m ρ)

/-- The run with its result named: the result buffer ends at the last boundary's contents, the arguments as launched. -/
theorem run_result : θ_run defs (onTc (τ := τ) (main (F := F))) ⟨m, fun _ => 0, ρ⟩ (fun r => ∀ c : Dev nD,
      r.2.mem ((c.tc : Thread nD τ).loc main_v21) = W4 m c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v21 (by decide)),
     (h c _ (mem_uc main_arg0 (by decide))).trans (W4_main_arg0 m c),
     (h c _ (mem_uc main_arg1 (by decide))).trans (W4_main_arg1 m c)⟩) (run_all m ρ)

end Cert.KernelIdeal.Hand

end
-- ==== Proof.KIPieces.lean ====
/-
  What each case of a region's body leaves, as the body's own arithmetic.

  The runs of the two cases find what the output block's buffer and the two carried columns hold as lists of stored pieces. Every
  store covers its whole buffer and every load reads a whole buffer, so each piece list reads back as one term: the new running
  maximum, the new running sum, and their combination, as functions of the two input blocks and of what the carried columns held
  (the reset values, at a first column block).
-/
import proofs.«116465_j25151328485434_2_alg».proof.Proof.KIBody
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

/-- A store or a load at the origin. -/
theorem hz : (![0, 0] : Fin 2 → Nat) = fun _ => 0 := funext fun a => by fin_cases a <;> rfl

/-- The carried maximum after a first column block: the carried columns are reset to −∞ and 0 and the block is folded into that. -/
theorem sout0_A_0_eq (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc : cond0 i)
    (x0 x1 : Vec F S1024x512 .bf16) :
    sout0_A_0 c i a2 h2 a3 h3 a4 h4 a5 h5 a6 h6 hc x0 x1 = k0_pay7 x0 x1 (k0_pay2 (F := F)) := by
  unfold sout0_A_0
  rw [View.read_writes_eq_canon _ _ _ (scover0_A_0 c i a2 h2 a3 h3 a4 h4 a5 h5 a6 h6 hc x0 x1)]
  unfold kernelRun0_A
  dsimp only
  sl_unfold_words
  simp only [View.canon_cons_unit_zero (S := S1024x1) hz, View.canon_unit_zero (S := S1024x1) hz, View.readCov_unit_zero (S := S1024x1) _ hz, View.readCov_cons_toLoadRect,
    View.readAt_eq_ld, h2.read_unread, h3.read_unread, h5.read_unread, h6.read_unread,
    View.ld_unit_zero (S := S1024x512) hz, View.ld_unit_zero (S := S1024x1) hz]

/-- The carried sum after it. -/
theorem sout0_A_1_eq (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc : cond0 i)
    (x0 x1 : Vec F S1024x512 .bf16) :
    sout0_A_1 c i a2 h2 a3 h3 a4 h4 a5 h5 a6 h6 hc x0 x1 = k0_pay6 x0 x1 (k0_pay2 (F := F)) (k0_pay2 (F := F)) (k0_pay3 (F := F)) := by
  unfold sout0_A_1
  rw [View.read_writes_eq_canon _ _ _ (scover0_A_1 c i a2 h2 a3 h3 a4 h4 a5 h5 a6 h6 hc x0 x1)]
  unfold kernelRun0_A
  dsimp only
  sl_unfold_words
  simp only [View.canon_cons_unit_zero (S := S1024x1) hz, View.canon_unit_zero (S := S1024x1) hz, View.readCov_unit_zero (S := S1024x1) _ hz, View.readCov_cons_toLoadRect,
    View.readAt_eq_ld, h2.read_unread, h3.read_unread, h5.read_unread, h6.read_unread,
    View.ld_unit_zero (S := S1024x512) hz, View.ld_unit_zero (S := S1024x1) hz]

/-- The output block after it: the new maximum plus the logarithm of the new sum. -/
theorem out0_A_2_eq (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc : cond0 i)
    (x0 x1 : Vec F S1024x512 .bf16) :
    out0_A_2 c i a2 h2 a3 h3 a4 h4 a5 h5 a6 h6 hc x0 x1 = k0_pay1 (k0_pay7 x0 x1 (k0_pay2 (F := F))) (k0_pay6 x0 x1 (k0_pay2 (F := F)) (k0_pay2 (F := F)) (k0_pay3 (F := F))) := by
  unfold out0_A_2
  rw [View.read_writes_eq_canon _ _ _ (cover0_A_2 c i a2 h2 a3 h3 a4 h4 a5 h5 a6 h6 hc x0 x1)]
  unfold kernelRun0_A
  dsimp only
  sl_unfold_words
  simp only [View.canon_cons_unit_zero (S := S1024x1) hz, View.canon_unit_zero (S := S1024x1) hz, View.readCov_unit_zero (S := S1024x1) _ hz, View.readCov_cons_toLoadRect,
    View.readAt_eq_ld, h2.read_unread, h3.read_unread, h5.read_unread, h6.read_unread,
    View.ld_unit_zero (S := S1024x512) hz, View.ld_unit_zero (S := S1024x1) hz]

/-- The carried maximum after a later column block: the block is folded into what the point before left. -/
theorem sout0_B_0_eq (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc : ¬cond0 i)
    (x0 x1 : Vec F S1024x512 .bf16) (xs0 xs1 : Vec F S1024x1 .f32) :
    sout0_B_0 c i a2 h2 a3 h3 a4 h4 a5 h5 a6 h6 hc x0 x1 xs0 xs1 = k0_pay7 x0 x1 xs0 := by
  unfold sout0_B_0
  rw [View.read_writes_eq_canon _ _ _ (scover0_B_0 c i a2 h2 a3 h3 a4 h4 a5 h5 a6 h6 hc x0 x1 xs0 xs1)]
  unfold kernelRun0_B
  dsimp only
  sl_unfold_words
  simp only [View.canon_cons_unit_zero (S := S1024x1) hz, View.canon_unit_zero (S := S1024x1) hz, View.readCov_unit_zero (S := S1024x1) _ hz, View.readCov_cons_toLoadRect,
    View.readAt_eq_ld, h2.read_unread, h3.read_unread, h5.read_unread, h6.read_unread,
    View.ld_unit_zero (S := S1024x512) hz, View.ld_unit_zero (S := S1024x1) hz]

/-- The carried sum after it. -/
theorem sout0_B_1_eq (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc : ¬cond0 i)
    (x0 x1 : Vec F S1024x512 .bf16) (xs0 xs1 : Vec F S1024x1 .f32) :
    sout0_B_1 c i a2 h2 a3 h3 a4 h4 a5 h5 a6 h6 hc x0 x1 xs0 xs1 = k0_pay6 x0 x1 xs0 xs0 xs1 := by
  unfold sout0_B_1
  rw [View.read_writes_eq_canon _ _ _ (scover0_B_1 c i a2 h2 a3 h3 a4 h4 a5 h5 a6 h6 hc x0 x1 xs0 xs1)]
  unfold kernelRun0_B
  dsimp only
  sl_unfold_words
  simp only [View.canon_cons_unit_zero (S := S1024x1) hz, View.canon_unit_zero (S := S1024x1) hz, View.readCov_unit_zero (S := S1024x1) _ hz, View.readCov_cons_toLoadRect,
    View.readAt_eq_ld, h2.read_unread, h3.read_unread, h5.read_unread, h6.read_unread,
    View.ld_unit_zero (S := S1024x512) hz, View.ld_unit_zero (S := S1024x1) hz]

/-- The output block after it: the new maximum plus the logarithm of the new sum. -/
theorem out0_B_2_eq (c : Dev nD) (i : grid0.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc : ¬cond0 i)
    (x0 x1 : Vec F S1024x512 .bf16) (xs0 xs1 : Vec F S1024x1 .f32) :
    out0_B_2 c i a2 h2 a3 h3 a4 h4 a5 h5 a6 h6 hc x0 x1 xs0 xs1 = k0_pay1 (k0_pay7 x0 x1 xs0) (k0_pay6 x0 x1 xs0 xs0 xs1) := by
  unfold out0_B_2
  rw [View.read_writes_eq_canon _ _ _ (cover0_B_2 c i a2 h2 a3 h3 a4 h4 a5 h5 a6 h6 hc x0 x1 xs0 xs1)]
  unfold kernelRun0_B
  dsimp only
  sl_unfold_words
  simp only [View.canon_cons_unit_zero (S := S1024x1) hz, View.canon_unit_zero (S := S1024x1) hz, View.readCov_unit_zero (S := S1024x1) _ hz, View.readCov_cons_toLoadRect,
    View.readAt_eq_ld, h2.read_unread, h3.read_unread, h5.read_unread, h6.read_unread,
    View.ld_unit_zero (S := S1024x512) hz, View.ld_unit_zero (S := S1024x1) hz]

/-- The carried maximum after a first column block: the carried columns are reset to −∞ and 0 and the block is folded into that. -/
theorem sout1_A_0_eq (c : Dev nD) (i : grid1.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc : cond1 i)
    (x0 x1 : Vec F S1024x512 .bf16) :
    sout1_A_0 c i a2 h2 a3 h3 a4 h4 a5 h5 a6 h6 hc x0 x1 = k1_pay7 x0 x1 (k1_pay2 (F := F)) := by
  unfold sout1_A_0
  rw [View.read_writes_eq_canon _ _ _ (scover1_A_0 c i a2 h2 a3 h3 a4 h4 a5 h5 a6 h6 hc x0 x1)]
  unfold kernelRun1_A
  dsimp only
  sl_unfold_words
  simp only [View.canon_cons_unit_zero (S := S1024x1) hz, View.canon_unit_zero (S := S1024x1) hz, View.readCov_unit_zero (S := S1024x1) _ hz, View.readCov_cons_toLoadRect,
    View.readAt_eq_ld, h2.read_unread, h3.read_unread, h5.read_unread, h6.read_unread,
    View.ld_unit_zero (S := S1024x512) hz, View.ld_unit_zero (S := S1024x1) hz]

/-- The carried sum after it. -/
theorem sout1_A_1_eq (c : Dev nD) (i : grid1.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc : cond1 i)
    (x0 x1 : Vec F S1024x512 .bf16) :
    sout1_A_1 c i a2 h2 a3 h3 a4 h4 a5 h5 a6 h6 hc x0 x1 = k1_pay6 x0 x1 (k1_pay2 (F := F)) (k1_pay2 (F := F)) (k1_pay3 (F := F)) := by
  unfold sout1_A_1
  rw [View.read_writes_eq_canon _ _ _ (scover1_A_1 c i a2 h2 a3 h3 a4 h4 a5 h5 a6 h6 hc x0 x1)]
  unfold kernelRun1_A
  dsimp only
  sl_unfold_words
  simp only [View.canon_cons_unit_zero (S := S1024x1) hz, View.canon_unit_zero (S := S1024x1) hz, View.readCov_unit_zero (S := S1024x1) _ hz, View.readCov_cons_toLoadRect,
    View.readAt_eq_ld, h2.read_unread, h3.read_unread, h5.read_unread, h6.read_unread,
    View.ld_unit_zero (S := S1024x512) hz, View.ld_unit_zero (S := S1024x1) hz]

/-- The output block after it: the new maximum plus the logarithm of the new sum. -/
theorem out1_A_2_eq (c : Dev nD) (i : grid1.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc : cond1 i)
    (x0 x1 : Vec F S1024x512 .bf16) :
    out1_A_2 c i a2 h2 a3 h3 a4 h4 a5 h5 a6 h6 hc x0 x1 = k1_pay1 (k1_pay7 x0 x1 (k1_pay2 (F := F))) (k1_pay6 x0 x1 (k1_pay2 (F := F)) (k1_pay2 (F := F)) (k1_pay3 (F := F))) := by
  unfold out1_A_2
  rw [View.read_writes_eq_canon _ _ _ (cover1_A_2 c i a2 h2 a3 h3 a4 h4 a5 h5 a6 h6 hc x0 x1)]
  unfold kernelRun1_A
  dsimp only
  sl_unfold_words
  simp only [View.canon_cons_unit_zero (S := S1024x1) hz, View.canon_unit_zero (S := S1024x1) hz, View.readCov_unit_zero (S := S1024x1) _ hz, View.readCov_cons_toLoadRect,
    View.readAt_eq_ld, h2.read_unread, h3.read_unread, h5.read_unread, h6.read_unread,
    View.ld_unit_zero (S := S1024x512) hz, View.ld_unit_zero (S := S1024x1) hz]

/-- The carried maximum after a later column block: the block is folded into what the point before left. -/
theorem sout1_B_0_eq (c : Dev nD) (i : grid1.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc : ¬cond1 i)
    (x0 x1 : Vec F S1024x512 .bf16) (xs0 xs1 : Vec F S1024x1 .f32) :
    sout1_B_0 c i a2 h2 a3 h3 a4 h4 a5 h5 a6 h6 hc x0 x1 xs0 xs1 = k1_pay7 x0 x1 xs0 := by
  unfold sout1_B_0
  rw [View.read_writes_eq_canon _ _ _ (scover1_B_0 c i a2 h2 a3 h3 a4 h4 a5 h5 a6 h6 hc x0 x1 xs0 xs1)]
  unfold kernelRun1_B
  dsimp only
  sl_unfold_words
  simp only [View.canon_cons_unit_zero (S := S1024x1) hz, View.canon_unit_zero (S := S1024x1) hz, View.readCov_unit_zero (S := S1024x1) _ hz, View.readCov_cons_toLoadRect,
    View.readAt_eq_ld, h2.read_unread, h3.read_unread, h5.read_unread, h6.read_unread,
    View.ld_unit_zero (S := S1024x512) hz, View.ld_unit_zero (S := S1024x1) hz]

/-- The carried sum after it. -/
theorem sout1_B_1_eq (c : Dev nD) (i : grid1.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc : ¬cond1 i)
    (x0 x1 : Vec F S1024x512 .bf16) (xs0 xs1 : Vec F S1024x1 .f32) :
    sout1_B_1 c i a2 h2 a3 h3 a4 h4 a5 h5 a6 h6 hc x0 x1 xs0 xs1 = k1_pay6 x0 x1 xs0 xs0 xs1 := by
  unfold sout1_B_1
  rw [View.read_writes_eq_canon _ _ _ (scover1_B_1 c i a2 h2 a3 h3 a4 h4 a5 h5 a6 h6 hc x0 x1 xs0 xs1)]
  unfold kernelRun1_B
  dsimp only
  sl_unfold_words
  simp only [View.canon_cons_unit_zero (S := S1024x1) hz, View.canon_unit_zero (S := S1024x1) hz, View.readCov_unit_zero (S := S1024x1) _ hz, View.readCov_cons_toLoadRect,
    View.readAt_eq_ld, h2.read_unread, h3.read_unread, h5.read_unread, h6.read_unread,
    View.ld_unit_zero (S := S1024x512) hz, View.ld_unit_zero (S := S1024x1) hz]

/-- The output block after it: the new maximum plus the logarithm of the new sum. -/
theorem out1_B_2_eq (c : Dev nD) (i : grid1.Coords) (a2 : Memref sig .tc .vmem S1024x512 .bf16) (h2 : a2.IsWhole) (a3 : Memref sig .tc .vmem S1024x512 .bf16) (h3 : a3.IsWhole) (a4 : Memref sig .tc .vmem S1024x1 .f32) (h4 : a4.IsWhole) (a5 : Memref sig .tc .vmem S1024x1 .f32) (h5 : a5.IsWhole) (a6 : Memref sig .tc .vmem S1024x1 .f32) (h6 : a6.IsWhole) (hc : ¬cond1 i)
    (x0 x1 : Vec F S1024x512 .bf16) (xs0 xs1 : Vec F S1024x1 .f32) :
    out1_B_2 c i a2 h2 a3 h3 a4 h4 a5 h5 a6 h6 hc x0 x1 xs0 xs1 = k1_pay1 (k1_pay7 x0 x1 xs0) (k1_pay6 x0 x1 xs0 xs0 xs1) := by
  unfold out1_B_2
  rw [View.read_writes_eq_canon _ _ _ (cover1_B_2 c i a2 h2 a3 h3 a4 h4 a5 h5 a6 h6 hc x0 x1 xs0 xs1)]
  unfold kernelRun1_B
  dsimp only
  sl_unfold_words
  simp only [View.canon_cons_unit_zero (S := S1024x1) hz, View.canon_unit_zero (S := S1024x1) hz, View.readCov_unit_zero (S := S1024x1) _ hz, View.readCov_cons_toLoadRect,
    View.readAt_eq_ld, h2.read_unread, h3.read_unread, h5.read_unread, h6.read_unread,
    View.ld_unit_zero (S := S1024x512) hz, View.ld_unit_zero (S := S1024x1) hz]

end Cert.KernelIdeal.Hand

end
-- ==== Proof.Spec.lean ====
/-
  The symmetric contrastive loss of two families of rows, written in the two arrangements that are to be compared.

  Rows `x i` and `y j` (vectors over `κ`) give the score `c * ∑ k, x i k * y j k` of the pair `(i, j)`. The loss is half the
  sum of two cross entropies against the diagonal: of the score matrix, row by row, and of its transpose.

  * The DIRECT arrangement takes each row whole: the row's greatest score `M`, the logarithm of `∑ exp (score - M)`, and
    at the diagonal entry `(score - M) - log (…)`; it averages minus that over the rows, for the matrix and for its
    transpose, and halves the sum.
  * The STREAMING arrangement never holds a row whole. It folds the scale into the row first (`x i k * c`), reads the
    columns in `nb` blocks, and keeps per row a running greatest score `m` and a running sum `l` of exponentials shifted by
    `m` (rescaled by `exp (m - m')` whenever the greatest score moves to `m'`). The row's value is `m + log l` after the
    last block. The diagonal score is computed apart as `c * ∑ k, x i k * y i k`, and the loss is
    `half * ((∑ i, (lse i + lse' i - two * diagonal i)) / n)`.

  Everything is stated on the extended reals with the exact operations of the ideal reading; the scalars `c`, `nn`, `two`,
  `half` are parameters, so that no literal is evaluated here.
-/
import Idealize.ShloMosaic.PureOps.Ideal

noncomputable section

namespace Cert.ClipSpec

open Idealize.ShloMosaic

variable {ι κ β : Type} [Fintype ι] [Fintype κ] [Fintype β]

/-- The inner product of row `i` of `x` with row `j` of `y`. -/
def dotp (x y : ι → κ → EReal) (i j : ι) : EReal := ∑ k, x i k * y j k

/-! ## The direct arrangement -/

/-- The logarithm of the softmax of the row `s` at column `j`: the score shifted by the row's greatest score, less the
    logarithm of the sum of the exponentials of all the scores so shifted. -/
def logSoftmaxAt (s : ι → EReal) (j : ι) : EReal :=
  (s j - Finset.univ.sup s) - Ideal.log (∑ j', Ideal.exp (s j' - Finset.univ.sup s))

/-- The cross entropy of the rows of `s` against the diagonal: minus the mean over the rows of the log-softmax at the
    diagonal entry (the mean as a sum divided by `nn`). -/
def crossEntropyDiag (nn : EReal) (s : ι → ι → EReal) : EReal :=
  - Ideal.div (∑ i, logSoftmaxAt (s i) i) nn

/-- The loss, directly: the scores `c * ⟨x i, y j⟩`; the cross entropy of the score matrix plus that of its transpose,
    divided by `two`. -/
def direct (c nn two : EReal) (x y : ι → κ → EReal) : EReal :=
  Ideal.div (crossEntropyDiag nn (fun i j => c * dotp x y i j) + crossEntropyDiag nn (fun i j => c * dotp x y j i)) two

/-! ## The streaming arrangement -/

/-- One block of scores folded into a row's running state `(m, l)`: the greatest score so far moves to `m'`, the sum so
    far is rescaled to the new shift, and the block's exponentials at that shift are added. -/
def step (σ : EReal × EReal) (blk : β → EReal) : EReal × EReal :=
  (max σ.1 (Finset.univ.sup blk),
    Ideal.exp (σ.1 - max σ.1 (Finset.univ.sup blk)) * σ.2 + ∑ q, Ideal.exp (blk q - max σ.1 (Finset.univ.sup blk)))

/-- The running state after the first `n` blocks `s 0, …, s (n - 1)`: from `(-∞, 0)`, one `step` per block. -/
def stateAfter (s : ℕ → β → EReal) : ℕ → EReal × EReal
  | 0 => (⊥, 0)
  | n + 1 => step (stateAfter s n) (s n)

/-- The row's value read off a state: the greatest score plus the logarithm of the shifted sum. -/
def lseOf (σ : EReal × EReal) : EReal := σ.1 + Ideal.log σ.2

/-- The loss, streaming: `col n q` is the column that block `n` holds at place `q`. -/
def streaming (c nn two half : EReal) (nb : ℕ) (col : ℕ → β → ι) (x y : ι → κ → EReal) : EReal :=
  half * Ideal.div (∑ i,
    ((lseOf (stateAfter (fun n q => ∑ k, (x i k * c) * y (col n q) k) nb)
      + lseOf (stateAfter (fun n q => ∑ k, (y i k * c) * x (col n q) k) nb))
      - two * (c * ∑ k, x i k * y i k))) nn

end Cert.ClipSpec

end
-- ==== Proof.Consts.lean ====
/-
  The float constants that the two programs spell, as the extended reals their bit patterns denote at the ideal
  reading: one half, two, the row count 16384, the score scale (some real), and minus infinity.
-/
import Idealize.ShloMosaic.PureOps.Ideal

noncomputable section

namespace Cert.Consts

open Idealize.ShloMosaic

/-- `0.5`: sign `+`, exponent field `126`, fraction `0`, that is `2 ^ 23 * 2 ^ (126 - 127 - 23) = 1 / 2`. -/
theorem ofBits_half : Ideal.ofBits .f32 0x3F000000#32 = ((1 / 2 : ℝ) : EReal) := by
  simp [Ideal.ofBits, Ideal.ieee, -EReal.coe_mul]; norm_num

/-- `2.0`: exponent field `128`, fraction `0`. -/
theorem ofBits_two : Ideal.ofBits .f32 0x40000000#32 = ((2 : ℝ) : EReal) := by
  simp [Ideal.ofBits, Ideal.ieee, -EReal.coe_mul]; norm_num

/-- `16384.0 = 2 ^ 14`: exponent field `141`, fraction `0`. -/
theorem ofBits_n : Ideal.ofBits .f32 0x46800000#32 = ((16384 : ℝ) : EReal) := by
  simp [Ideal.ofBits, Ideal.ieee, -EReal.coe_mul]; norm_num

/-- The score scale: exponent field `130`, fraction `6591049`, that is `(2 ^ 23 + 6591049) * 2 ^ (130 - 127 - 23)
    = 14979657 / 2 ^ 20`; only its being a real is used. -/
theorem ofBits_scale : ∃ r : ℝ, Ideal.ofBits .f32 0x41649249#32 = (r : EReal) := by
  refine ⟨14979657 / 1048576, ?_⟩
  simp [Ideal.ofBits, Ideal.ieee, -EReal.coe_mul]; norm_num

/-- The all-ones exponent with a zero fraction and the sign bit set is `-∞`. -/
theorem ofBits_neg_inf : Ideal.ofBits .f32 0xFF800000#32 = (⊥ : EReal) := by
  simp [Ideal.ofBits, Ideal.ieee]

end Cert.Consts

end
-- ==== Proof.KIPay.lean ====
/-
  The kernel body's pure values read at one entry, in the words of the streaming arrangement.

  The body holds a block of 1024 rows `x0` and a block of 1024 rows `x1` (each row a vector of 512 entries) and, per
  row `p`, a running pair: the greatest score so far `m` and the sum so far `l` of exponentials shifted by `m`. It forms
  every score `sc p q = ∑ k, x0 (p, k) * x1 (q, k)` (the second block transposed and multiplied into a zero
  accumulator), takes the row's greatest score from `-∞`, and folds the block into the pair: the new greatest score is
  `max m (sup (sc p))`; the new sum is `exp (m - m') * l + ∑ q, exp (sc p q - m')`. These are the two components of
  `ClipSpec.step (m, l) (sc p)`. The value written after the last block is `m + log l`, that is `ClipSpec.lseOf (m, l)`;
  the values written before the first block are `-∞` and `0`.

  The two regions' bodies are the same text, so every statement is made twice, for `k0_…` and for `k1_…`.
-/
import proofs.«116465_j25151328485434_2_alg».proof.Proof.Gen.KernelIdeal.Skeleton
import proofs.«116465_j25151328485434_2_alg».proof.Proof.Spec
import proofs.«116465_j25151328485434_2_alg».proof.Proof.Consts
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen

/-- The score of row `p` of the first block against row `q` of the second. -/
def sc (x0 x1 : Vec Ideal S1024x512 .bf16) (p : Fin 1024) : Fin 1024 → EReal :=
  fun q => ∑ k : Fin 512, x0 (ix2 p k) * x1 (ix2 q k)

/-! ### The product's operand indices -/

/-- The left operand is read at the output's row … -/
theorem lhs_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide),
    dif_pos (show (0 : Fin S1024x512.rank) ∈ dot_S1024x512_S512x1024_S1024x1024_1_0_0_1_n_n.lhsNonContracting by decide)]
  rfl
/-- … and the contracted coordinate; -/
theorem lhs_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
/-- the right operand at the contracted coordinate … -/
theorem rhs_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
/-- … and the output's column. -/
theorem rhs_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide),
    dif_pos (show (1 : Fin S512x1024.rank) ∈ dot_S1024x512_S512x1024_S1024x1024_1_0_0_1_n_n.rhsNonContracting by decide)]
  rfl

/-- At output `(p, q)` and contracted coordinate `k` the left operand is read at `(p, k)` … -/
theorem lhsIdx_eq (p q : Fin 1024) (k : Fin 512) :
    dot_S1024x512_S512x1024_S1024x1024_1_0_0_1_n_n.lhsIdx (ix2 p q)
      ((contrEquiv1 dot_S1024x512_S512x1024_S1024x1024_1_0_0_1_n_n 512 rfl rfl).symm k) = ix2 p k :=
  have hk := contrEquiv1_symm_val dot_S1024x512_S512x1024_S1024x1024_1_0_0_1_n_n 512 rfl rfl k
  funext fun a => Fin.ext (by
    match a with
    | ⟨0, _⟩ => exact lhs_0 _ _
    | ⟨1, _⟩ => exact (lhs_1 _ _).trans hk)
/-- … and the right operand at `(k, q)`. -/
theorem rhsIdx_eq (p q : Fin 1024) (k : Fin 512) :
    dot_S1024x512_S512x1024_S1024x1024_1_0_0_1_n_n.rhsIdx (ix2 p q)
      ((contrEquiv1 dot_S1024x512_S512x1024_S1024x1024_1_0_0_1_n_n 512 rfl rfl).symm k) = ix2 k q :=
  have hk := contrEquiv1_symm_val dot_S1024x512_S512x1024_S1024x1024_1_0_0_1_n_n 512 rfl rfl k
  funext fun a => Fin.ext (by
    match a with
    | ⟨0, _⟩ => exact (rhs_0 _ _).trans hk
    | ⟨1, _⟩ => exact rhs_1 _ _)

/-! ### Layout operations and lane reductions at an index -/

/-- An `[a]` array cast to `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The source index over row `p` with the column `k` put back is `(p, k)`. -/
theorem lift_eq (p k : Fin 1024) : reduces_S1024x1024_S1024.lift (ix1 p) k = ix2 p k :=
  funext fun a => Fin.ext (by
    match a with
    | ⟨0, _⟩ => rfl
    | ⟨1, _⟩ => rfl)

/-- The lane maximum of row `p`, taken from `-∞`, is the supremum of the row. -/
theorem rowmax_apply (X : FVec Ideal S1024x1024 .f32) (p : Fin 1024) :
    multiReduction (F := Ideal) .maximumf [1] S1024 X 0xFF800000#32 reduces_S1024x1024_S1024 (.inl rfl) rfl (ix1 p)
      = Finset.univ.sup (fun q : Fin 1024 => X (ix2 p q)) := by
  refine (Ideal.multiReduction_maximumf_single X _ reduces_S1024x1024_S1024 (.inl rfl) rfl (ix1 p)).trans ?_
  have hb : FloatOps.ofBits (F := Ideal) .f32 (FKind.maximumf.neutral .f32 (.inl rfl)) = (⊥ : EReal) :=
    Cert.Consts.ofBits_neg_inf
  have hf : (X ∘ reduces_S1024x1024_S1024.lift (ix1 p)) = fun q : Fin 1024 => X (ix2 p q) :=
    funext fun k => congrArg X (lift_eq p k)
  rw [hb, hf]
  rfl

/-- The lane sum of row `p`, taken from `0`, is the sum of the row. -/
theorem rowsum_apply (X : FVec Ideal S1024x1024 .f32) (p : Fin 1024) :
    multiReduction (F := Ideal) .add [1] S1024 X 0x00000000#32 reduces_S1024x1024_S1024 (.inl rfl) rfl (ix1 p)
      = ∑ q : Fin 1024, X (ix2 p q) := by
  refine (Ideal.multiReduction_add_single X _ reduces_S1024x1024_S1024 (.inl rfl) rfl (ix1 p)).trans ?_
  exact Finset.sum_congr rfl fun k _ => congrArg X (lift_eq p k)

/-! ### Region 0 -/

/-- The value written after the last block: the greatest score plus the logarithm of the shifted sum. -/
theorem pay1_apply0 (mv lv : Vec Ideal S1024x1 .f32) (p : Fin 1024) :
    k0_pay1 (F := Ideal) mv lv (ix2 p (0 : Fin 1))
      = Cert.ClipSpec.lseOf (mv (ix2 p (0 : Fin 1)), lv (ix2 p (0 : Fin 1))) := rfl

/-- The greatest score before the first block is `-∞`. -/
theorem pay2_apply0 (p : Fin 1024) : k0_pay2 (F := Ideal) (ix2 p (0 : Fin 1)) = (⊥ : EReal) := by
  unfold k0_pay2
  refine (congrFun (shapeCast_self _ _) _).trans ?_
  exact Cert.Consts.ofBits_neg_inf

/-- The sum before the first block is `0`. -/
theorem pay3_apply0 (p : Fin 1024) : k0_pay3 (F := Ideal) (ix2 p (0 : Fin 1)) = (0 : EReal) := by
  unfold k0_pay3
  refine (congrFun (shapeCast_self _ _) _).trans ?_
  exact Ideal.ofBits_zero_f32

/-- The product at `(p, q)` is the score of row `p` of the first block against row `q` of the second. -/
theorem pay4_apply0 (x0 x1 : Vec Ideal S1024x512 .bf16) (p q : Fin 1024) :
    k0_pay4 (F := Ideal) x0 x1 (ix2 p q) = sc x0 x1 p q := by
  unfold k0_pay4
  refine (Ideal.matmul_constant_zero_apply dot_S1024x512_S512x1024_S1024x1024_1_0_0_1_n_n none _ _ (ix2 p q)).trans ?_
  rw [← Equiv.sum_comp (contrEquiv1 dot_S1024x512_S512x1024_S1024x1024_1_0_0_1_n_n 512 rfl rfl).symm]
  refine Finset.sum_congr rfl fun k _ => ?_
  rw [lhsIdx_eq, rhsIdx_eq, shapeCast_self, shapeCast_self]
  exact congrArg (x0 (ix2 p k) * ·) (transpose_ix2_apply x1 transposes_S1024x512_p1_0_S512x1024 k q)

/-- The new greatest score of row `p`: the old one against the supremum of the row's scores. -/
theorem pay5_apply0 (x0 x1 : Vec Ideal S1024x512 .bf16) (mv : Vec Ideal S1024x1 .f32) (p : Fin 1024) :
    k0_pay5 (F := Ideal) x0 x1 mv (ix2 p (0 : Fin 1))
      = max (mv (ix2 p (0 : Fin 1))) (Finset.univ.sup (sc x0 x1 p)) := by
  unfold k0_pay5
  show max (mv (ix2 p (0 : Fin 1))) _ = _
  refine congrArg (max (mv (ix2 p (0 : Fin 1)))) ?_
  refine (shapeCast_a_a1_apply _ shapeCasts_S1024_S1024x1 p 0).trans ?_
  refine (rowmax_apply (k0_pay4 (F := Ideal) x0 x1) p).trans ?_
  exact congrArg Finset.univ.sup (funext fun q => pay4_apply0 x0 x1 p q)

/-- The greatest score written back is the first component of the step (whatever the sum `lv`). -/
theorem pay7_sc0 (x0 x1 : Vec Ideal S1024x512 .bf16) (mv lv : Vec Ideal S1024x1 .f32) (p : Fin 1024) :
    k0_pay7 (F := Ideal) x0 x1 mv (ix2 p (0 : Fin 1))
      = (Cert.ClipSpec.step (mv (ix2 p (0 : Fin 1)), lv (ix2 p (0 : Fin 1))) (sc x0 x1 p)).1 := by
  unfold k0_pay7
  refine (congrFun (shapeCast_self _ _) _).trans ?_
  exact pay5_apply0 x0 x1 mv p

/-- The sum written back is the second component of the step: the old sum rescaled to the new greatest score, plus the
    row's exponentials shifted by it. (The body reads the old greatest score twice; both reads are `mv`.) -/
theorem pay6_sc0 (x0 x1 : Vec Ideal S1024x512 .bf16) (mv lv : Vec Ideal S1024x1 .f32) (p : Fin 1024) :
    k0_pay6 (F := Ideal) x0 x1 mv mv lv (ix2 p (0 : Fin 1))
      = (Cert.ClipSpec.step (mv (ix2 p (0 : Fin 1)), lv (ix2 p (0 : Fin 1))) (sc x0 x1 p)).2 := by
  unfold k0_pay6
  refine (congrFun (shapeCast_self _ _) _).trans ?_
  have h5 := pay5_apply0 x0 x1 mv p
  show Ideal.exp (mv (ix2 p (0 : Fin 1)) - k0_pay5 (F := Ideal) x0 x1 mv (ix2 p (0 : Fin 1))) * lv (ix2 p (0 : Fin 1)) + _
    = Ideal.exp (mv (ix2 p (0 : Fin 1)) - max (mv (ix2 p (0 : Fin 1))) (Finset.univ.sup (sc x0 x1 p))) * lv (ix2 p (0 : Fin 1))
      + ∑ q, Ideal.exp (sc x0 x1 p q - max (mv (ix2 p (0 : Fin 1))) (Finset.univ.sup (sc x0 x1 p)))
  rw [h5]
  congr 1
  refine (shapeCast_a_a1_apply _ shapeCasts_S1024_S1024x1 p 0).trans ?_
  refine (rowsum_apply _ p).trans ?_
  refine Finset.sum_congr rfl fun q _ => ?_
  show Ideal.exp (k0_pay4 (F := Ideal) x0 x1 (ix2 p q)
    - broadcastTo S1024x1024 (k0_pay5 (F := Ideal) x0 x1 mv) broadcasts_S1024x1_S1024x1024 (ix2 p q)) = _
  rw [pay4_apply0, broadcastTo_a1_ab_apply, h5]

/-- `pay7_sc0` with the scores written out. -/
theorem pay7_apply0 (x0 x1 : Vec Ideal S1024x512 .bf16) (mv lv : Vec Ideal S1024x1 .f32) (p : Fin 1024) :
    k0_pay7 (F := Ideal) x0 x1 mv (ix2 p (0 : Fin 1))
      = (Cert.ClipSpec.step (mv (ix2 p (0 : Fin 1)), lv (ix2 p (0 : Fin 1)))
          (fun q : Fin 1024 => ∑ k : Fin 512, x0 (ix2 p k) * x1 (ix2 q k))).1 :=
  pay7_sc0 x0 x1 mv lv p

/-- `pay6_sc0` with the scores written out. -/
theorem pay6_apply0 (x0 x1 : Vec Ideal S1024x512 .bf16) (mv lv : Vec Ideal S1024x1 .f32) (p : Fin 1024) :
    k0_pay6 (F := Ideal) x0 x1 mv mv lv (ix2 p (0 : Fin 1))
      = (Cert.ClipSpec.step (mv (ix2 p (0 : Fin 1)), lv (ix2 p (0 : Fin 1)))
          (fun q : Fin 1024 => ∑ k : Fin 512, x0 (ix2 p k) * x1 (ix2 q k))).2 :=
  pay6_sc0 x0 x1 mv lv p

/-! ### Region 1 -/

/-- The value written after the last block: the greatest score plus the logarithm of the shifted sum. -/
theorem pay1_apply1 (mv lv : Vec Ideal S1024x1 .f32) (p : Fin 1024) :
    k1_pay1 (F := Ideal) mv lv (ix2 p (0 : Fin 1))
      = Cert.ClipSpec.lseOf (mv (ix2 p (0 : Fin 1)), lv (ix2 p (0 : Fin 1))) := rfl

/-- The greatest score before the first block is `-∞`. -/
theorem pay2_apply1 (p : Fin 1024) : k1_pay2 (F := Ideal) (ix2 p (0 : Fin 1)) = (⊥ : EReal) := by
  unfold k1_pay2
  refine (congrFun (shapeCast_self _ _) _).trans ?_
  exact Cert.Consts.ofBits_neg_inf

/-- The sum before the first block is `0`. -/
theorem pay3_apply1 (p : Fin 1024) : k1_pay3 (F := Ideal) (ix2 p (0 : Fin 1)) = (0 : EReal) := by
  unfold k1_pay3
  refine (congrFun (shapeCast_self _ _) _).trans ?_
  exact Ideal.ofBits_zero_f32

/-- The product at `(p, q)` is the score of row `p` of the first block against row `q` of the second. -/
theorem pay4_apply1 (x0 x1 : Vec Ideal S1024x512 .bf16) (p q : Fin 1024) :
    k1_pay4 (F := Ideal) x0 x1 (ix2 p q) = sc x0 x1 p q := by
  unfold k1_pay4
  refine (Ideal.matmul_constant_zero_apply dot_S1024x512_S512x1024_S1024x1024_1_0_0_1_n_n none _ _ (ix2 p q)).trans ?_
  rw [← Equiv.sum_comp (contrEquiv1 dot_S1024x512_S512x1024_S1024x1024_1_0_0_1_n_n 512 rfl rfl).symm]
  refine Finset.sum_congr rfl fun k _ => ?_
  rw [lhsIdx_eq, rhsIdx_eq, shapeCast_self, shapeCast_self]
  exact congrArg (x0 (ix2 p k) * ·) (transpose_ix2_apply x1 transposes_S1024x512_p1_0_S512x1024 k q)

/-- The new greatest score of row `p`: the old one against the supremum of the row's scores. -/
theorem pay5_apply1 (x0 x1 : Vec Ideal S1024x512 .bf16) (mv : Vec Ideal S1024x1 .f32) (p : Fin 1024) :
    k1_pay5 (F := Ideal) x0 x1 mv (ix2 p (0 : Fin 1))
      = max (mv (ix2 p (0 : Fin 1))) (Finset.univ.sup (sc x0 x1 p)) := by
  unfold k1_pay5
  show max (mv (ix2 p (0 : Fin 1))) _ = _
  refine congrArg (max (mv (ix2 p (0 : Fin 1)))) ?_
  refine (shapeCast_a_a1_apply _ shapeCasts_S1024_S1024x1 p 0).trans ?_
  refine (rowmax_apply (k1_pay4 (F := Ideal) x0 x1) p).trans ?_
  exact congrArg Finset.univ.sup (funext fun q => pay4_apply1 x0 x1 p q)

/-- The greatest score written back is the first component of the step (whatever the sum `lv`). -/
theorem pay7_sc1 (x0 x1 : Vec Ideal S1024x512 .bf16) (mv lv : Vec Ideal S1024x1 .f32) (p : Fin 1024) :
    k1_pay7 (F := Ideal) x0 x1 mv (ix2 p (0 : Fin 1))
      = (Cert.ClipSpec.step (mv (ix2 p (0 : Fin 1)), lv (ix2 p (0 : Fin 1))) (sc x0 x1 p)).1 := by
  unfold k1_pay7
  refine (congrFun (shapeCast_self _ _) _).trans ?_
  exact pay5_apply1 x0 x1 mv p

/-- The sum written back is the second component of the step: the old sum rescaled to the new greatest score, plus the
    row's exponentials shifted by it. (The body reads the old greatest score twice; both reads are `mv`.) -/
theorem pay6_sc1 (x0 x1 : Vec Ideal S1024x512 .bf16) (mv lv : Vec Ideal S1024x1 .f32) (p : Fin 1024) :
    k1_pay6 (F := Ideal) x0 x1 mv mv lv (ix2 p (0 : Fin 1))
      = (Cert.ClipSpec.step (mv (ix2 p (0 : Fin 1)), lv (ix2 p (0 : Fin 1))) (sc x0 x1 p)).2 := by
  unfold k1_pay6
  refine (congrFun (shapeCast_self _ _) _).trans ?_
  have h5 := pay5_apply1 x0 x1 mv p
  show Ideal.exp (mv (ix2 p (0 : Fin 1)) - k1_pay5 (F := Ideal) x0 x1 mv (ix2 p (0 : Fin 1))) * lv (ix2 p (0 : Fin 1)) + _
    = Ideal.exp (mv (ix2 p (0 : Fin 1)) - max (mv (ix2 p (0 : Fin 1))) (Finset.univ.sup (sc x0 x1 p))) * lv (ix2 p (0 : Fin 1))
      + ∑ q, Ideal.exp (sc x0 x1 p q - max (mv (ix2 p (0 : Fin 1))) (Finset.univ.sup (sc x0 x1 p)))
  rw [h5]
  congr 1
  refine (shapeCast_a_a1_apply _ shapeCasts_S1024_S1024x1 p 0).trans ?_
  refine (rowsum_apply _ p).trans ?_
  refine Finset.sum_congr rfl fun q _ => ?_
  show Ideal.exp (k1_pay4 (F := Ideal) x0 x1 (ix2 p q)
    - broadcastTo S1024x1024 (k1_pay5 (F := Ideal) x0 x1 mv) broadcasts_S1024x1_S1024x1024 (ix2 p q)) = _
  rw [pay4_apply1, broadcastTo_a1_ab_apply, h5]

/-- `pay7_sc1` with the scores written out. -/
theorem pay7_apply1 (x0 x1 : Vec Ideal S1024x512 .bf16) (mv lv : Vec Ideal S1024x1 .f32) (p : Fin 1024) :
    k1_pay7 (F := Ideal) x0 x1 mv (ix2 p (0 : Fin 1))
      = (Cert.ClipSpec.step (mv (ix2 p (0 : Fin 1)), lv (ix2 p (0 : Fin 1)))
          (fun q : Fin 1024 => ∑ k : Fin 512, x0 (ix2 p k) * x1 (ix2 q k))).1 :=
  pay7_sc1 x0 x1 mv lv p

/-- `pay6_sc1` with the scores written out. -/
theorem pay6_apply1 (x0 x1 : Vec Ideal S1024x512 .bf16) (mv lv : Vec Ideal S1024x1 .f32) (p : Fin 1024) :
    k1_pay6 (F := Ideal) x0 x1 mv mv lv (ix2 p (0 : Fin 1))
      = (Cert.ClipSpec.step (mv (ix2 p (0 : Fin 1)), lv (ix2 p (0 : Fin 1)))
          (fun q : Fin 1024 => ∑ k : Fin 512, x0 (ix2 p k) * x1 (ix2 q k))).2 :=
  pay6_sc1 x0 x1 mv lv p

end Cert.KernelIdeal.Pay
end
-- ==== Proof.KIValue.lean ====
/-
  What the two regions compute, read off the frame run: each region's output array holds, at row `r`, the value
  `m + log l` of the running state of row `r`'s scores after all sixteen column blocks.

  The scores of a row are its inner products with the rows of the column array. At every grid point the body folds one block of
  1024 columns into the row's state; the case lemmas say what each case leaves as the body's arithmetic, the arithmetic read at
  an entry is one `step` of the specification, and an induction over the points of the grid (never an enumeration of them) gives the
  state after every point. A row block's last point writes the output block back, and those sixteen blocks tile the array.
  Stated at a parameter `V`, the buffers' contents when the region is entered.
-/
import proofs.«116465_j25151328485434_2_alg».proof.Proof.KIPieces
import proofs.«116465_j25151328485434_2_alg».proof.Proof.KIPay
import proofs.«116465_j25151328485434_2_alg».proof.Proof.Spec
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.ClipSpec ValueIdx

variable (V : (c : Dev nD) → (b : Ref sig .tc) → Buf (Elt Ideal) ((c : Thread nD τ).loc b))

/-- Row `p` of row block `I` (taken modulo the sixteen blocks) as a row of a 16384-row array. -/
def rowIx (I : ℕ) (p : Fin 1024) : Fin 16384 := ⟨(I % 16) * 1024 + p.val, by have := p.isLt; omega⟩

/-- The scores of row `p` of row block `I` of the array `A` against the rows of column block `n` of the array `B`: inner products
    along the feature axis. -/
def scoresOf (A B : S16384x512.Idx → EReal) (I : ℕ) (p : Fin 1024) : ℕ → Fin 1024 → EReal := fun n q =>
  ∑ k : Fin 512, A (ix2 (rowIx I p) k) * B (ix2 (rowIx n q) k)

/-- The scores of row `p` of one row block `x0` against the rows of one column block `x1`. -/
def blockScores (x0 x1 : S1024x512.Idx → EReal) (p : Fin 1024) : Fin 1024 → EReal := fun q =>
  ∑ k : Fin 512, x0 (ix2 p k) * x1 (ix2 q k)

/-! # Region 0: rows from `main_v4`, columns from `main_v1`, the row values into `main_v8` -/

/-- Where the windows' blocks sit at point `t`: the row window and the output at row block `t / 16`, the column window at row
    block `t % 16`; none is offset along its second axis. -/
theorem idx0_0 : ∀ t : Fin cfg0.N, win0_0.index t 0 = t.val / 16 ∧ win0_0.index t 1 = 0 :=
  (by decide +kernel : ∀ t : Fin grid0.N, win0_0.index t 0 = t.val / 16 ∧ win0_0.index t 1 = 0)
theorem idx0_1 : ∀ t : Fin cfg0.N, win0_1.index t 0 = t.val % 16 ∧ win0_1.index t 1 = 0 :=
  (by decide +kernel : ∀ t : Fin grid0.N, win0_1.index t 0 = t.val % 16 ∧ win0_1.index t 1 = 0)
theorem idx0_2 : ∀ t : Fin cfg0.N, win0_2.index t 0 = t.val / 16 ∧ win0_2.index t 1 = 0 :=
  (by decide +kernel : ∀ t : Fin grid0.N, win0_2.index t 0 = t.val / 16 ∧ win0_2.index t 1 = 0)

/-- The row window's block at point `t` is rows `1024 (t / 16) …` of its array. -/
theorem blk0_0 (c : Dev nD) (t : Fin cfg0.N) (p : Fin 1024) (k : Fin 512) :
    (iblk0 V c 0 t : Vec Ideal S1024x512 .bf16) (ix2 p k) = (V c main_v4 : S16384x512.Idx → EReal) (ix2 (rowIx (t.val / 16) p) k) := by
  have hN : t.val < 256 := lt_of_lt_of_eq t.isLt (show cfg0.N = 256 from N_0)
  unfold iblk0
  rw [View.read_apply]
  show V c main_v4 _ = V c main_v4 _
  congr 1
  funext a
  apply Fin.ext
  match a with
  | ⟨0, _⟩ => show win0_0.index t 0 * 1024 + 1 * p.val = (t.val / 16 % 16) * 1024 + p.val; rw [(idx0_0 t).1]; omega
  | ⟨1, _⟩ => show win0_0.index t 1 * 512 + 1 * k.val = k.val; rw [(idx0_0 t).2]; omega
/-- The column window's block at point `t` is rows `1024 (t % 16) …` of its array. -/
theorem blk0_1 (c : Dev nD) (t : Fin cfg0.N) (q : Fin 1024) (k : Fin 512) :
    (iblk0 V c 1 t : Vec Ideal S1024x512 .bf16) (ix2 q k) = (V c main_v1 : S16384x512.Idx → EReal) (ix2 (rowIx (t.val % 16) q) k) := by
  unfold iblk0
  rw [View.read_apply]
  show V c main_v1 _ = V c main_v1 _
  congr 1
  funext a
  apply Fin.ext
  match a with
  | ⟨0, _⟩ => show win0_1.index t 0 * 1024 + 1 * q.val = (t.val % 16 % 16) * 1024 + q.val; rw [(idx0_1 t).1]; omega
  | ⟨1, _⟩ => show win0_1.index t 1 * 512 + 1 * k.val = k.val; rw [(idx0_1 t).2]; omega

/-- The scores of row `p` of row block `I` against the rows of column block `n`: the region's array of rows against its array
    of columns, contracted along the feature axis. -/
def scores0 (c : Dev nD) (I : ℕ) (p : Fin 1024) : ℕ → Fin 1024 → EReal :=
  scoresOf (V c main_v4) (V c main_v1) I p

/-- The block of scores the body sees at point `t` is the score family's block `t % 16` of row block `t / 16`. -/
theorem sc0_eq (c : Dev nD) (t : Fin cfg0.N) (p : Fin 1024) :
    blockScores (iblk0 V c 0 t) (iblk0 V c 1 t) p = scores0 V c (t.val / 16) p (t.val % 16) :=
  by
  funext q
  unfold blockScores scores0 scoresOf
  refine Finset.sum_congr rfl fun k _ => ?_
  rw [blk0_0 V c t p k, blk0_1 V c t q k]

/-- A first column block: from the reset state `(-∞, 0)` one step with the point's block of scores. -/
theorem first0 (c : Dev nD) (t : Fin cfg0.N) (h0 : t.val % 16 = 0) (p : Fin 1024) :
    ((outsAt0 V c t.val t.isLt).2.1 (ix2 p 0), (outsAt0 V c t.val t.isLt).2.2 (ix2 p 0)) = stateAfter (scores0 V c (t.val / 16) p) (t.val % 16 + 1)
    ∧ (outsAt0 V c t.val t.isLt).1 (ix2 p 0) = lseOf (stateAfter (scores0 V c (t.val / 16) p) (t.val % 16 + 1)) := by
  rw [outsAt0_A V c t h0]
  dsimp only
  rw [sout0_A_0_eq, sout0_A_1_eq, out0_A_2_eq]
  have hst : stateAfter (scores0 V c (t.val / 16) p) (t.val % 16 + 1) = step ((⊥ : EReal), (0 : EReal)) (scores0 V c (t.val / 16) p (t.val % 16)) := by
    rw [h0]; rfl
  rw [hst, ← sc0_eq V c t p]
  have e7 := Pay.pay7_apply0 (iblk0 V c 0 t : Vec Ideal S1024x512 .bf16) (iblk0 V c 1 t : Vec Ideal S1024x512 .bf16) (k0_pay2 (F := Ideal)) (k0_pay3 (F := Ideal)) p
  have e6 := Pay.pay6_apply0 (iblk0 V c 0 t : Vec Ideal S1024x512 .bf16) (iblk0 V c 1 t : Vec Ideal S1024x512 .bf16) (k0_pay2 (F := Ideal)) (k0_pay3 (F := Ideal)) p
  rw [Pay.pay2_apply0 p, Pay.pay3_apply0 p] at e7 e6
  refine ⟨Prod.ext e7 e6, ?_⟩
  rw [Pay.pay1_apply0, e7, e6]
  rfl

/-- A later column block: from what the point before left, one step with the point's block of scores. -/
theorem later0 (c : Dev nD) (t : Fin cfg0.N) (h0 : ¬t.val % 16 = 0) (p : Fin 1024)
    (hprev : ((outsAt0 V c (t.val - 1) (Nat.lt_of_le_of_lt (Nat.sub_le _ _) t.isLt)).2.1 (ix2 p 0), (outsAt0 V c (t.val - 1) (Nat.lt_of_le_of_lt (Nat.sub_le _ _) t.isLt)).2.2 (ix2 p 0))
      = stateAfter (scores0 V c (t.val / 16) p) (t.val % 16)) :
    ((outsAt0 V c t.val t.isLt).2.1 (ix2 p 0), (outsAt0 V c t.val t.isLt).2.2 (ix2 p 0)) = stateAfter (scores0 V c (t.val / 16) p) (t.val % 16 + 1)
    ∧ (outsAt0 V c t.val t.isLt).1 (ix2 p 0) = lseOf (stateAfter (scores0 V c (t.val / 16) p) (t.val % 16 + 1)) := by
  rw [outsAt0_B V c t h0]
  dsimp only
  rw [sout0_B_0_eq, sout0_B_1_eq, out0_B_2_eq]
  have hst : stateAfter (scores0 V c (t.val / 16) p) (t.val % 16 + 1) = step (stateAfter (scores0 V c (t.val / 16) p) (t.val % 16)) (scores0 V c (t.val / 16) p (t.val % 16)) := rfl
  rw [hst, ← hprev, ← sc0_eq V c t p]
  have e7 := Pay.pay7_apply0 (iblk0 V c 0 t : Vec Ideal S1024x512 .bf16) (iblk0 V c 1 t : Vec Ideal S1024x512 .bf16) (outsAt0 V c (t.val - 1) (Nat.lt_of_le_of_lt (Nat.sub_le _ _) t.isLt)).2.1 (outsAt0 V c (t.val - 1) (Nat.lt_of_le_of_lt (Nat.sub_le _ _) t.isLt)).2.2 p
  have e6 := Pay.pay6_apply0 (iblk0 V c 0 t : Vec Ideal S1024x512 .bf16) (iblk0 V c 1 t : Vec Ideal S1024x512 .bf16) (outsAt0 V c (t.val - 1) (Nat.lt_of_le_of_lt (Nat.sub_le _ _) t.isLt)).2.1 (outsAt0 V c (t.val - 1) (Nat.lt_of_le_of_lt (Nat.sub_le _ _) t.isLt)).2.2 p
  refine ⟨Prod.ext e7 e6, ?_⟩
  rw [Pay.pay1_apply0, e7, e6]
  rfl

/-- THE INVARIANT. After the body at position `n` the carried maximum and sum of row `p` are the running state after the first
    `n % 16 + 1` column blocks of that row's scores, and the output block holds the row's value read off that state. -/
theorem state0 (c : Dev nD) : ∀ (n : ℕ) (hn : n < cfg0.N) (p : Fin 1024),
    ((outsAt0 V c n hn).2.1 (ix2 p 0), (outsAt0 V c n hn).2.2 (ix2 p 0)) = stateAfter (scores0 V c (n / 16) p) (n % 16 + 1)
    ∧ (outsAt0 V c n hn).1 (ix2 p 0) = lseOf (stateAfter (scores0 V c (n / 16) p) (n % 16 + 1)) := by
  intro n
  induction n with
  | zero =>
    intro hn p
    have key := first0 V c ⟨0, hn⟩ (Nat.zero_mod _) p
    exact key
  | succ n ih =>
    intro hn p
    by_cases h0 : (n + 1) % 16 = 0
    · exact first0 V c ⟨n + 1, hn⟩ h0 p
    · have hprev := ih (Nat.lt_of_succ_lt hn) p
      exact later0 V c ⟨n + 1, hn⟩ h0 p (by
        have e1 : (n + 1) / 16 = n / 16 := by omega
        have e2 : (n + 1) % 16 = n % 16 + 1 := by omega
        simpa [e1, e2, Nat.add_sub_cancel] using hprev.1)

/-! ## From blocks to the array -/

/-- The row values of region 0 as one array: entry `r` is row `r`'s value after all sixteen column blocks. -/
def rowValues0 (c : Dev nD) : S16384x1.Idx → EReal := fun idx =>
  lseOf (stateAfter (scores0 V c ((idx 0).val / 1024) ⟨(idx 0).val % 1024, Nat.mod_lt _ (by decide)⟩) 16)

/-- What a row block's last point writes back is that block of `rowValues0`. -/
theorem flushed0_eq (c : Dev nD) (t : Fin cfg0.N) (hf : (cfg0.win 2).flush t = true) :
    (dat0 V c).flushed 2 t = ((cfg0.win 2).blk t).view.read (Elt Ideal) (rowValues0 V c) := by
  have hN : t.val < 256 := lt_of_lt_of_eq t.isLt (show cfg0.N = 256 from N_0)
  have h15 : t.val % 16 = 15 := (flush0_2 t).mp hf
  show (cfg0.win 2).cut (grid0.coords t) ((dat0 V c).after 2 t) = _
  rw [after0_2]
  funext y
  rw [View.read_apply]
  obtain ⟨p, z, rfl⟩ : ∃ (p : Fin 1024) (z : Fin 1), y = ix2 p z := ⟨y 0, y 1, eq_ix2 y⟩
  obtain rfl : z = 0 := Subsingleton.elim _ _
  show (outsAt0 V c t.val t.isLt).1 (ix2 p 0) = _
  rw [(state0 V c t.val t.isLt p).2, h15]
  unfold rowValues0
  have e0 : ((((cfg0.win 2).blk t).view.emb (ix2 p (0 : Fin 1))) 0).val = (t.val / 16) * 1024 + p.val := by
    show win0_2.index t 0 * 1024 + 1 * p.val = _; rw [(idx0_2 t).1]; omega
  have ed : ((((cfg0.win 2).blk t).view.emb (ix2 p (0 : Fin 1))) 0).val / 1024 = t.val / 16 := by rw [e0]; omega
  have em : (⟨((((cfg0.win 2).blk t).view.emb (ix2 p (0 : Fin 1))) 0).val % 1024, Nat.mod_lt _ (by decide)⟩ : Fin 1024) = p := Fin.ext (by rw [e0]; show ((t.val / 16) * 1024 + p.val) % 1024 = p.val; omega)
  rw [ed, em]
  exact (cast_eq _ _).symm

/-- So the region's output array ends at `rowValues0`: row block `I`'s last point, `16 I + 15`, covers rows `1024 I …`. -/
theorem final0 (c : Dev nD) : (dat0 V c).arrAt 2 cfg0.N = rowValues0 V c :=
  (dat0 V c).arrAt_eq_of_cover 2 (rowValues0 V c) (flushed0_eq V c) fun i => by
    have h0 : (i 0 : Nat) < 16384 := (i 0).isLt
    have h1 : (i 1 : Nat) < 1 := (i 1).isLt
    have hN : cfg0.N = 256 := N_0
    have hlt : 16 * ((i 0).val / 1024) + 15 < cfg0.N := by rw [hN]; omega
    refine ⟨⟨16 * ((i 0).val / 1024) + 15, hlt⟩, (flush0_2 _).mpr (by show (16 * ((i 0).val / 1024) + 15) % 16 = 15; omega), ?_⟩
    show i ∈ ((View.whole main_v8).slice (win0_2.rect ⟨16 * ((i 0).val / 1024) + 15, hlt⟩)).set
    rw [View.set_slice_whole, Rect.mem_set_unit]
    intro a
    match a with
    | ⟨0, _⟩ =>
      show win0_2.index _ 0 * win0_2.size 0 ≤ (i 0 : Nat) ∧ (i 0 : Nat) < win0_2.index _ 0 * win0_2.size 0 + win0_2.xsize (grid0.coords _) 0
      rw [(idx0_2 _).1]
      show (16 * ((i 0).val / 1024) + 15) / 16 * 1024 ≤ (i 0 : Nat) ∧ (i 0 : Nat) < (16 * ((i 0).val / 1024) + 15) / 16 * 1024 + 1024
      omega
    | ⟨1, _⟩ =>
      show win0_2.index _ 1 * win0_2.size 1 ≤ (i 1 : Nat) ∧ (i 1 : Nat) < win0_2.index _ 1 * win0_2.size 1 + win0_2.xsize (grid0.coords _) 1
      rw [(idx0_2 _).2]
      show 0 * 1 ≤ (i 1 : Nat) ∧ (i 1 : Nat) < 0 * 1 + 1
      omega

/-! # Region 1: rows from `main_v7`, columns from `main_v0`, the row values into `main_v9` -/

/-- Where the windows' blocks sit at point `t`: the row window and the output at row block `t / 16`, the column window at row
    block `t % 16`; none is offset along its second axis. -/
theorem idx1_0 : ∀ t : Fin cfg1.N, win1_0.index t 0 = t.val / 16 ∧ win1_0.index t 1 = 0 :=
  (by decide +kernel : ∀ t : Fin grid1.N, win1_0.index t 0 = t.val / 16 ∧ win1_0.index t 1 = 0)
theorem idx1_1 : ∀ t : Fin cfg1.N, win1_1.index t 0 = t.val % 16 ∧ win1_1.index t 1 = 0 :=
  (by decide +kernel : ∀ t : Fin grid1.N, win1_1.index t 0 = t.val % 16 ∧ win1_1.index t 1 = 0)
theorem idx1_2 : ∀ t : Fin cfg1.N, win1_2.index t 0 = t.val / 16 ∧ win1_2.index t 1 = 0 :=
  (by decide +kernel : ∀ t : Fin grid1.N, win1_2.index t 0 = t.val / 16 ∧ win1_2.index t 1 = 0)

/-- The row window's block at point `t` is rows `1024 (t / 16) …` of its array. -/
theorem blk1_0 (c : Dev nD) (t : Fin cfg1.N) (p : Fin 1024) (k : Fin 512) :
    (iblk1 V c 0 t : Vec Ideal S1024x512 .bf16) (ix2 p k) = (V c main_v7 : S16384x512.Idx → EReal) (ix2 (rowIx (t.val / 16) p) k) := by
  have hN : t.val < 256 := lt_of_lt_of_eq t.isLt (show cfg1.N = 256 from N_1)
  unfold iblk1
  rw [View.read_apply]
  show V c main_v7 _ = V c main_v7 _
  congr 1
  funext a
  apply Fin.ext
  match a with
  | ⟨0, _⟩ => show win1_0.index t 0 * 1024 + 1 * p.val = (t.val / 16 % 16) * 1024 + p.val; rw [(idx1_0 t).1]; omega
  | ⟨1, _⟩ => show win1_0.index t 1 * 512 + 1 * k.val = k.val; rw [(idx1_0 t).2]; omega
/-- The column window's block at point `t` is rows `1024 (t % 16) …` of its array. -/
theorem blk1_1 (c : Dev nD) (t : Fin cfg1.N) (q : Fin 1024) (k : Fin 512) :
    (iblk1 V c 1 t : Vec Ideal S1024x512 .bf16) (ix2 q k) = (V c main_v0 : S16384x512.Idx → EReal) (ix2 (rowIx (t.val % 16) q) k) := by
  unfold iblk1
  rw [View.read_apply]
  show V c main_v0 _ = V c main_v0 _
  congr 1
  funext a
  apply Fin.ext
  match a with
  | ⟨0, _⟩ => show win1_1.index t 0 * 1024 + 1 * q.val = (t.val % 16 % 16) * 1024 + q.val; rw [(idx1_1 t).1]; omega
  | ⟨1, _⟩ => show win1_1.index t 1 * 512 + 1 * k.val = k.val; rw [(idx1_1 t).2]; omega

/-- The scores of row `p` of row block `I` against the rows of column block `n`: the region's array of rows against its array
    of columns, contracted along the feature axis. -/
def scores1 (c : Dev nD) (I : ℕ) (p : Fin 1024) : ℕ → Fin 1024 → EReal :=
  scoresOf (V c main_v7) (V c main_v0) I p

/-- The block of scores the body sees at point `t` is the score family's block `t % 16` of row block `t / 16`. -/
theorem sc1_eq (c : Dev nD) (t : Fin cfg1.N) (p : Fin 1024) :
    blockScores (iblk1 V c 0 t) (iblk1 V c 1 t) p = scores1 V c (t.val / 16) p (t.val % 16) :=
  by
  funext q
  unfold blockScores scores1 scoresOf
  refine Finset.sum_congr rfl fun k _ => ?_
  rw [blk1_0 V c t p k, blk1_1 V c t q k]

/-- A first column block: from the reset state `(-∞, 0)` one step with the point's block of scores. -/
theorem first1 (c : Dev nD) (t : Fin cfg1.N) (h0 : t.val % 16 = 0) (p : Fin 1024) :
    ((outsAt1 V c t.val t.isLt).2.1 (ix2 p 0), (outsAt1 V c t.val t.isLt).2.2 (ix2 p 0)) = stateAfter (scores1 V c (t.val / 16) p) (t.val % 16 + 1)
    ∧ (outsAt1 V c t.val t.isLt).1 (ix2 p 0) = lseOf (stateAfter (scores1 V c (t.val / 16) p) (t.val % 16 + 1)) := by
  rw [outsAt1_A V c t h0]
  dsimp only
  rw [sout1_A_0_eq, sout1_A_1_eq, out1_A_2_eq]
  have hst : stateAfter (scores1 V c (t.val / 16) p) (t.val % 16 + 1) = step ((⊥ : EReal), (0 : EReal)) (scores1 V c (t.val / 16) p (t.val % 16)) := by
    rw [h0]; rfl
  rw [hst, ← sc1_eq V c t p]
  have e7 := Pay.pay7_apply1 (iblk1 V c 0 t : Vec Ideal S1024x512 .bf16) (iblk1 V c 1 t : Vec Ideal S1024x512 .bf16) (k1_pay2 (F := Ideal)) (k1_pay3 (F := Ideal)) p
  have e6 := Pay.pay6_apply1 (iblk1 V c 0 t : Vec Ideal S1024x512 .bf16) (iblk1 V c 1 t : Vec Ideal S1024x512 .bf16) (k1_pay2 (F := Ideal)) (k1_pay3 (F := Ideal)) p
  rw [Pay.pay2_apply1 p, Pay.pay3_apply1 p] at e7 e6
  refine ⟨Prod.ext e7 e6, ?_⟩
  rw [Pay.pay1_apply1, e7, e6]
  rfl

/-- A later column block: from what the point before left, one step with the point's block of scores. -/
theorem later1 (c : Dev nD) (t : Fin cfg1.N) (h0 : ¬t.val % 16 = 0) (p : Fin 1024)
    (hprev : ((outsAt1 V c (t.val - 1) (Nat.lt_of_le_of_lt (Nat.sub_le _ _) t.isLt)).2.1 (ix2 p 0), (outsAt1 V c (t.val - 1) (Nat.lt_of_le_of_lt (Nat.sub_le _ _) t.isLt)).2.2 (ix2 p 0))
      = stateAfter (scores1 V c (t.val / 16) p) (t.val % 16)) :
    ((outsAt1 V c t.val t.isLt).2.1 (ix2 p 0), (outsAt1 V c t.val t.isLt).2.2 (ix2 p 0)) = stateAfter (scores1 V c (t.val / 16) p) (t.val % 16 + 1)
    ∧ (outsAt1 V c t.val t.isLt).1 (ix2 p 0) = lseOf (stateAfter (scores1 V c (t.val / 16) p) (t.val % 16 + 1)) := by
  rw [outsAt1_B V c t h0]
  dsimp only
  rw [sout1_B_0_eq, sout1_B_1_eq, out1_B_2_eq]
  have hst : stateAfter (scores1 V c (t.val / 16) p) (t.val % 16 + 1) = step (stateAfter (scores1 V c (t.val / 16) p) (t.val % 16)) (scores1 V c (t.val / 16) p (t.val % 16)) := rfl
  rw [hst, ← hprev, ← sc1_eq V c t p]
  have e7 := Pay.pay7_apply1 (iblk1 V c 0 t : Vec Ideal S1024x512 .bf16) (iblk1 V c 1 t : Vec Ideal S1024x512 .bf16) (outsAt1 V c (t.val - 1) (Nat.lt_of_le_of_lt (Nat.sub_le _ _) t.isLt)).2.1 (outsAt1 V c (t.val - 1) (Nat.lt_of_le_of_lt (Nat.sub_le _ _) t.isLt)).2.2 p
  have e6 := Pay.pay6_apply1 (iblk1 V c 0 t : Vec Ideal S1024x512 .bf16) (iblk1 V c 1 t : Vec Ideal S1024x512 .bf16) (outsAt1 V c (t.val - 1) (Nat.lt_of_le_of_lt (Nat.sub_le _ _) t.isLt)).2.1 (outsAt1 V c (t.val - 1) (Nat.lt_of_le_of_lt (Nat.sub_le _ _) t.isLt)).2.2 p
  refine ⟨Prod.ext e7 e6, ?_⟩
  rw [Pay.pay1_apply1, e7, e6]
  rfl

/-- THE INVARIANT. After the body at position `n` the carried maximum and sum of row `p` are the running state after the first
    `n % 16 + 1` column blocks of that row's scores, and the output block holds the row's value read off that state. -/
theorem state1 (c : Dev nD) : ∀ (n : ℕ) (hn : n < cfg1.N) (p : Fin 1024),
    ((outsAt1 V c n hn).2.1 (ix2 p 0), (outsAt1 V c n hn).2.2 (ix2 p 0)) = stateAfter (scores1 V c (n / 16) p) (n % 16 + 1)
    ∧ (outsAt1 V c n hn).1 (ix2 p 0) = lseOf (stateAfter (scores1 V c (n / 16) p) (n % 16 + 1)) := by
  intro n
  induction n with
  | zero =>
    intro hn p
    have key := first1 V c ⟨0, hn⟩ (Nat.zero_mod _) p
    exact key
  | succ n ih =>
    intro hn p
    by_cases h0 : (n + 1) % 16 = 0
    · exact first1 V c ⟨n + 1, hn⟩ h0 p
    · have hprev := ih (Nat.lt_of_succ_lt hn) p
      exact later1 V c ⟨n + 1, hn⟩ h0 p (by
        have e1 : (n + 1) / 16 = n / 16 := by omega
        have e2 : (n + 1) % 16 = n % 16 + 1 := by omega
        simpa [e1, e2, Nat.add_sub_cancel] using hprev.1)

/-! ## From blocks to the array -/

/-- The row values of region 1 as one array: entry `r` is row `r`'s value after all sixteen column blocks. -/
def rowValues1 (c : Dev nD) : S16384x1.Idx → EReal := fun idx =>
  lseOf (stateAfter (scores1 V c ((idx 0).val / 1024) ⟨(idx 0).val % 1024, Nat.mod_lt _ (by decide)⟩) 16)

/-- What a row block's last point writes back is that block of `rowValues1`. -/
theorem flushed1_eq (c : Dev nD) (t : Fin cfg1.N) (hf : (cfg1.win 2).flush t = true) :
    (dat1 V c).flushed 2 t = ((cfg1.win 2).blk t).view.read (Elt Ideal) (rowValues1 V c) := by
  have hN : t.val < 256 := lt_of_lt_of_eq t.isLt (show cfg1.N = 256 from N_1)
  have h15 : t.val % 16 = 15 := (flush1_2 t).mp hf
  show (cfg1.win 2).cut (grid1.coords t) ((dat1 V c).after 2 t) = _
  rw [after1_2]
  funext y
  rw [View.read_apply]
  obtain ⟨p, z, rfl⟩ : ∃ (p : Fin 1024) (z : Fin 1), y = ix2 p z := ⟨y 0, y 1, eq_ix2 y⟩
  obtain rfl : z = 0 := Subsingleton.elim _ _
  show (outsAt1 V c t.val t.isLt).1 (ix2 p 0) = _
  rw [(state1 V c t.val t.isLt p).2, h15]
  unfold rowValues1
  have e0 : ((((cfg1.win 2).blk t).view.emb (ix2 p (0 : Fin 1))) 0).val = (t.val / 16) * 1024 + p.val := by
    show win1_2.index t 0 * 1024 + 1 * p.val = _; rw [(idx1_2 t).1]; omega
  have ed : ((((cfg1.win 2).blk t).view.emb (ix2 p (0 : Fin 1))) 0).val / 1024 = t.val / 16 := by rw [e0]; omega
  have em : (⟨((((cfg1.win 2).blk t).view.emb (ix2 p (0 : Fin 1))) 0).val % 1024, Nat.mod_lt _ (by decide)⟩ : Fin 1024) = p := Fin.ext (by rw [e0]; show ((t.val / 16) * 1024 + p.val) % 1024 = p.val; omega)
  rw [ed, em]
  exact (cast_eq _ _).symm

/-- So the region's output array ends at `rowValues1`: row block `I`'s last point, `16 I + 15`, covers rows `1024 I …`. -/
theorem final1 (c : Dev nD) : (dat1 V c).arrAt 2 cfg1.N = rowValues1 V c :=
  (dat1 V c).arrAt_eq_of_cover 2 (rowValues1 V c) (flushed1_eq V c) fun i => by
    have h0 : (i 0 : Nat) < 16384 := (i 0).isLt
    have h1 : (i 1 : Nat) < 1 := (i 1).isLt
    have hN : cfg1.N = 256 := N_1
    have hlt : 16 * ((i 0).val / 1024) + 15 < cfg1.N := by rw [hN]; omega
    refine ⟨⟨16 * ((i 0).val / 1024) + 15, hlt⟩, (flush1_2 _).mpr (by show (16 * ((i 0).val / 1024) + 15) % 16 = 15; omega), ?_⟩
    show i ∈ ((View.whole main_v9).slice (win1_2.rect ⟨16 * ((i 0).val / 1024) + 15, hlt⟩)).set
    rw [View.set_slice_whole, Rect.mem_set_unit]
    intro a
    match a with
    | ⟨0, _⟩ =>
      show win1_2.index _ 0 * win1_2.size 0 ≤ (i 0 : Nat) ∧ (i 0 : Nat) < win1_2.index _ 0 * win1_2.size 0 + win1_2.xsize (grid1.coords _) 0
      rw [(idx1_2 _).1]
      show (16 * ((i 0).val / 1024) + 15) / 16 * 1024 ≤ (i 0 : Nat) ∧ (i 0 : Nat) < (16 * ((i 0).val / 1024) + 15) / 16 * 1024 + 1024
      omega
    | ⟨1, _⟩ =>
      show win1_2.index _ 1 * win1_2.size 1 ≤ (i 1 : Nat) ∧ (i 1 : Nat) < win1_2.index _ 1 * win1_2.size 1 + win1_2.xsize (grid1.coords _) 1
      rw [(idx1_2 _).2]
      show 0 * 1 ≤ (i 1 : Nat) ∧ (i 1 : Nat) < 0 * 1 + 1
      omega

end Cert.KernelIdeal.Hand

end
-- ==== Proof.KIHost.lean ====
/-
  The host lines of the kernel program read back, from any contents `W` of the buffers: what the lines before the two
  regions leave in the regions' operands (the arguments themselves, and the arguments times the scale; a change of float
  format is the identity on extended reals), and what the lines after the regions make of the regions' two results.
-/
import proofs.«116465_j25151328485434_2_alg».proof.Proof.Gen.KernelIdeal.Launch
import Idealize.ShloMosaic.Lib.StableHlo.Run
import Idealize.ShloMosaic.Lib.ValueIdx
import Idealize.ShloMosaic.Lib.Pipeline.Value
import Idealize.ShloMosaic.PureOps.Ideal.Laws
import Idealize.ShloMosaic.Lib.IdealHost

noncomputable section

namespace Cert.KernelIdeal.Host

open Cert.KernelIdeal Cert.KernelIdeal.Gen Idealize.ShloMosaic Idealize.ShloMosaic.ValueIdx Idealize.ShloMosaic.StableHlo

/-! ## Three host operations at an index, for any operand -/

/-- The float sum over the second axis, at row `i`: the initial value's element plus the sum of the row's entries. -/
theorem rowSum_apply (X : (⟨S16384x512, .f32⟩ : BufTy).Contents (Elt Ideal)) (c0 : (⟨S_, .f32⟩ : BufTy).Contents (Elt Ideal))
    (h' : S16384x512.ReducesTo [1] S16384) (hu : 0 < S_.numel) (i : Fin 16384) :
    Host.reduceAdd (F := Ideal) (φ := .f32) X c0 h' hu (ix1 i) = c0 (Shape.Idx.first hu) + ∑ k : Fin 512, X (ix2 i k) := by
  rw [hostReduceAdd_apply, Ideal.hostReduceAdd_single h' (by decide)]
  refine congrArg (_ + ·) (Finset.sum_congr rfl fun k _ => ?_)
  exact congrArg X (funext fun a => Fin.ext (by match a with | ⟨0, _⟩ => rfl | ⟨1, _⟩ => rfl))

/-- A vector laid out as a column, at `(i, 0)`, is its entry `i`. -/
theorem column_apply (z : (⟨S16384, .f32⟩ : BufTy).Contents (Elt Ideal))
    (h : S16384.BroadcastsInDim S16384x1 (![0] : Fin 1 → Fin S16384x1.rank)) (i : Fin 16384) :
    broadcastInDim S16384x1 ![0] h z (ix2 i (0 : Fin 1)) = z (ix1 i) :=
  broadcastInDim_apply _ h z (ix2 i (0 : Fin 1)) (ix1 i) (fun a => match a with
    | ⟨0, _⟩ => by show i.val = if (16384 : Nat) = 1 then 0 else i.val; rw [if_neg (by decide)])

/-- The float sum over both axes of a column: the initial value's element plus the sum of the column's entries. -/
theorem total_apply (X : (⟨S16384x1, .f32⟩ : BufTy).Contents (Elt Ideal)) (c0 : (⟨S_, .f32⟩ : BufTy).Contents (Elt Ideal))
    (h' : S16384x1.ReducesTo [0, 1] S_) (hu : 0 < S_.numel) (y : S_.Idx) :
    Host.reduceAdd (F := Ideal) (φ := .f32) X c0 h' hu y = c0 (Shape.Idx.first hu) + ∑ i : Fin 16384, X (ix2 i (0 : Fin 1)) := by
  rw [hostReduceAdd_apply, Ideal.hostReduceAdd_total h' (fun b => b.elim0), sum_idx2]
  simp only [Fin.sum_univ_one]

/-! ## The buffers the host lines read -/

/-- The first argument, as the contents `W` hold it. -/
abbrev a0 (W : Valuation τ sig (Elt Ideal)) : (⟨S16384x512, .f32⟩ : BufTy).Contents (Elt Ideal) := W (Proc.devRef .tc main_arg0)
/-- The second argument. -/
abbrev a1 (W : Valuation τ sig (Elt Ideal)) : (⟨S16384x512, .f32⟩ : BufTy).Contents (Elt Ideal) := W (Proc.devRef .tc main_arg1)
/-- The first region's result, a column. -/
abbrev v8 (W : Valuation τ sig (Elt Ideal)) : (⟨S16384x1, .f32⟩ : BufTy).Contents (Elt Ideal) := W (Proc.devRef .tc main_v8)
/-- The second region's result, a column. -/
abbrev v9 (W : Valuation τ sig (Elt Ideal)) : (⟨S16384x1, .f32⟩ : BufTy).Contents (Elt Ideal) := W (Proc.devRef .tc main_v9)

variable (W : Valuation τ sig (Elt Ideal))

/-! ## Before the regions -/

/-- The first argument in the narrower format is the first argument. -/
theorem entry_v0 : StableHlo.after (hostOps0 (F := Ideal)) W (Proc.devRef .tc main_v0) = a0 W := by
  after_results
  rfl

/-- The second argument in the narrower format is the second argument. -/
theorem entry_v1 : StableHlo.after (hostOps0 (F := Ideal)) W (Proc.devRef .tc main_v1) = a1 W := by
  after_results
  rfl

/-- The first argument times the scale, entry by entry. -/
theorem entry_v4 :
    StableHlo.after (hostOps0 (F := Ideal)) W (Proc.devRef .tc main_v4) = fun idx => a0 W idx * Ideal.ofBits .f32 0x41649249#32 := by
  after_results
  rfl

/-- The second argument times the scale, entry by entry. -/
theorem entry_v7 :
    StableHlo.after (hostOps0 (F := Ideal)) W (Proc.devRef .tc main_v7) = fun idx => a1 W idx * Ideal.ofBits .f32 0x41649249#32 := by
  after_results
  rfl

/-! ## After the regions -/

/-- One row's term of the final sum: the two broadcast scalars are their words, the column is the row sum of the products. -/
theorem tail_summand (A0 A1 : (⟨S16384x512, .f32⟩ : BufTy).Contents (Elt Ideal)) (R8 R9 : (⟨S16384x1, .f32⟩ : BufTy).Contents (Elt Ideal))
    (i : Fin 16384) :
    R8 (ix2 i (0 : Fin 1)) + R9 (ix2 i (0 : Fin 1))
        - broadcastInDim S16384x1 ![] bcast_S_S16384x1 (constant (F := Ideal) S_ .f32 0x40000000#32) (ix2 i (0 : Fin 1))
          * (broadcastInDim S16384x1 ![] bcast_S_S16384x1 (constant (F := Ideal) S_ .f32 0x41649249#32) (ix2 i (0 : Fin 1))
            * broadcastInDim S16384x1 ![0] bcast_S16384_S16384x1_0
                (Host.reduceAdd (F := Ideal) (φ := .f32) (mulf A0 A1) (constant (F := Ideal) S_ .f32 0x00000000#32)
                  reducesTo_S16384x512_S16384_d1 h_S_) (ix2 i (0 : Fin 1)))
      = R8 (ix2 i (0 : Fin 1)) + R9 (ix2 i (0 : Fin 1))
        - Ideal.ofBits .f32 0x40000000#32 * (Ideal.ofBits .f32 0x41649249#32 * ∑ k : Fin 512, A0 (ix2 i k) * A1 (ix2 i k)) := by
  rw [broadcastInDim_scalar_apply, broadcastInDim_scalar_apply, constant_apply, constant_apply, column_apply, rowSum_apply,
    constant_apply, Ideal.ofBits_zero_f32, zero_add]
  rfl

/-- The result: half of the mean over the rows of the two regions' results added, less twice the scaled inner product
    of the row of the first argument with the same row of the second. -/
theorem tail_v21 :
    StableHlo.after (hostOps2 (F := Ideal)) W (Proc.devRef .tc main_v21)
      = fun _ => Ideal.ofBits .f32 0x3F000000#32 * Ideal.div (∑ i : Fin 16384,
          ((v8 W (ix2 i (0 : Fin 1)) + v9 W (ix2 i (0 : Fin 1)))
            - Ideal.ofBits .f32 0x40000000#32 * (Ideal.ofBits .f32 0x41649249#32 * ∑ k : Fin 512, a0 W (ix2 i k) * a1 W (ix2 i k))))
          (Ideal.ofBits .f32 0x46800000#32) := by
  after_results
  funext y
  rw [mulf_apply, constant_apply, hostDivf_apply, total_apply, constant_apply, constant_apply]
  simp only [subf_apply, addf_apply, mulf_apply, tail_summand (a0 W) (a1 W) (v8 W) (v9 W), Ideal.ofBits_zero_f32, zero_add]

end Cert.KernelIdeal.Host

end
-- ==== Proof.Law.lean ====
/-
  The streaming arrangement of the symmetric contrastive loss equals the direct one, for real rows.

  All scores `c * ∑ k, x i k * y j k` are real, so every quantity of either arrangement is a real number included in
  the extended reals; the only extended-real corner met is the empty running state `(-∞, 0)`, which the first block
  replaces by that block's own greatest score and its own sum of shifted exponentials.

  For a row `r` of real scores write `rmax r` for its greatest value and
  `rlse r = rmax r + log (∑ j, exp (r j - rmax r))`.
  * Direct: the log-softmax of the row at `i` is `r i - rlse r`.
  * Streaming: after `m + 1` blocks the running state is `(M, ∑ exp (score - M))` over the columns read, `M` their
    greatest score, because `exp (M - M') * exp (a - M) = exp (a - M')`; when the blocks cover every column exactly once,
    the state's value `M + log (…)` is `rlse r`.
  The two losses are then the same real number, by distributing the sums.
-/
import Idealize.ShloMosaic.PureOps.Ideal
import Idealize.ShloMosaic.PureOps.Ideal.Laws
import proofs.«116465_j25151328485434_2_alg».proof.Proof.Spec

noncomputable section

namespace Cert.ClipSpec

open Idealize.ShloMosaic

/-! ### Real quantities inside the extended reals -/

/-- The inclusion of the reals commutes with a finite sum. -/
theorem coe_finsum {α : Type} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The inclusion of the reals commutes with the greater of two. -/
theorem coe_max' (a b : ℝ) : ((max a b : ℝ) : EReal) = max (a : EReal) (b : EReal) :=
  EReal.coe_strictMono.monotone.map_max

section Row

variable {α : Type} [Fintype α] [Nonempty α]

/-- The greatest value of a real family on a nonempty finite type. -/
def rmax (r : α → ℝ) : ℝ := Finset.univ.sup' Finset.univ_nonempty r

theorem le_rmax (r : α → ℝ) (j : α) : r j ≤ rmax r := Finset.le_sup' r (Finset.mem_univ j)

theorem exists_eq_rmax (r : α → ℝ) : ∃ j, r j = rmax r := by
  obtain ⟨j, _, hj⟩ := Finset.exists_mem_eq_sup' Finset.univ_nonempty r
  exact ⟨j, hj.symm⟩

/-- A bound that every value respects and some value attains is the greatest value. -/
theorem eq_rmax (r : α → ℝ) (M : ℝ) (hub : ∀ j, r j ≤ M) (hat : ∃ j, r j = M) : M = rmax r := by
  apply le_antisymm
  · obtain ⟨j, hj⟩ := hat
    rw [← hj]
    exact le_rmax r j
  · exact Finset.sup'_le _ _ fun j _ => hub j

/-- In the extended reals the supremum of the family is its greatest value. -/
theorem sup_coe (r : α → ℝ) : (Finset.univ.sup fun j => ((r j : ℝ) : EReal)) = (rmax r : EReal) := by
  apply le_antisymm
  · exact Finset.sup_le fun j _ => EReal.coe_le_coe_iff.2 (le_rmax r j)
  · obtain ⟨j, hj⟩ := exists_eq_rmax r
    rw [← hj]
    exact Finset.le_sup (f := fun j => ((r j : ℝ) : EReal)) (Finset.mem_univ j)

/-- A sum of exponentials over a nonempty type is positive. -/
theorem sum_exp_pos (r : α → ℝ) (M : ℝ) : 0 < ∑ j, Real.exp (r j - M) :=
  Finset.sum_pos (fun j _ => Real.exp_pos _) Finset.univ_nonempty

/-- The row's value: its greatest score plus the logarithm of the sum of the exponentials shifted by it. -/
def rlse (r : α → ℝ) : ℝ := rmax r + Real.log (∑ j, Real.exp (r j - rmax r))

/-- The log-softmax of a real row at `i` is the real number `r i - rlse r`. -/
theorem logSoftmaxAt_coe (r : α → ℝ) (i : α) :
    logSoftmaxAt (fun j => ((r j : ℝ) : EReal)) i = ((r i - rlse r : ℝ) : EReal) := by
  have hpos : ¬ (∑ j, Real.exp (r j - rmax r)) ≤ 0 := not_le.2 (sum_exp_pos r (rmax r))
  simp only [logSoftmaxAt, sup_coe, ← EReal.coe_sub, Ideal.exp_coe, ← coe_finsum, Ideal.log_coe, if_neg hpos, rlse]
  congr 1
  ring

end Row

/-! ### One block folded into the running state -/

section Step

variable {β : Type} [Fintype β] [Nonempty β]

/-- The first block: from `(-∞, 0)` the state becomes the block's greatest score and its sum of exponentials shifted by
    it; the rescaled old sum is `exp (-∞ - M) * 0 = 0`. -/
theorem step_bot (a : β → ℝ) :
    step ((⊥ : EReal), (0 : EReal)) (fun q => ((a q : ℝ) : EReal))
      = ((rmax a : EReal), ((∑ q, Real.exp (a q - rmax a) : ℝ) : EReal)) := by
  simp only [step, sup_coe, max_eq_right (bot_le : (⊥ : EReal) ≤ (rmax a : EReal)), mul_zero, zero_add,
    ← EReal.coe_sub, Ideal.exp_coe, ← coe_finsum]

/-- A later block onto a real state `(M, l)`: the greatest score moves to `max M (rmax a)`, the old sum is rescaled by
    `exp (M - max …)`, and the block's exponentials are taken at the new shift. -/
theorem step_coe (M l : ℝ) (a : β → ℝ) :
    step ((M : EReal), (l : EReal)) (fun q => ((a q : ℝ) : EReal))
      = (((max M (rmax a) : ℝ) : EReal),
          ((Real.exp (M - max M (rmax a)) * l + ∑ q, Real.exp (a q - max M (rmax a)) : ℝ) : EReal)) := by
  simp only [step, sup_coe, ← coe_max', ← EReal.coe_sub, Ideal.exp_coe, ← coe_finsum, ← EReal.coe_mul, ← EReal.coe_add]

/-- THE INVARIANT. After `m + 1` blocks of real scores the state is real: its first component is the greatest score `M`
    among the blocks read, its second is `∑ exp (score - M)` over the blocks read. -/
theorem stateAfter_coe (s : ℕ → β → ℝ) (m : ℕ) :
    ∃ M : ℝ, (∀ b, b < m + 1 → ∀ q, s b q ≤ M) ∧ (∃ b, b < m + 1 ∧ ∃ q, s b q = M) ∧
      stateAfter (fun n q => ((s n q : ℝ) : EReal)) (m + 1)
        = ((M : EReal), ((∑ b ∈ Finset.range (m + 1), ∑ q, Real.exp (s b q - M) : ℝ) : EReal)) := by
  induction m with
  | zero =>
    refine ⟨rmax (s 0), fun b hb q => ?_, ⟨0, Nat.zero_lt_one, exists_eq_rmax (s 0)⟩, ?_⟩
    · obtain rfl : b = 0 := by omega
      exact le_rmax (s 0) q
    · show step ((⊥ : EReal), (0 : EReal)) (fun q => ((s 0 q : ℝ) : EReal)) = _
      rw [step_bot, Finset.sum_range_one]
  | succ m ih =>
    obtain ⟨M₀, hub₀, ⟨b₀, hb₀, q₀, hat₀⟩, h₀⟩ := ih
    refine ⟨max M₀ (rmax (s (m + 1))), fun b hb q => ?_, ?_, ?_⟩
    · -- a score of an earlier block is below the old greatest score, one of the new block below that block's
      rcases Nat.lt_or_ge b (m + 1) with h | h
      · exact le_trans (hub₀ b h q) (le_max_left _ _)
      · obtain rfl : b = m + 1 := by omega
        exact le_trans (le_rmax (s (m + 1)) q) (le_max_right _ _)
    · -- the greater of the two is attained where that one is
      rcases le_total M₀ (rmax (s (m + 1))) with h | h
      · obtain ⟨q, hq⟩ := exists_eq_rmax (s (m + 1))
        exact ⟨m + 1, Nat.lt_succ_self _, q, by rw [max_eq_right h]; exact hq⟩
      · exact ⟨b₀, Nat.lt_succ_of_lt hb₀, q₀, by rw [max_eq_left h]; exact hat₀⟩
    · show step (stateAfter (fun n q => ((s n q : ℝ) : EReal)) (m + 1)) (fun q => ((s (m + 1) q : ℝ) : EReal)) = _
      rw [h₀, step_coe]
      -- the rescaled old sum: exp (M₀ - M') * exp (a - M₀) = exp (a - M')
      have hl : Real.exp (M₀ - max M₀ (rmax (s (m + 1)))) * (∑ b ∈ Finset.range (m + 1), ∑ q, Real.exp (s b q - M₀))
          = ∑ b ∈ Finset.range (m + 1), ∑ q, Real.exp (s b q - max M₀ (rmax (s (m + 1)))) := by
        rw [Finset.mul_sum]
        refine Finset.sum_congr rfl fun b _ => ?_
        rw [Finset.mul_sum]
        refine Finset.sum_congr rfl fun q _ => ?_
        rw [← Real.exp_add]
        congr 1
        ring
      rw [hl, Finset.sum_range_succ (fun b => ∑ q, Real.exp (s b q - max M₀ (rmax (s (m + 1))))) (m + 1)]

end Step

/-! ### A whole row read in blocks -/

section Blocks

variable {ι β : Type} [Fintype ι] [Fintype β]

/-- When the blocks cover every column exactly once, a sum over the blocks of sums over a block is the sum over all the
    columns. -/
theorem sum_blocks (nb : ℕ) (col : ℕ → β → ι)
    (hcol : Function.Bijective (fun p : Fin nb × β => col p.1.val p.2)) (g : ι → ℝ) :
    ∑ b ∈ Finset.range nb, ∑ q, g (col b q) = ∑ j, g j := by
  rw [Finset.sum_range (fun b => ∑ q, g (col b q)),
    ← Fintype.sum_prod_type' (fun (b : Fin nb) (q : β) => g (col b.val q))]
  exact hcol.sum_comp g

variable [Nonempty ι] [Nonempty β]

/-- A real row read in `nb > 0` blocks that cover every column exactly once: the value of the final state is the row's
    `rlse`. -/
theorem lseOf_stateAfter_row (r : ι → ℝ) (nb : ℕ) (hnb : 0 < nb) (col : ℕ → β → ι)
    (hcol : Function.Bijective (fun p : Fin nb × β => col p.1.val p.2)) :
    lseOf (stateAfter (fun n q => ((r (col n q) : ℝ) : EReal)) nb) = (rlse r : EReal) := by
  obtain ⟨m, rfl⟩ : ∃ m, nb = m + 1 := ⟨nb - 1, by omega⟩
  obtain ⟨M, hub, ⟨b₀, hb₀, q₀, hat⟩, hst⟩ := stateAfter_coe (fun n q => r (col n q)) m
  -- the greatest score among the blocks is the greatest score of the row: every column is in some block
  have hM : M = rmax r := by
    apply eq_rmax
    · intro j
      obtain ⟨p, hp⟩ := hcol.2 j
      rw [← hp]
      exact hub p.1.val p.1.isLt p.2
    · exact ⟨col b₀ q₀, hat⟩
  subst hM
  have hsum := sum_blocks (m + 1) col hcol (fun j => Real.exp (r j - rmax r))
  have hpos : ¬ (∑ j, Real.exp (r j - rmax r)) ≤ 0 := not_le.2 (sum_exp_pos r (rmax r))
  rw [hst, hsum]
  simp only [lseOf, Ideal.log_coe, if_neg hpos, ← EReal.coe_add, rlse]

end Blocks

/-! ### The scores are real -/

section Scores

variable {κ : Type} [Fintype κ]

/-- The streaming arrangement's score, with the scale folded into the first row: the real `c * ∑ k, u k * v k`. -/
theorem score_coe (c : ℝ) (u v : κ → ℝ) :
    (∑ k, ((u k : EReal) * (c : EReal)) * (v k : EReal)) = ((c * ∑ k, u k * v k : ℝ) : EReal) := by
  simp only [← EReal.coe_mul, ← coe_finsum]
  congr 1
  rw [Finset.mul_sum]
  exact Finset.sum_congr rfl fun k _ => by ring

/-- The direct arrangement's score: the same real. -/
theorem dot_coe (c : ℝ) (u v : κ → ℝ) :
    (c : EReal) * ∑ k, (u k : EReal) * (v k : EReal) = ((c * ∑ k, u k * v k : ℝ) : EReal) := by
  simp only [← EReal.coe_mul, ← coe_finsum]

end Scores

/-! ### The two arrangements -/

/-- THE LAW. For real rows, a nonzero real divisor `n`, and `nb > 0` blocks that cover every column exactly once, the
    streaming arrangement (with `two = 2`, `half = 1 / 2`) and the direct arrangement (with `two = 2`) are equal. -/
theorem streaming_eq_direct {ι κ β : Type} [Fintype ι] [Fintype κ] [Fintype β] [Nonempty ι] [Nonempty β]
    (c n : ℝ) (hn : n ≠ 0) (nb : ℕ) (hnb : 0 < nb) (col : ℕ → β → ι)
    (hcol : Function.Bijective (fun p : Fin nb × β => col p.1.val p.2)) (x y : ι → κ → ℝ) :
    streaming (c : EReal) (n : EReal) ((2 : ℝ) : EReal) ((1 / 2 : ℝ) : EReal) nb col
        (fun i k => (x i k : EReal)) (fun i k => (y i k : EReal))
      = direct (c : EReal) (n : EReal) ((2 : ℝ) : EReal) (fun i k => (x i k : EReal)) (fun i k => (y i k : EReal)) := by
  -- the products commute, so the transposed matrix's row `i` is what the second running state reads
  have hcomm : ∀ i j, (c * ∑ k, y i k * x j k) = c * ∑ k, x j k * y i k := fun i j => by
    congr 1
    exact Finset.sum_congr rfl fun k _ => mul_comm _ _
  -- the value of each running state is the `rlse` of the row it reads
  have hA : ∀ i, lseOf (stateAfter (fun n q => ((c * ∑ k, x i k * y (col n q) k : ℝ) : EReal)) nb)
      = (rlse (fun j => c * ∑ k, x i k * y j k) : EReal) :=
    fun i => lseOf_stateAfter_row (fun j => c * ∑ k, x i k * y j k) nb hnb col hcol
  have hB : ∀ i, lseOf (stateAfter (fun n q => ((c * ∑ k, x (col n q) k * y i k : ℝ) : EReal)) nb)
      = (rlse (fun j => c * ∑ k, x j k * y i k) : EReal) :=
    fun i => lseOf_stateAfter_row (fun j => c * ∑ k, x j k * y i k) nb hnb col hcol
  have h2 : (2 : ℝ) ≠ 0 := two_ne_zero
  -- every score is a real, every row's value is its `rlse`, every division a product with the reciprocal
  simp only [streaming, direct, crossEntropyDiag, dotp, score_coe, dot_coe]
  simp only [hcomm, hA, hB, logSoftmaxAt_coe, Ideal.div_coe hn, Ideal.div_coe h2]
  -- both sides are now real numbers; compare them in the reals
  simp only [← EReal.coe_sub, ← EReal.coe_mul, ← EReal.coe_add, ← coe_finsum, ← EReal.coe_neg]
  congr 1
  simp only [Finset.sum_sub_distrib, Finset.sum_add_distrib, ← Finset.mul_sum]
  ring

end Cert.ClipSpec

end
-- ==== Proof.Glue.lean ====
/-
  The law in the form the two programs meet it: 16384 rows of 512 real entries, the columns read in sixteen blocks of
  1024, and the four scalars given by their float words (the score scale, the row count 16384, two and one half).
-/
import proofs.«116465_j25151328485434_2_alg».proof.Proof.Law
import proofs.«116465_j25151328485434_2_alg».proof.Proof.Consts

noncomputable section

namespace Cert.ClipSpec

open Idealize.ShloMosaic

/-- Column `q` of block `n` (blocks taken modulo sixteen) of a 16384-column row. -/
def col16 (n : ℕ) (q : Fin 1024) : Fin 16384 := ⟨(n % 16) * 1024 + q.val, by have := q.isLt; omega⟩

/-- Sixteen blocks of 1024 columns cover the 16384 columns exactly once: a column `j` is place `j % 1024` of block
    `j / 1024`. -/
theorem col16_bij : Function.Bijective (fun p : Fin 16 × Fin 1024 => col16 p.1.val p.2) := by
  constructor
  · rintro ⟨a, q⟩ ⟨a', q'⟩ h
    have hv : (a.val % 16) * 1024 + q.val = (a'.val % 16) * 1024 + q'.val := congrArg Fin.val h
    have ha := a.isLt
    have ha' := a'.isLt
    have hq := q.isLt
    have hq' := q'.isLt
    have h1 : a.val = a'.val := by omega
    have h2 : q.val = q'.val := by omega
    exact Prod.ext (Fin.ext h1) (Fin.ext h2)
  · intro j
    have hj := j.isLt
    refine ⟨(⟨j.val / 1024, by omega⟩, ⟨j.val % 1024, by omega⟩), Fin.ext ?_⟩
    show (j.val / 1024 % 16) * 1024 + j.val % 1024 = j.val
    omega

/-- For rows of real entries the streaming arrangement over sixteen blocks, with the scalars the programs spell, equals
    the direct arrangement with the same scalars. -/
theorem loss_eq (x y : Fin 16384 → Fin 512 → EReal) (hx : ∀ i k, ∃ r : ℝ, x i k = (r : EReal))
    (hy : ∀ i k, ∃ r : ℝ, y i k = (r : EReal)) :
    streaming (Ideal.ofBits .f32 0x41649249#32) (Ideal.ofBits .f32 0x46800000#32) (Ideal.ofBits .f32 0x40000000#32)
        (Ideal.ofBits .f32 0x3F000000#32) 16 col16 x y
      = direct (Ideal.ofBits .f32 0x41649249#32) (Ideal.ofBits .f32 0x46800000#32) (Ideal.ofBits .f32 0x40000000#32) x y := by
  choose xr hxr using hx
  choose yr hyr using hy
  obtain ⟨c, hc⟩ := Cert.Consts.ofBits_scale
  have ex : x = fun i k => ((xr i k : ℝ) : EReal) := funext fun i => funext fun k => hxr i k
  have ey : y = fun i k => ((yr i k : ℝ) : EReal) := funext fun i => funext fun k => hyr i k
  rw [ex, ey, hc, Cert.Consts.ofBits_n, Cert.Consts.ofBits_two, Cert.Consts.ofBits_half]
  exact streaming_eq_direct c 16384 (by norm_num) 16 (by norm_num) col16 col16_bij xr yr

end Cert.ClipSpec

end
-- ==== Proof.KIResult.lean ====
/-
  The idealized kernel's result as the streaming arrangement of the specification.

  The run ends with the result buffer at the last host lines applied to what the two regions left. The host lines read at an
  entry give half of the mean over the rows of the two regions' row values added, less twice the scaled diagonal score; each
  region's row value is the row's running state after sixteen column blocks, read off as the maximum plus the logarithm of the
  sum; and what the regions were entered with is the arguments themselves and the arguments times the scale. Together this is
  the streaming arrangement over the rows of the two arguments, the columns read in sixteen blocks of 1024.
-/
import proofs.«116465_j25151328485434_2_alg».proof.Proof.KIMain
import proofs.«116465_j25151328485434_2_alg».proof.Proof.KIValue
import proofs.«116465_j25151328485434_2_alg».proof.Proof.KIHost
import proofs.«116465_j25151328485434_2_alg».proof.Proof.Glue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.ClipSpec ValueIdx

variable (m : (ℓ : Loc nD τ sig) → Buf (Elt Ideal) ℓ)

/-- The arguments' launch contents on core `c`, as arrays of extended reals. -/
abbrev arg0 (c : Dev nD) : S16384x512.Idx → EReal := m ((c : Thread nD τ).loc main_arg0)
abbrev arg1 (c : Dev nD) : S16384x512.Idx → EReal := m ((c : Thread nD τ).loc main_arg1)

/-- The score scale as the programs spell it. -/
abbrev scale : EReal := Ideal.ofBits .f32 0x41649249#32

/-! ## What the regions leave, and what the last host lines find -/

theorem W3_arg0 (c : Dev nD) : W3 m c (Proc.devRef .tc main_arg0) = m ((c : Thread nD τ).loc main_arg0) :=
  (W3_of_ne m c main_arg0 (by decide)).trans ((W2_of_ne m c main_arg0 (by decide)).trans
    ((StableHlo.after_of_writes_sub hostOps0 _ hostOps0_writes (by decide)).trans rfl))
theorem W3_arg1 (c : Dev nD) : W3 m c (Proc.devRef .tc main_arg1) = m ((c : Thread nD τ).loc main_arg1) :=
  (W3_of_ne m c main_arg1 (by decide)).trans ((W2_of_ne m c main_arg1 (by decide)).trans
    ((StableHlo.after_of_writes_sub hostOps0 _ hostOps0_writes (by decide)).trans rfl))
/-- Region 0's output array, untouched by region 1, holds region 0's row values. -/
theorem W3_v8 (c : Dev nD) : W3 m c (Proc.devRef .tc main_v8) = rowValues0 (V1 m) c :=
  (W3_of_ne m c main_v8 (by decide)).trans ((W2_arr m c 2).trans (final0 (V1 m) c))
/-- Region 1's output array holds region 1's row values. -/
theorem W3_v9 (c : Dev nD) : W3 m c (Proc.devRef .tc main_v9) = rowValues1 (V2 m) c :=
  (W3_arr m c 2).trans (final1 (V2 m) c)

/-! ## What the regions are entered with -/

theorem V1_v4 (c : Dev nD) : V1 m c main_v4 = fun idx => arg0 m c idx * scale := Host.entry_v4 (W0 m c)
theorem V1_v1 (c : Dev nD) : V1 m c main_v1 = arg1 m c := Host.entry_v1 (W0 m c)
theorem V2_v7 (c : Dev nD) : V2 m c main_v7 = fun idx => arg1 m c idx * scale :=
  (W2_of_ne m c main_v7 (by decide)).trans (Host.entry_v7 (W0 m c))
theorem V2_v0 (c : Dev nD) : V2 m c main_v0 = arg0 m c :=
  (W2_of_ne m c main_v0 (by decide)).trans (Host.entry_v0 (W0 m c))

/-! ## A row's value -/

/-- The row index map is the specification's block-to-column map. -/
theorem rowIx_eq_col16 : rowIx = col16 := rfl
/-- Row `i` is row `i % 1024` of row block `i / 1024`. -/
theorem rowIx_div_mod (i : Fin 16384) : rowIx (i.val / 1024) ⟨i.val % 1024, Nat.mod_lt _ (by decide)⟩ = i :=
  Fin.ext (by show (i.val / 1024 % 16) * 1024 + i.val % 1024 = i.val; have := i.isLt; omega)

/-- Region 0's value of row `i`: the scaled rows of the first argument against the rows of the second. -/
theorem rowValues0_apply (c : Dev nD) (i : Fin 16384) :
    rowValues0 (V1 m) c (ix2 i (0 : Fin 1))
      = lseOf (stateAfter (fun n q => ∑ k : Fin 512, (arg0 m c (ix2 i k) * scale) * arg1 m c (ix2 (col16 n q) k)) 16) := by
  unfold rowValues0
  show lseOf (stateAfter (scores0 (V1 m) c (i.val / 1024) ⟨i.val % 1024, _⟩) 16) = _
  congr 2
  funext n q
  unfold scores0 scoresOf
  rw [rowIx_div_mod, V1_v4, V1_v1]
  rfl

/-- Region 1's value of row `i`: the scaled rows of the second argument against the rows of the first. -/
theorem rowValues1_apply (c : Dev nD) (i : Fin 16384) :
    rowValues1 (V2 m) c (ix2 i (0 : Fin 1))
      = lseOf (stateAfter (fun n q => ∑ k : Fin 512, (arg1 m c (ix2 i k) * scale) * arg0 m c (ix2 (col16 n q) k)) 16) := by
  unfold rowValues1
  show lseOf (stateAfter (scores1 (V2 m) c (i.val / 1024) ⟨i.val % 1024, _⟩) 16) = _
  congr 2
  funext n q
  unfold scores1 scoresOf
  rw [rowIx_div_mod, V2_v7, V2_v0]
  rfl

/-! ## The result -/

/-- The result buffer at the end of the run is the streaming arrangement over the two arguments' rows. -/
theorem result_eq (c : Dev nD) :
    W4 m c (Proc.devRef .tc main_v21)
      = fun _ => streaming scale (Ideal.ofBits .f32 0x46800000#32) (Ideal.ofBits .f32 0x40000000#32) (Ideal.ofBits .f32 0x3F000000#32)
          16 col16 (fun i k => arg0 m c (ix2 i k)) (fun i k => arg1 m c (ix2 i k)) := by
  show StableHlo.after hostOps2 (W3 m c) (Proc.devRef .tc main_v21) = _
  rw [Host.tail_v21 (W3 m c)]
  funext _
  unfold streaming
  dsimp only [Host.a0, Host.a1, Host.v8, Host.v9]
  rw [W3_v8 m c, W3_v9 m c, W3_arg0 m c, W3_arg1 m c]
  simp only [rowValues0_apply, rowValues1_apply]

end Cert.KernelIdeal.Hand

end
-- ==== Proof.RefRun.lean ====
import proofs.«116465_j25151328485434_2_alg».proof.Proof.RefRunP
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo Cert.ReferenceIdeal.ValueP

variable {F : FTy → Type} [FloatOps F]

/-! # The reference program's run, stretch by stretch

@main of the reference is a straight line of 96 host operations: the scaled logits `main_v3` and their transpose `main_v4`,
a log-softmax of each (`main_v6`, `main_v12`), from each the diagonal entries gathered along the iota `main_v5` and their
negated mean (`main_v11`, `main_v17`), and half the sum of the two means (`main_v19`). The fold of the whole line at the
result buffer is computed here as the composition of the folds of five consecutive stretches, each from arbitrary contents
`W`: what a stretch leaves in a buffer is a term over `W` at the buffers the stretch reads, and substituting the stretches'
terms into one another gives `res_main_v19`. -/

/-- The contents after a concatenation of two lines: the second line's fold from the first line's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- Moving contents to a typed reference's buffer type and back is the identity. -/
theorem ofBuf_toBuf {T : BufTy} (x : TRef sig T) (v : T.Contents (Elt F)) : x.ofBuf (x.toBuf v) = v := by
  obtain ⟨r, h, h2, h3⟩ := x
  subst h
  rfl

/-! A typed reference to a literal buffer has the buffer's own type, so the transport of contents along
    that equation is the identity: one statement per reference the five stretches read or write across a
    boundary between an operation of @main and an operation of an inlined function. -/

theorem ofBuf_main_v3 (h1 h2 h3) (v : main_v3.ty.Contents (Elt F)) :
    (TRef.of (sig := sig) (T := ⟨S16384x16384, .f32⟩) main_v3 h1 h2 h3).ofBuf v = v := rfl

theorem ofBuf_main_v4 (h1 h2 h3) (v : main_v4.ty.Contents (Elt F)) :
    (TRef.of (sig := sig) (T := ⟨S16384x16384, .f32⟩) main_v4 h1 h2 h3).ofBuf v = v := rfl

theorem ofBuf_main_v6 (h1 h2 h3) (v : main_v6.ty.Contents (Elt F)) :
    (TRef.of (sig := sig) (T := ⟨S16384x16384, .f32⟩) main_v6 h1 h2 h3).ofBuf v = v := rfl

theorem ofBuf_main_v12 (h1 h2 h3) (v : main_v12.ty.Contents (Elt F)) :
    (TRef.of (sig := sig) (T := ⟨S16384x16384, .f32⟩) main_v12 h1 h2 h3).ofBuf v = v := rfl

theorem toBuf_main_v6 (h1 h2 h3) (v : (⟨S16384x16384, .f32⟩ : BufTy).Contents (Elt F)) :
    (TRef.of (sig := sig) (T := ⟨S16384x16384, .f32⟩) main_v6 h1 h2 h3).toBuf v = v := rfl

theorem toBuf_main_v12 (h1 h2 h3) (v : (⟨S16384x16384, .f32⟩ : BufTy).Contents (Elt F)) :
    (TRef.of (sig := sig) (T := ⟨S16384x16384, .f32⟩) main_v12 h1 h2 h3).toBuf v = v := rfl

theorem ofBuf_main_v7 (h1 h2 h3) (v : main_v7.ty.Contents (Elt F)) :
    (TRef.of (sig := sig) (T := ⟨S16384x1, .i32⟩) main_v7 h1 h2 h3).ofBuf v = v := rfl

theorem ofBuf_main_v13 (h1 h2 h3) (v : main_v13.ty.Contents (Elt F)) :
    (TRef.of (sig := sig) (T := ⟨S16384x1, .i32⟩) main_v13 h1 h2 h3).ofBuf v = v := rfl

theorem toBuf_main_call1_v4 (h1 h2 h3) (v : (⟨S16384x1, .i32⟩ : BufTy).Contents (Elt F)) :
    (TRef.of (sig := sig) (T := ⟨S16384x1, .i32⟩) main_call1_v4 h1 h2 h3).toBuf v = v := rfl

theorem toBuf_main_call3_v4 (h1 h2 h3) (v : (⟨S16384x1, .i32⟩ : BufTy).Contents (Elt F)) :
    (TRef.of (sig := sig) (T := ⟨S16384x1, .i32⟩) main_call3_v4 h1 h2 h3).toBuf v = v := rfl

theorem ofBuf_main_call1_v5 (h1 h2 h3) (v : main_call1_v5.ty.Contents (Elt F)) :
    (TRef.of (sig := sig) (T := ⟨S16384x1x1, .i32⟩) main_call1_v5 h1 h2 h3).ofBuf v = v := rfl

theorem ofBuf_main_call3_v5 (h1 h2 h3) (v : main_call3_v5.ty.Contents (Elt F)) :
    (TRef.of (sig := sig) (T := ⟨S16384x1x1, .i32⟩) main_call3_v5 h1 h2 h3).ofBuf v = v := rfl

theorem toBuf_main_v8 (h1 h2 h3) (v : (⟨S16384x1, .f32⟩ : BufTy).Contents (Elt F)) :
    (TRef.of (sig := sig) (T := ⟨S16384x1, .f32⟩) main_v8 h1 h2 h3).toBuf v = v := rfl

theorem toBuf_main_v14 (h1 h2 h3) (v : (⟨S16384x1, .f32⟩ : BufTy).Contents (Elt F)) :
    (TRef.of (sig := sig) (T := ⟨S16384x1, .f32⟩) main_v14 h1 h2 h3).toBuf v = v := rfl

/-! ## @main's operations in five consecutive stretches

The logits, their transpose and the iota; the first log-softmax; the first gather and its mean; the second
log-softmax (of the transpose); the second gather, its mean, and the final average. -/

/-- Operations 1 to 7 of @main, in order. -/
abbrev s1 : List (HloOp τ sig (Elt F)) :=
  [ unary main_arg1 main_v0 ((transpose S512x16384 [1, 0] · transposes_S16384x512_S512x16384_1_0) : (⟨S16384x512, .f32⟩ : BufTy).Contents (Elt F) → (⟨S512x16384, .f32⟩ : BufTy).Contents (Elt F)),
    binary main_arg0 main_v0 main_v1 ((fun l r => Host.dotGeneral dot_S16384x512_S512x16384_S16384x16384_1_0_0_1_n_n none l r) : (⟨S16384x512, .f32⟩ : BufTy).Contents (Elt F) → (⟨S512x16384, .f32⟩ : BufTy).Contents (Elt F) → (⟨S16384x16384, .f32⟩ : BufTy).Contents (Elt F)),
    nullary main_cst (constant S_ .f32 0x41649249#32),
    unary main_cst main_v2 (broadcastInDim S16384x16384 ![] bcast_S_S16384x16384 : (⟨S_, .f32⟩ : BufTy).Contents (Elt F) → (⟨S16384x16384, .f32⟩ : BufTy).Contents (Elt F)),
    binary main_v2 main_v1 main_v3 (mulf : (⟨S16384x16384, .f32⟩ : BufTy).Contents (Elt F) → (⟨S16384x16384, .f32⟩ : BufTy).Contents (Elt F) → (⟨S16384x16384, .f32⟩ : BufTy).Contents (Elt F)),
    unary main_v3 main_v4 ((transpose S16384x16384 [1, 0] · transposes_S16384x16384_S16384x16384_1_0) : (⟨S16384x16384, .f32⟩ : BufTy).Contents (Elt F) → (⟨S16384x16384, .f32⟩ : BufTy).Contents (Elt F)),
    nullary main_v5 (iotaInDim S16384 32 0) ]

/-- Operations 8 to 22 of @main, in order. -/
abbrev s2 : List (HloOp τ sig (Elt F)) :=
  [ TRef.nullary (TRef.of (T := ⟨S_, .f32⟩) main_call0_cst) (constant S_ .f32 0xFF800000#32),
    TRef.binary (TRef.of (T := ⟨S16384x16384, .f32⟩) main_v3) (TRef.of (T := ⟨S_, .f32⟩) main_call0_cst) (TRef.of (T := ⟨S16384, .f32⟩) main_call0_v0) (fun x v => Host.reduce FloatOps.maximumf x v reducesTo_S16384x16384_S16384_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S16384, .f32⟩) main_call0_v1) (broadcastInDim S16384 ![] bcast_S_S16384),
    TRef.binary (TRef.of (T := ⟨S16384, .f32⟩) main_call0_v1) (TRef.of (T := ⟨S16384, .f32⟩) main_call0_v0) (TRef.of (T := ⟨S16384, .f32⟩) main_call0_v2) maximumf,
    TRef.unary (TRef.of (T := ⟨S16384, .f32⟩) main_call0_v2) (TRef.of (T := ⟨S16384x1, .f32⟩) main_call0_v3) (broadcastInDim S16384x1 ![0] bcast_S16384_S16384x1_0),
    TRef.unary (TRef.of (T := ⟨S16384x1, .f32⟩) main_call0_v3) (TRef.of (T := ⟨S16384x16384, .f32⟩) main_call0_v4) (broadcastInDim S16384x16384 ![0, 1] bcast_S16384x1_S16384x16384_0_1),
    TRef.binary (TRef.of (T := ⟨S16384x16384, .f32⟩) main_v3) (TRef.of (T := ⟨S16384x16384, .f32⟩) main_call0_v4) (TRef.of (T := ⟨S16384x16384, .f32⟩) main_call0_v5) subf,
    TRef.unary (TRef.of (T := ⟨S16384x16384, .f32⟩) main_call0_v5) (TRef.of (T := ⟨S16384x16384, .f32⟩) main_call0_v6) Host.exp,
    TRef.nullary (TRef.of (T := ⟨S_, .f32⟩) main_call0_cst_1) (constant S_ .f32 0x00000000#32),
    TRef.binary (TRef.of (T := ⟨S16384x16384, .f32⟩) main_call0_v6) (TRef.of (T := ⟨S_, .f32⟩) main_call0_cst_1) (TRef.of (T := ⟨S16384, .f32⟩) main_call0_v7) (fun x v => Host.reduceAdd x v reducesTo_S16384x16384_S16384_d1 h_S_),
    TRef.unary (TRef.of (T := ⟨S16384, .f32⟩) main_call0_v7) (TRef.of (T := ⟨S16384x1, .f32⟩) main_call0_v8) (broadcastInDim S16384x1 ![0] bcast_S16384_S16384x1_0),
    TRef.unary (TRef.of (T := ⟨S16384x1, .f32⟩) main_call0_v8) (TRef.of (T := ⟨S16384x1, .f32⟩) main_call0_v9) Host.log,
    TRef.unary (TRef.of (T := ⟨S16384x1, .f32⟩) main_call0_v9) (TRef.of (T := ⟨S16384x16384, .f32⟩) main_call0_v10) (broadcastInDim S16384x16384 ![0, 1] bcast_S16384x1_S16384x16384_0_1),
    TRef.binary (TRef.of (T := ⟨S16384x16384, .f32⟩) main_call0_v5) (TRef.of (T := ⟨S16384x16384, .f32⟩) main_call0_v10) (TRef.of (T := ⟨S16384x16384, .f32⟩) main_v6) subf ]

/-- Operations 23 to 50 of @main, in order. -/
abbrev s3 : List (HloOp τ sig (Elt F)) :=
  [ unary main_v5 main_v7 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16384x1, .i32⟩) main_call1_v0) (broadcastInDim S16384x1 ![] bcast_S_S16384x1),
    TRef.binary (TRef.of (T := ⟨S16384x1, .i32⟩) main_v7) (TRef.of (T := ⟨S16384x1, .i32⟩) main_call1_v0) (TRef.of (T := ⟨S16384x1, .i1⟩) main_call1_v1) (cmpi .slt),
    TRef.nullary (TRef.of (T := ⟨S_, .i32⟩) main_call1_c_0) (constantI S_ 32 16384#32),
    TRef.unary (TRef.of (T := ⟨S_, .i32⟩) main_call1_c_0) (TRef.of (T := ⟨S16384x1, .i32⟩) main_call1_v2) (broadcastInDim S16384x1 ![] bcast_S_S16384x1),
    TRef.binary (TRef.of (T := ⟨S16384x1, .i32⟩) main_v7) (TRef.of (T := ⟨S16384x1, .i32⟩) main_call1_v2) (TRef.of (T := ⟨S16384x1, .i32⟩) main_call1_v3) addi,
    TRef.ternary (TRef.of (T := ⟨S16384x1, .i1⟩) main_call1_v1) (TRef.of (T := ⟨S16384x1, .i32⟩) main_call1_v3) (TRef.of (T := ⟨S16384x1, .i32⟩) main_v7) (TRef.of (T := ⟨S16384x1, .i32⟩) main_call1_v4) select,
    TRef.reshape (TRef.of (T := ⟨S16384x1, .i32⟩) main_call1_v4) (TRef.of (T := ⟨S16384x1x1, .i32⟩) main_call1_v5) rfl shapeCasts_S16384x1_S16384x1x1,
    TRef.nullary (TRef.of (T := ⟨S1, .i32⟩) main_call1_c_1) (constantI S1 32 16383#32),
    TRef.nullary (TRef.of (T := ⟨S_, .i32⟩) main_call1_c_2) (constantI S_ 32 0#32),
    TRef.unary (TRef.of (T := ⟨S_, .i32⟩) main_call1_c_2) (TRef.of (T := ⟨S16384x1x1, .i32⟩) main_call1_v6) (broadcastInDim S16384x1x1 ![] bcast_S_S16384x1x1),
    TRef.binary (TRef.of (T := ⟨S16384x1x1, .i32⟩) main_call1_v5) (TRef.of (T := ⟨S16384x1x1, .i32⟩) main_call1_v6) (TRef.of (T := ⟨S16384x1x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S16384x1x1, .i32⟩) main_call1_v9) (broadcastInDim S16384x1x1 ![0, 1, 2] bcast_S1x1x1_S16384x1x1_0_1_2),
    TRef.binary (TRef.of (T := ⟨S16384x1x1, .i32⟩) main_call1_v5) (TRef.of (T := ⟨S16384x1x1, .i32⟩) main_call1_v9) (TRef.of (T := ⟨S16384x1x1, .i1⟩) main_call1_v10) (cmpi .sle),
    TRef.binary (TRef.of (T := ⟨S16384x1x1, .i1⟩) main_call1_v7) (TRef.of (T := ⟨S16384x1x1, .i1⟩) main_call1_v10) (TRef.of (T := ⟨S16384x1x1, .i1⟩) main_call1_v11) andi,
    TRef.nullary (TRef.of (T := ⟨S_, .i1⟩) main_call1_c_3) (constantI S_ 1 1#1),
    TRef.binary (TRef.of (T := ⟨S16384x1x1, .i1⟩) main_call1_v11) (TRef.of (T := ⟨S_, .i1⟩) main_call1_c_3) (TRef.of (T := ⟨S16384x1, .i1⟩) main_call1_v12) (fun x v => Host.reduce IntOp.andi x v reducesTo_S16384x1x1_S16384x1_d2 h_S_),
    TRef.binary (TRef.of (T := ⟨S16384x16384, .f32⟩) main_v6) (TRef.of (T := ⟨S16384x1x1, .i32⟩) main_call1_v5) (TRef.of (T := ⟨S16384x1, .f32⟩) main_call1_v13) (fun x i => Host.gather gather_S16384x16384_S16384x1x1_S16384x1_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S16384x1, .f32⟩) main_call1_v14) (broadcastInDim S16384x1 ![] bcast_S_S16384x1),
    TRef.ternary (TRef.of (T := ⟨S16384x1, .i1⟩) main_call1_v12) (TRef.of (T := ⟨S16384x1, .f32⟩) main_call1_v13) (TRef.of (T := ⟨S16384x1, .f32⟩) main_call1_v14) (TRef.of (T := ⟨S16384x1, .f32⟩) main_v8) select,
    nullary main_cst_0 (constant S_ .f32 0x00000000#32),
    binary main_v8 main_cst_0 main_v9 ((fun x v => Host.reduceAdd x v reducesTo_S16384x1_S_d0_1 h_S_) : (⟨S16384x1, .f32⟩ : BufTy).Contents (Elt F) → (⟨S_, .f32⟩ : BufTy).Contents (Elt F) → (⟨S_, .f32⟩ : BufTy).Contents (Elt F)),
    nullary main_cst_1 (constant S_ .f32 0x46800000#32),
    binary main_v9 main_cst_1 main_v10 (Host.divf : (⟨S_, .f32⟩ : BufTy).Contents (Elt F) → (⟨S_, .f32⟩ : BufTy).Contents (Elt F) → (⟨S_, .f32⟩ : BufTy).Contents (Elt F)),
    unary main_v10 main_v11 (Host.negf : (⟨S_, .f32⟩ : BufTy).Contents (Elt F) → (⟨S_, .f32⟩ : BufTy).Contents (Elt F)) ]

/-- Operations 51 to 65 of @main, in order. -/
abbrev s4 : List (HloOp τ sig (Elt F)) :=
  [ TRef.nullary (TRef.of (T := ⟨S_, .f32⟩) main_call2_cst) (constant S_ .f32 0xFF800000#32),
    TRef.binary (TRef.of (T := ⟨S16384x16384, .f32⟩) main_v4) (TRef.of (T := ⟨S_, .f32⟩) main_call2_cst) (TRef.of (T := ⟨S16384, .f32⟩) main_call2_v0) (fun x v => Host.reduce FloatOps.maximumf x v reducesTo_S16384x16384_S16384_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S16384, .f32⟩) main_call2_v1) (broadcastInDim S16384 ![] bcast_S_S16384),
    TRef.binary (TRef.of (T := ⟨S16384, .f32⟩) main_call2_v1) (TRef.of (T := ⟨S16384, .f32⟩) main_call2_v0) (TRef.of (T := ⟨S16384, .f32⟩) main_call2_v2) maximumf,
    TRef.unary (TRef.of (T := ⟨S16384, .f32⟩) main_call2_v2) (TRef.of (T := ⟨S16384x1, .f32⟩) main_call2_v3) (broadcastInDim S16384x1 ![0] bcast_S16384_S16384x1_0),
    TRef.unary (TRef.of (T := ⟨S16384x1, .f32⟩) main_call2_v3) (TRef.of (T := ⟨S16384x16384, .f32⟩) main_call2_v4) (broadcastInDim S16384x16384 ![0, 1] bcast_S16384x1_S16384x16384_0_1),
    TRef.binary (TRef.of (T := ⟨S16384x16384, .f32⟩) main_v4) (TRef.of (T := ⟨S16384x16384, .f32⟩) main_call2_v4) (TRef.of (T := ⟨S16384x16384, .f32⟩) main_call2_v5) subf,
    TRef.unary (TRef.of (T := ⟨S16384x16384, .f32⟩) main_call2_v5) (TRef.of (T := ⟨S16384x16384, .f32⟩) main_call2_v6) Host.exp,
    TRef.nullary (TRef.of (T := ⟨S_, .f32⟩) main_call2_cst_1) (constant S_ .f32 0x00000000#32),
    TRef.binary (TRef.of (T := ⟨S16384x16384, .f32⟩) main_call2_v6) (TRef.of (T := ⟨S_, .f32⟩) main_call2_cst_1) (TRef.of (T := ⟨S16384, .f32⟩) main_call2_v7) (fun x v => Host.reduceAdd x v reducesTo_S16384x16384_S16384_d1 h_S_),
    TRef.unary (TRef.of (T := ⟨S16384, .f32⟩) main_call2_v7) (TRef.of (T := ⟨S16384x1, .f32⟩) main_call2_v8) (broadcastInDim S16384x1 ![0] bcast_S16384_S16384x1_0),
    TRef.unary (TRef.of (T := ⟨S16384x1, .f32⟩) main_call2_v8) (TRef.of (T := ⟨S16384x1, .f32⟩) main_call2_v9) Host.log,
    TRef.unary (TRef.of (T := ⟨S16384x1, .f32⟩) main_call2_v9) (TRef.of (T := ⟨S16384x16384, .f32⟩) main_call2_v10) (broadcastInDim S16384x16384 ![0, 1] bcast_S16384x1_S16384x16384_0_1),
    TRef.binary (TRef.of (T := ⟨S16384x16384, .f32⟩) main_call2_v5) (TRef.of (T := ⟨S16384x16384, .f32⟩) main_call2_v10) (TRef.of (T := ⟨S16384x16384, .f32⟩) main_v12) subf ]

/-- Operations 66 to 96 of @main, in order. -/
abbrev s5 : List (HloOp τ sig (Elt F)) :=
  [ unary main_v5 main_v13 (broadcastInDim S16384x1 ![0] bcast_S16384_S16384x1_0 : (⟨S16384, .i32⟩ : BufTy).Contents (Elt F) → (⟨S16384x1, .i32⟩ : BufTy).Contents (Elt F)),
    TRef.nullary (TRef.of (T := ⟨S_, .i32⟩) main_call3_c) (constantI S_ 32 0#32),
    TRef.unary (TRef.of (T := ⟨S_, .i32⟩) main_call3_c) (TRef.of (T := ⟨S16384x1, .i32⟩) main_call3_v0) (broadcastInDim S16384x1 ![] bcast_S_S16384x1),
    TRef.binary (TRef.of (T := ⟨S16384x1, .i32⟩) main_v13) (TRef.of (T := ⟨S16384x1, .i32⟩) main_call3_v0) (TRef.of (T := ⟨S16384x1, .i1⟩) main_call3_v1) (cmpi .slt),
    TRef.nullary (TRef.of (T := ⟨S_, .i32⟩) main_call3_c_0) (constantI S_ 32 16384#32),
    TRef.unary (TRef.of (T := ⟨S_, .i32⟩) main_call3_c_0) (TRef.of (T := ⟨S16384x1, .i32⟩) main_call3_v2) (broadcastInDim S16384x1 ![] bcast_S_S16384x1),
    TRef.binary (TRef.of (T := ⟨S16384x1, .i32⟩) main_v13) (TRef.of (T := ⟨S16384x1, .i32⟩) main_call3_v2) (TRef.of (T := ⟨S16384x1, .i32⟩) main_call3_v3) addi,
    TRef.ternary (TRef.of (T := ⟨S16384x1, .i1⟩) main_call3_v1) (TRef.of (T := ⟨S16384x1, .i32⟩) main_call3_v3) (TRef.of (T := ⟨S16384x1, .i32⟩) main_v13) (TRef.of (T := ⟨S16384x1, .i32⟩) main_call3_v4) select,
    TRef.reshape (TRef.of (T := ⟨S16384x1, .i32⟩) main_call3_v4) (TRef.of (T := ⟨S16384x1x1, .i32⟩) main_call3_v5) rfl shapeCasts_S16384x1_S16384x1x1,
    TRef.nullary (TRef.of (T := ⟨S1, .i32⟩) main_call3_c_1) (constantI S1 32 16383#32),
    TRef.nullary (TRef.of (T := ⟨S_, .i32⟩) main_call3_c_2) (constantI S_ 32 0#32),
    TRef.unary (TRef.of (T := ⟨S_, .i32⟩) main_call3_c_2) (TRef.of (T := ⟨S16384x1x1, .i32⟩) main_call3_v6) (broadcastInDim S16384x1x1 ![] bcast_S_S16384x1x1),
    TRef.binary (TRef.of (T := ⟨S16384x1x1, .i32⟩) main_call3_v5) (TRef.of (T := ⟨S16384x1x1, .i32⟩) main_call3_v6) (TRef.of (T := ⟨S16384x1x1, .i1⟩) main_call3_v7) (cmpi .sge),
    TRef.unary (TRef.of (T := ⟨S1, .i32⟩) main_call3_c_1) (TRef.of (T := ⟨S1x1x1, .i32⟩) main_call3_v8) (broadcastInDim S1x1x1 ![2] bcast_S1_S1x1x1_2),
    TRef.unary (TRef.of (T := ⟨S1x1x1, .i32⟩) main_call3_v8) (TRef.of (T := ⟨S16384x1x1, .i32⟩) main_call3_v9) (broadcastInDim S16384x1x1 ![0, 1, 2] bcast_S1x1x1_S16384x1x1_0_1_2),
    TRef.binary (TRef.of (T := ⟨S16384x1x1, .i32⟩) main_call3_v5) (TRef.of (T := ⟨S16384x1x1, .i32⟩) main_call3_v9) (TRef.of (T := ⟨S16384x1x1, .i1⟩) main_call3_v10) (cmpi .sle),
    TRef.binary (TRef.of (T := ⟨S16384x1x1, .i1⟩) main_call3_v7) (TRef.of (T := ⟨S16384x1x1, .i1⟩) main_call3_v10) (TRef.of (T := ⟨S16384x1x1, .i1⟩) main_call3_v11) andi,
    TRef.nullary (TRef.of (T := ⟨S_, .i1⟩) main_call3_c_3) (constantI S_ 1 1#1),
    TRef.binary (TRef.of (T := ⟨S16384x1x1, .i1⟩) main_call3_v11) (TRef.of (T := ⟨S_, .i1⟩) main_call3_c_3) (TRef.of (T := ⟨S16384x1, .i1⟩) main_call3_v12) (fun x v => Host.reduce IntOp.andi x v reducesTo_S16384x1x1_S16384x1_d2 h_S_),
    TRef.binary (TRef.of (T := ⟨S16384x16384, .f32⟩) main_v12) (TRef.of (T := ⟨S16384x1x1, .i32⟩) main_call3_v5) (TRef.of (T := ⟨S16384x1, .f32⟩) main_call3_v13) (fun x i => Host.gather gather_S16384x16384_S16384x1x1_S16384x1_n_1_0_0_1_2_11 x i),
    TRef.nullary (TRef.of (T := ⟨S_, .f32⟩) main_call3_cst) (constant S_ .f32 0x7FC00000#32),
    TRef.unary (TRef.of (T := ⟨S_, .f32⟩) main_call3_cst) (TRef.of (T := ⟨S16384x1, .f32⟩) main_call3_v14) (broadcastInDim S16384x1 ![] bcast_S_S16384x1),
    TRef.ternary (TRef.of (T := ⟨S16384x1, .i1⟩) main_call3_v12) (TRef.of (T := ⟨S16384x1, .f32⟩) main_call3_v13) (TRef.of (T := ⟨S16384x1, .f32⟩) main_call3_v14) (TRef.of (T := ⟨S16384x1, .f32⟩) main_v14) select,
    nullary main_cst_2 (constant S_ .f32 0x00000000#32),
    binary main_v14 main_cst_2 main_v15 ((fun x v => Host.reduceAdd x v reducesTo_S16384x1_S_d0_1 h_S_) : (⟨S16384x1, .f32⟩ : BufTy).Contents (Elt F) → (⟨S_, .f32⟩ : BufTy).Contents (Elt F) → (⟨S_, .f32⟩ : BufTy).Contents (Elt F)),
    nullary main_cst_3 (constant S_ .f32 0x46800000#32),
    binary main_v15 main_cst_3 main_v16 (Host.divf : (⟨S_, .f32⟩ : BufTy).Contents (Elt F) → (⟨S_, .f32⟩ : BufTy).Contents (Elt F) → (⟨S_, .f32⟩ : BufTy).Contents (Elt F)),
    unary main_v16 main_v17 (Host.negf : (⟨S_, .f32⟩ : BufTy).Contents (Elt F) → (⟨S_, .f32⟩ : BufTy).Contents (Elt F)),
    binary main_v11 main_v17 main_v18 (addf : (⟨S_, .f32⟩ : BufTy).Contents (Elt F) → (⟨S_, .f32⟩ : BufTy).Contents (Elt F) → (⟨S_, .f32⟩ : BufTy).Contents (Elt F)),
    nullary main_cst_4 (constant S_ .f32 0x40000000#32),
    binary main_v18 main_cst_4 main_v19 (Host.divf : (⟨S_, .f32⟩ : BufTy).Contents (Elt F) → (⟨S_, .f32⟩ : BufTy).Contents (Elt F) → (⟨S_, .f32⟩ : BufTy).Contents (Elt F)) ]

set_option maxRecDepth 8192 in
/-- @main's operations are the five stretches in order. -/
theorem ops_split : (ops : List (HloOp τ sig (Elt F))) = s1 ++ (s2 ++ (s3 ++ (s4 ++ s5))) := rfl

/-! ## What each stretch leaves in the buffers later stretches read, from any contents `W` -/

theorem s1_v3 (W : Valuation τ sig (Elt F)) :
    after (s1 (F := F)) W (Proc.devRef .tc main_v3) = (mulf (broadcastInDim S16384x16384 ![] bcast_S_S16384x16384 (constant S_ .f32 0x41649249#32)) (Host.dotGeneral dot_S16384x512_S512x16384_S16384x16384_1_0_0_1_n_n none (W (Proc.devRef .tc main_arg0)) (transpose S512x16384 [1, 0] (W (Proc.devRef .tc main_arg1)) transposes_S16384x512_S512x16384_1_0))) := by
  simp (disch := decide) only [after_cons, after_nil,
      nullary_result', unary_result', binary_result', ternary_result', reshape_result',
      nullary_result_ne', unary_result_ne', binary_result_ne', ternary_result_ne', reshape_result_ne', ofBuf_toBuf]

theorem s1_v4 (W : Valuation τ sig (Elt F)) :
    after (s1 (F := F)) W (Proc.devRef .tc main_v4) = (transpose S16384x16384 [1, 0] (mulf (broadcastInDim S16384x16384 ![] bcast_S_S16384x16384 (constant S_ .f32 0x41649249#32)) (Host.dotGeneral dot_S16384x512_S512x16384_S16384x16384_1_0_0_1_n_n none (W (Proc.devRef .tc main_arg0)) (transpose S512x16384 [1, 0] (W (Proc.devRef .tc main_arg1)) transposes_S16384x512_S512x16384_1_0))) transposes_S16384x16384_S16384x16384_1_0) := by
  simp (disch := decide) only [after_cons, after_nil,
      nullary_result', unary_result', binary_result', ternary_result', reshape_result',
      nullary_result_ne', unary_result_ne', binary_result_ne', ternary_result_ne', reshape_result_ne', ofBuf_toBuf]

theorem s1_v5 (W : Valuation τ sig (Elt F)) :
    after (s1 (F := F)) W (Proc.devRef .tc main_v5) = (iotaInDim S16384 32 0) := by
  simp (disch := decide) only [after_cons, after_nil,
      nullary_result', unary_result', binary_result', ternary_result', reshape_result',
      nullary_result_ne', unary_result_ne', binary_result_ne', ternary_result_ne', reshape_result_ne', ofBuf_toBuf]

/-- The first log-softmax: of the contents of `main_v3`, row by row. -/
theorem s2_v6 (W : Valuation τ sig (Elt F)) :
    after (s2 (F := F)) W (Proc.devRef .tc main_v6) = (subf (subf (W (Proc.devRef .tc main_v3)) (broadcastInDim S16384x16384 ![0, 1] bcast_S16384x1_S16384x16384_0_1 (broadcastInDim S16384x1 ![0] bcast_S16384_S16384x1_0 (maximumf (broadcastInDim S16384 ![] bcast_S_S16384 (constant S_ .f32 0xFF800000#32)) (Host.reduce FloatOps.maximumf (W (Proc.devRef .tc main_v3)) (constant S_ .f32 0xFF800000#32) reducesTo_S16384x16384_S16384_d1 h_S_))))) (broadcastInDim S16384x16384 ![0, 1] bcast_S16384x1_S16384x16384_0_1 (Host.log (broadcastInDim S16384x1 ![0] bcast_S16384_S16384x1_0 (Host.reduceAdd (Host.exp (subf (W (Proc.devRef .tc main_v3)) (broadcastInDim S16384x16384 ![0, 1] bcast_S16384x1_S16384x16384_0_1 (broadcastInDim S16384x1 ![0] bcast_S16384_S16384x1_0 (maximumf (broadcastInDim S16384 ![] bcast_S_S16384 (constant S_ .f32 0xFF800000#32)) (Host.reduce FloatOps.maximumf (W (Proc.devRef .tc main_v3)) (constant S_ .f32 0xFF800000#32) reducesTo_S16384x16384_S16384_d1 h_S_)))))) (constant S_ .f32 0x00000000#32) reducesTo_S16384x16384_S16384_d1 h_S_))))) := by
  simp (disch := decide) only [after_cons, after_nil,
      nullary_result', unary_result', binary_result', ternary_result', reshape_result',
      nullary_result_ne', unary_result_ne', binary_result_ne', ternary_result_ne', reshape_result_ne', ofBuf_toBuf]
  simp only [ofBuf_main_v3, toBuf_main_v6]

theorem s2_v4 (W : Valuation τ sig (Elt F)) :
    after (s2 (F := F)) W (Proc.devRef .tc main_v4) = W (Proc.devRef .tc main_v4) := by
  simp (disch := decide) only [after_cons, after_nil,
      nullary_result', unary_result', binary_result', ternary_result', reshape_result',
      nullary_result_ne', unary_result_ne', binary_result_ne', ternary_result_ne', reshape_result_ne', ofBuf_toBuf]

theorem s2_v5 (W : Valuation τ sig (Elt F)) :
    after (s2 (F := F)) W (Proc.devRef .tc main_v5) = W (Proc.devRef .tc main_v5) := by
  simp (disch := decide) only [after_cons, after_nil,
      nullary_result', unary_result', binary_result', ternary_result', reshape_result',
      nullary_result_ne', unary_result_ne', binary_result_ne', ternary_result_ne', reshape_result_ne', ofBuf_toBuf]

/-- The first gather and its mean: the entries of `main_v6` at the (wrapped, bounds-checked) indices of `main_v5`, summed,
    divided and negated. -/
theorem s3_v11 (W : Valuation τ sig (Elt F)) :
    after (s3 (F := F)) W (Proc.devRef .tc main_v11) = (Host.negf (Host.divf (Host.reduceAdd (select (Host.reduce IntOp.andi (andi (cmpi .sge (shapeCast _ (select (cmpi .slt (broadcastInDim S16384x1 ![0] bcast_S16384_S16384x1_0 (W (Proc.devRef .tc main_v5))) (broadcastInDim S16384x1 ![] bcast_S_S16384x1 (constantI S_ 32 0#32))) (addi (broadcastInDim S16384x1 ![0] bcast_S16384_S16384x1_0 (W (Proc.devRef .tc main_v5))) (broadcastInDim S16384x1 ![] bcast_S_S16384x1 (constantI S_ 32 16384#32))) (broadcastInDim S16384x1 ![0] bcast_S16384_S16384x1_0 (W (Proc.devRef .tc main_v5)))) shapeCasts_S16384x1_S16384x1x1) (broadcastInDim S16384x1x1 ![] bcast_S_S16384x1x1 (constantI S_ 32 0#32))) (cmpi .sle (shapeCast _ (select (cmpi .slt (broadcastInDim S16384x1 ![0] bcast_S16384_S16384x1_0 (W (Proc.devRef .tc main_v5))) (broadcastInDim S16384x1 ![] bcast_S_S16384x1 (constantI S_ 32 0#32))) (addi (broadcastInDim S16384x1 ![0] bcast_S16384_S16384x1_0 (W (Proc.devRef .tc main_v5))) (broadcastInDim S16384x1 ![] bcast_S_S16384x1 (constantI S_ 32 16384#32))) (broadcastInDim S16384x1 ![0] bcast_S16384_S16384x1_0 (W (Proc.devRef .tc main_v5)))) shapeCasts_S16384x1_S16384x1x1) (broadcastInDim S16384x1x1 ![0, 1, 2] bcast_S1x1x1_S16384x1x1_0_1_2 (broadcastInDim S1x1x1 ![2] bcast_S1_S1x1x1_2 (constantI S1 32 16383#32))))) (constantI S_ 1 1#1) reducesTo_S16384x1x1_S16384x1_d2 h_S_) (Host.gather gather_S16384x16384_S16384x1x1_S16384x1_n_1_0_0_1_2_11 (W (Proc.devRef .tc main_v6)) (shapeCast _ (select (cmpi .slt (broadcastInDim S16384x1 ![0] bcast_S16384_S16384x1_0 (W (Proc.devRef .tc main_v5))) (broadcastInDim S16384x1 ![] bcast_S_S16384x1 (constantI S_ 32 0#32))) (addi (broadcastInDim S16384x1 ![0] bcast_S16384_S16384x1_0 (W (Proc.devRef .tc main_v5))) (broadcastInDim S16384x1 ![] bcast_S_S16384x1 (constantI S_ 32 16384#32))) (broadcastInDim S16384x1 ![0] bcast_S16384_S16384x1_0 (W (Proc.devRef .tc main_v5)))) shapeCasts_S16384x1_S16384x1x1)) (broadcastInDim S16384x1 ![] bcast_S_S16384x1 (constant S_ .f32 0x7FC00000#32))) (constant S_ .f32 0x00000000#32) reducesTo_S16384x1_S_d0_1 h_S_) (constant S_ .f32 0x46800000#32))) := by
  simp (disch := decide) only [after_cons, after_nil,
      nullary_result', unary_result', binary_result', ternary_result', reshape_result',
      nullary_result_ne', unary_result_ne', binary_result_ne', ternary_result_ne', reshape_result_ne', ofBuf_toBuf]
  simp only [ofBuf_main_v6, ofBuf_main_v7, toBuf_main_call1_v4, ofBuf_main_call1_v5, toBuf_main_v8]
  rfl

theorem s3_v4 (W : Valuation τ sig (Elt F)) :
    after (s3 (F := F)) W (Proc.devRef .tc main_v4) = W (Proc.devRef .tc main_v4) := by
  simp (disch := decide) only [after_cons, after_nil,
      nullary_result', unary_result', binary_result', ternary_result', reshape_result',
      nullary_result_ne', unary_result_ne', binary_result_ne', ternary_result_ne', reshape_result_ne', ofBuf_toBuf]

theorem s3_v5 (W : Valuation τ sig (Elt F)) :
    after (s3 (F := F)) W (Proc.devRef .tc main_v5) = W (Proc.devRef .tc main_v5) := by
  simp (disch := decide) only [after_cons, after_nil,
      nullary_result', unary_result', binary_result', ternary_result', reshape_result',
      nullary_result_ne', unary_result_ne', binary_result_ne', ternary_result_ne', reshape_result_ne', ofBuf_toBuf]

/-- The second log-softmax: of the contents of `main_v4`. -/
theorem s4_v12 (W : Valuation τ sig (Elt F)) :
    after (s4 (F := F)) W (Proc.devRef .tc main_v12) = (subf (subf (W (Proc.devRef .tc main_v4)) (broadcastInDim S16384x16384 ![0, 1] bcast_S16384x1_S16384x16384_0_1 (broadcastInDim S16384x1 ![0] bcast_S16384_S16384x1_0 (maximumf (broadcastInDim S16384 ![] bcast_S_S16384 (constant S_ .f32 0xFF800000#32)) (Host.reduce FloatOps.maximumf (W (Proc.devRef .tc main_v4)) (constant S_ .f32 0xFF800000#32) reducesTo_S16384x16384_S16384_d1 h_S_))))) (broadcastInDim S16384x16384 ![0, 1] bcast_S16384x1_S16384x16384_0_1 (Host.log (broadcastInDim S16384x1 ![0] bcast_S16384_S16384x1_0 (Host.reduceAdd (Host.exp (subf (W (Proc.devRef .tc main_v4)) (broadcastInDim S16384x16384 ![0, 1] bcast_S16384x1_S16384x16384_0_1 (broadcastInDim S16384x1 ![0] bcast_S16384_S16384x1_0 (maximumf (broadcastInDim S16384 ![] bcast_S_S16384 (constant S_ .f32 0xFF800000#32)) (Host.reduce FloatOps.maximumf (W (Proc.devRef .tc main_v4)) (constant S_ .f32 0xFF800000#32) reducesTo_S16384x16384_S16384_d1 h_S_)))))) (constant S_ .f32 0x00000000#32) reducesTo_S16384x16384_S16384_d1 h_S_))))) := by
  simp (disch := decide) only [after_cons, after_nil,
      nullary_result', unary_result', binary_result', ternary_result', reshape_result',
      nullary_result_ne', unary_result_ne', binary_result_ne', ternary_result_ne', reshape_result_ne', ofBuf_toBuf]
  simp only [ofBuf_main_v4, toBuf_main_v12]

theorem s4_v5 (W : Valuation τ sig (Elt F)) :
    after (s4 (F := F)) W (Proc.devRef .tc main_v5) = W (Proc.devRef .tc main_v5) := by
  simp (disch := decide) only [after_cons, after_nil,
      nullary_result', unary_result', binary_result', ternary_result', reshape_result',
      nullary_result_ne', unary_result_ne', binary_result_ne', ternary_result_ne', reshape_result_ne', ofBuf_toBuf]

theorem s4_v11 (W : Valuation τ sig (Elt F)) :
    after (s4 (F := F)) W (Proc.devRef .tc main_v11) = W (Proc.devRef .tc main_v11) := by
  simp (disch := decide) only [after_cons, after_nil,
      nullary_result', unary_result', binary_result', ternary_result', reshape_result',
      nullary_result_ne', unary_result_ne', binary_result_ne', ternary_result_ne', reshape_result_ne', ofBuf_toBuf]

/-- The second gather and its mean, added to the first mean (`main_v11`) and halved. -/
theorem s5_v19 (W : Valuation τ sig (Elt F)) :
    after (s5 (F := F)) W (Proc.devRef .tc main_v19)
      = Host.divf (addf (W (Proc.devRef .tc main_v11)) (Host.negf (Host.divf (Host.reduceAdd (select (Host.reduce IntOp.andi (andi (cmpi .sge (shapeCast _ (select (cmpi .slt (broadcastInDim S16384x1 ![0] bcast_S16384_S16384x1_0 (W (Proc.devRef .tc main_v5))) (broadcastInDim S16384x1 ![] bcast_S_S16384x1 (constantI S_ 32 0#32))) (addi (broadcastInDim S16384x1 ![0] bcast_S16384_S16384x1_0 (W (Proc.devRef .tc main_v5))) (broadcastInDim S16384x1 ![] bcast_S_S16384x1 (constantI S_ 32 16384#32))) (broadcastInDim S16384x1 ![0] bcast_S16384_S16384x1_0 (W (Proc.devRef .tc main_v5)))) shapeCasts_S16384x1_S16384x1x1) (broadcastInDim S16384x1x1 ![] bcast_S_S16384x1x1 (constantI S_ 32 0#32))) (cmpi .sle (shapeCast _ (select (cmpi .slt (broadcastInDim S16384x1 ![0] bcast_S16384_S16384x1_0 (W (Proc.devRef .tc main_v5))) (broadcastInDim S16384x1 ![] bcast_S_S16384x1 (constantI S_ 32 0#32))) (addi (broadcastInDim S16384x1 ![0] bcast_S16384_S16384x1_0 (W (Proc.devRef .tc main_v5))) (broadcastInDim S16384x1 ![] bcast_S_S16384x1 (constantI S_ 32 16384#32))) (broadcastInDim S16384x1 ![0] bcast_S16384_S16384x1_0 (W (Proc.devRef .tc main_v5)))) shapeCasts_S16384x1_S16384x1x1) (broadcastInDim S16384x1x1 ![0, 1, 2] bcast_S1x1x1_S16384x1x1_0_1_2 (broadcastInDim S1x1x1 ![2] bcast_S1_S1x1x1_2 (constantI S1 32 16383#32))))) (constantI S_ 1 1#1) reducesTo_S16384x1x1_S16384x1_d2 h_S_) (Host.gather gather_S16384x16384_S16384x1x1_S16384x1_n_1_0_0_1_2_11 (W (Proc.devRef .tc main_v12)) (shapeCast _ (select (cmpi .slt (broadcastInDim S16384x1 ![0] bcast_S16384_S16384x1_0 (W (Proc.devRef .tc main_v5))) (broadcastInDim S16384x1 ![] bcast_S_S16384x1 (constantI S_ 32 0#32))) (addi (broadcastInDim S16384x1 ![0] bcast_S16384_S16384x1_0 (W (Proc.devRef .tc main_v5))) (broadcastInDim S16384x1 ![] bcast_S_S16384x1 (constantI S_ 32 16384#32))) (broadcastInDim S16384x1 ![0] bcast_S16384_S16384x1_0 (W (Proc.devRef .tc main_v5)))) shapeCasts_S16384x1_S16384x1x1)) (broadcastInDim S16384x1 ![] bcast_S_S16384x1 (constant S_ .f32 0x7FC00000#32))) (constant S_ .f32 0x00000000#32) reducesTo_S16384x1_S_d0_1 h_S_) (constant S_ .f32 0x46800000#32)))) (constant S_ .f32 0x40000000#32) := by
  simp (disch := decide) only [after_cons, after_nil,
      nullary_result', unary_result', binary_result', ternary_result', reshape_result',
      nullary_result_ne', unary_result_ne', binary_result_ne', ternary_result_ne', reshape_result_ne', ofBuf_toBuf]
  simp only [ofBuf_main_v12, ofBuf_main_v13, toBuf_main_call3_v4, ofBuf_main_call3_v5, toBuf_main_v14]
  rfl

/-! ## The whole line -/

set_option maxRecDepth 8192 in
/-- The result buffer after all of @main, from the launch contents: the composed term. -/
theorem ops_v19 (m : (ℓ : Loc nD τ sig) → Buf (Elt F) ℓ) (c : Dev nD) :
    after (ops (F := F)) (launchContents m c) (Proc.devRef .tc main_v19) = res_main_v19 m c := by
  rw [ops_split, after_append, after_append, after_append, after_append]
  rw [s5_v19, s4_v11, s4_v5, s4_v12, s3_v11, s3_v5, s3_v4, s2_v6, s2_v5, s2_v4, s1_v3, s1_v4, s1_v5]
  unfold res_main_v19
  rfl

/-- No operation of @main writes an argument buffer. -/
theorem ops_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl
@[inherit_doc ops_arg0]
theorem ops_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

/-- The reference's run (`run_seq` at @main's operations): in every final state of @main from memory `m` with zero counters, on
    every core the result buffer `main_v19` holds the composed term `res_main_v19 m c` of the arguments, and the two argument
    buffers hold what they were launched with. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = res_main_v19 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v19).trans (ops_v19 m c),
      (h c main_arg0).trans (ops_arg0 m c), (h c main_arg1).trans (ops_arg1 m c)⟩)
    (run_seq scopedRefs_eq scopedSems_eq defs main (fun _ => ops) main_eq (fun _ => ops_sub) m ρ)

end Cert.RefSide

end
-- ==== Proof.RefRead1.lean ====
/-
  Three operations of the reference read at an index, for any operand: a row's greatest entry (a reduction by maximum
  over the second axis), a reduction by `and` over an axis of one element, and the gather that reads one entry per row;
  with them the facts about 32-bit words below 16384 that the gather's index arithmetic uses.
-/
import proofs.«116465_j25151328485434_2_alg».proof.Proof.RefReadP
import Idealize.ShloMosaic.Lib.IdealHost

noncomputable section

namespace Cert.RefSide

open Cert.ReferenceIdeal Cert.ReferenceIdeal.Gen Idealize.ShloMosaic Idealize.ShloMosaic.ValueIdx

/-! ## Words below 16384 -/

/-- A natural number below 16384, written as a 32-bit word and read signed, is itself. -/
theorem toInt_ofNat_small (i : Fin 16384) : (BitVec.ofNat 32 i.val).toInt = (i.val : Int) := by
  have hi := i.isLt
  have h1 : (BitVec.ofNat 32 i.val).toNat = i.val := by rw [BitVec.toNat_ofNat]; omega
  rw [BitVec.toInt_eq_toNat_of_lt (by rw [h1]; omega), h1]

/-- Such a word is not negative … -/
theorem slt_zero_small (i : Fin 16384) : IntOp.cmpi .slt (BitVec.ofNat 32 i.val) 0#32 = 0#1 := by
  refine eq_zero_of_ne_one fun h => ?_
  have := IntOp.cmpi_slt.mp h
  rw [toInt_ofNat_small] at this
  have h0 : (0#32 : BitVec 32).toInt = 0 := by decide
  omega

/-- … it is at least zero … -/
theorem sge_zero_small (i : Fin 16384) : IntOp.cmpi .sge (BitVec.ofNat 32 i.val) 0#32 = 1#1 := by
  refine IntOp.cmpi_sge.mpr ?_
  rw [toInt_ofNat_small]
  have h0 : (0#32 : BitVec 32).toInt = 0 := by decide
  omega

/-- … and at most 16383. -/
theorem sle_max_small (i : Fin 16384) : IntOp.cmpi .sle (BitVec.ofNat 32 i.val) 16383#32 = 1#1 := by
  refine IntOp.cmpi_sle.mpr ?_
  rw [toInt_ofNat_small]
  have h0 : (16383#32 : BitVec 32).toInt = 16383 := by decide
  have hi := i.isLt
  omega

/-- Read signed, made a natural number and clamped to the last column, it is itself. -/
theorem clamp_small (i : Fin 16384) : min (BitVec.ofNat 32 i.val).toInt.toNat (16384 - 1) = i.val := by
  rw [toInt_ofNat_small]
  have hi := i.isLt
  omega

/-! ## A row's greatest entry -/

/-- The index over row `i` with `k` put back on the reduced (second) axis is `(i, k)`. -/
theorem lift_row (h : S16384x16384.Reduces [1] S16384) (i : Fin 16384) (k : Fin (S16384x16384.size 1)) :
    h.lift (ix1 i) k = ix2 i (⟨k.val, k.isLt⟩ : Fin 16384) := by
  funext c; apply Fin.ext
  match c with
  | ⟨0, _⟩ => rfl
  | ⟨1, _⟩ => rfl

/-- The reduction by maximum over the second axis, at row `i`: the fold of `max` over the row's entries from the initial
    value's element. -/
theorem rowMax_apply (A : (⟨S16384x16384, .f32⟩ : BufTy).Contents (Elt Ideal)) (c : (⟨S_, .f32⟩ : BufTy).Contents (Elt Ideal))
    (h' : S16384x16384.ReducesTo [1] S16384) (hu : 0 < S_.numel) (i : Fin 16384) :
    Host.reduce (FloatOps.maximumf (F := Ideal) (φ := .f32)) A c h' hu (ix1 i)
      = Finset.univ.fold max (c (Shape.Idx.first hu)) (fun j : Fin 16384 => A (ix2 i j)) := by
  have h : S16384x16384.Reduces [1] S16384 := by decide
  rw [Host.reduce_eq_fold_single (FloatOps.maximumf (F := Ideal) (φ := .f32)) A c h' h hu]
  have hf : (A ∘ h.lift (ix1 i)) = fun k : Fin 16384 => A (ix2 i k) := funext fun k => congrArg A (lift_row h i k)
  exact congrArg (fun f => Finset.fold max (c (Shape.Idx.first hu)) f (Finset.univ : Finset (Fin 16384))) hf

/-- From `⊥` the fold of `max` is the supremum. -/
theorem fold_max_bot {n : Nat} (f : Fin n → EReal) : Finset.univ.fold max ⊥ f = Finset.univ.sup f := rfl

/-! ## A reduction by `and` over an axis of one element -/

/-- The index over `(i, 0)` with `k` put back on the reduced (third) axis is `(i, 0, 0)`. -/
theorem lift_unit (h : S16384x1x1.Reduces [2] S16384x1) (i : Fin 16384) (k : Fin (S16384x1x1.size 2)) :
    h.lift (ix2 i (0 : Fin 1)) k = ix3 i (0 : Fin 1) (0 : Fin 1) := by
  funext c; apply Fin.ext
  have hk : k.val = 0 := by have := k.isLt; change k.val < 1 at this; omega
  match c with
  | ⟨0, _⟩ => rfl
  | ⟨1, _⟩ => rfl
  | ⟨2, _⟩ => exact hk

/-- The reduction by `and` over the third axis (one element), at `(i, 0)`: that element and the initial value's. -/
theorem andUnit_apply (m : (⟨S16384x1x1, .i1⟩ : BufTy).Contents (Elt Ideal)) (c : (⟨S_, .i1⟩ : BufTy).Contents (Elt Ideal))
    (h' : S16384x1x1.ReducesTo [2] S16384x1) (hu : 0 < S_.numel) (i : Fin 16384) :
    Host.reduce IntOp.andi m c h' hu (ix2 i (0 : Fin 1))
      = IntOp.andi (m (ix3 i (0 : Fin 1) (0 : Fin 1))) (c (Shape.Idx.first hu)) := by
  have h : S16384x1x1.Reduces [2] S16384x1 := by decide
  rw [Host.reduce_eq_fold_single IntOp.andi m c h' h hu]
  have hf : (m ∘ h.lift (ix2 i (0 : Fin 1))) = fun _ : Fin 1 => m (ix3 i (0 : Fin 1) (0 : Fin 1)) :=
    funext fun k => congrArg m (lift_unit h i k)
  refine (congrArg (fun f => Finset.fold IntOp.andi (c (Shape.Idx.first hu)) f (Finset.univ : Finset (Fin 1))) hf).trans ?_
  rw [Finset.univ_unique, Finset.fold_singleton]

/-! ## The gather of one entry per row -/

/-- The gather whose batching axis is the row and whose one start-index component names the column, at `(i, 0)`: the
    operand at row `i` and the column the start index `(i, 0, 0)` holds, read signed and clamped to the last column. -/
theorem gatherRow_apply (A : (⟨S16384x16384, .f32⟩ : BufTy).Contents (Elt Ideal))
    (idx : (⟨S16384x1x1, .i32⟩ : BufTy).Contents (Elt Ideal)) (i : Fin 16384) :
    Host.gather gather_S16384x16384_S16384x1x1_S16384x1_n_1_0_0_1_2_11 A idx (ix2 i (0 : Fin 1))
      = A (ix2 i (⟨min (idx (ix3 i (0 : Fin 1) (0 : Fin 1))).toInt.toNat (16384 - 1), by omega⟩ : Fin 16384)) := by
  unfold Host.gather
  congr 1
  funext a
  refine Fin.ext ?_
  match a with
  | ⟨0, _⟩ =>
    show gather_S16384x16384_S16384x1x1_S16384x1_n_1_0_0_1_2_11.start (ix2 i (0 : Fin 1)) idx 0
      + gather_S16384x16384_S16384x1x1_S16384x1_n_1_0_0_1_2_11.batchCoord (ix2 i (0 : Fin 1)) 0
      + gather_S16384x16384_S16384x1x1_S16384x1_n_1_0_0_1_2_11.offCoord (ix2 i (0 : Fin 1)) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show gather_S16384x16384_S16384x1x1_S16384x1_n_1_0_0_1_2_11.start (ix2 i (0 : Fin 1)) idx 1
      + gather_S16384x16384_S16384x1x1_S16384x1_n_1_0_0_1_2_11.batchCoord (ix2 i (0 : Fin 1)) 1
      + gather_S16384x16384_S16384x1x1_S16384x1_n_1_0_0_1_2_11.offCoord (ix2 i (0 : Fin 1)) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin S16384x16384.rank) ∈ gather_S16384x16384_S16384x1x1_S16384x1_n_1_0_0_1_2_11.startIndexMap from
      List.mem_singleton.mpr rfl)]
    have hsi : gather_S16384x16384_S16384x1x1_S16384x1_n_1_0_0_1_2_11.siIdx (ix2 i (0 : Fin 1))
        ⟨List.idxOf (1 : Fin S16384x16384.rank) gather_S16384x16384_S16384x1x1_S16384x1_n_1_0_0_1_2_11.startIndexMap,
          List.idxOf_lt_length_iff.2 (List.mem_singleton.mpr rfl)⟩ = ix3 i (0 : Fin 1) (0 : Fin 1) := by
      funext b; refine Fin.ext ?_
      match b with
      | ⟨0, _⟩ => rfl
      | ⟨1, _⟩ => rfl
      | ⟨2, _⟩ => rfl
    rw [hsi]
    rfl

end Cert.RefSide

end
-- ==== Proof.RefRead2.lean ====
/-
  The score matrix of the reference and its transpose, read at an entry: the scale times the inner product of a row of
  the first argument with a row of the second.
-/
import proofs.«116465_j25151328485434_2_alg».proof.Proof.RefRead1
import proofs.«116465_j25151328485434_2_alg».proof.Proof.Spec

noncomputable section

namespace Cert.RefSide

open Cert.ReferenceIdeal Cert.ReferenceIdeal.Gen Idealize.ShloMosaic Idealize.ShloMosaic.ValueIdx

/-- The score of the pair `(i, j)`: the scale times the inner product of row `i` of the first argument with row `j` of
    the second (the transposition of the second argument and the contraction read together). -/
theorem logits_apply (x0 x1 : (⟨S16384x512, .f32⟩ : BufTy).Contents (Elt Ideal)) (i j : Fin 16384) :
    ReadP.val_main_v3 (F := Ideal) x0 x1 (ix2 i j)
      = Ideal.ofBits .f32 0x41649249#32
        * Cert.ClipSpec.dotp (fun (i : Fin 16384) (k : Fin 512) => x0 (ix2 i k)) (fun (i : Fin 16384) (k : Fin 512) => x1 (ix2 i k)) i j := by
  have el : ∀ k : Fin 512, ReadP.lidx_main_v1 (ix2 i j) k = ix2 i k := fun k =>
    funext fun a => Fin.ext (by match a with | ⟨0, _⟩ => rfl | ⟨1, _⟩ => rfl)
  have er : ∀ k : Fin 512, ReadP.idx_main_v0 (ReadP.ridx_main_v1 (ix2 i j) k) = ix2 j k := fun k =>
    funext fun a => Fin.ext (by match a with | ⟨0, _⟩ => rfl | ⟨1, _⟩ => rfl)
  rw [ReadP.val_main_v3_apply, ReadP.val_main_v2_apply, ReadP.val_main_cst_apply, ReadP.val_main_v1_apply]
  simp only [ReadP.val_main_v0_apply, el, er, Ideal.mulf_def, Ideal.ofBits_def]
  rfl

/-- The transposed score matrix at `(i, j)` is the score matrix at `(j, i)`. -/
theorem logitsT_apply (x0 x1 : (⟨S16384x512, .f32⟩ : BufTy).Contents (Elt Ideal)) (i j : Fin 16384) :
    ReadP.val_main_v4 (F := Ideal) x0 x1 (ix2 i j) = ReadP.val_main_v3 (F := Ideal) x0 x1 (ix2 j i) := by
  rw [ReadP.val_main_v4_apply]
  exact congrArg _ (funext fun a => Fin.ext (by match a with | ⟨0, _⟩ => rfl | ⟨1, _⟩ => rfl))

end Cert.RefSide

end
-- ==== Proof.RefRead3.lean ====
/-
  The first cross entropy of the reference (of the score matrix, row by row): its log-softmax read at an entry, the
  entry that the gather along the rows takes on the diagonal, and the mean over the rows with its sign changed.
-/
import proofs.«116465_j25151328485434_2_alg».proof.Proof.RefRead2
import proofs.«116465_j25151328485434_2_alg».proof.Proof.Consts

noncomputable section

namespace Cert.RefSide

open Cert.ReferenceIdeal Cert.ReferenceIdeal.Gen Idealize.ShloMosaic Idealize.ShloMosaic.ValueIdx

/-! ## The log-softmax of a row -/

/-- The greatest entry of row `i`: the reduction from `-∞`, and once more the maximum with `-∞`. -/
theorem rowMax0 (x0 x1 : (⟨S16384x512, .f32⟩ : BufTy).Contents (Elt Ideal)) (i : Fin 16384) :
    ReadP.val_main_call0_v2 (F := Ideal) x0 x1 (ix1 i)
      = Finset.univ.sup (fun j : Fin 16384 => ReadP.val_main_v3 (F := Ideal) x0 x1 (ix2 i j)) := by
  rw [ReadP.val_main_call0_v2_apply, ReadP.val_main_call0_v1_apply, ReadP.val_main_call0_cst_0_apply]
  unfold ReadP.val_main_call0_v0
  rw [rowMax_apply, ReadP.val_main_call0_cst_apply]
  simp only [Ideal.maximumf_def, Ideal.ofBits_def, Cert.Consts.ofBits_neg_inf]
  rw [fold_max_bot]
  exact max_bot_left _

/-- An entry less its row's greatest entry. -/
theorem shifted0 (x0 x1 : (⟨S16384x512, .f32⟩ : BufTy).Contents (Elt Ideal)) (i j : Fin 16384) :
    ReadP.val_main_call0_v5 (F := Ideal) x0 x1 (ix2 i j)
      = ReadP.val_main_v3 (F := Ideal) x0 x1 (ix2 i j)
        - Finset.univ.sup (fun j' : Fin 16384 => ReadP.val_main_v3 (F := Ideal) x0 x1 (ix2 i j')) := by
  have e : ReadP.idx_main_call0_v3 (ReadP.idx_main_call0_v4 (ix2 i j)) = ix1 i :=
    funext fun a => Fin.ext (by match a with | ⟨0, _⟩ => rfl)
  rw [ReadP.val_main_call0_v5_apply, ReadP.val_main_call0_v4_apply, ReadP.val_main_call0_v3_apply, e, rowMax0]
  rfl

/-- The sum over row `i` of the exponentials of the shifted entries (the sum starts from zero). -/
theorem sumExp0 (x0 x1 : (⟨S16384x512, .f32⟩ : BufTy).Contents (Elt Ideal)) (i : Fin 16384) :
    ReadP.val_main_call0_v7 (F := Ideal) x0 x1 (ix1 i)
      = ∑ k : Fin 16384, Ideal.exp (ReadP.val_main_v3 (F := Ideal) x0 x1 (ix2 i k)
          - Finset.univ.sup (fun j' : Fin 16384 => ReadP.val_main_v3 (F := Ideal) x0 x1 (ix2 i j'))) := by
  have e : ∀ k : Fin 16384, ReadP.idx_main_call0_v7 (ix1 i) k = ix2 i k := fun k =>
    funext fun a => Fin.ext (by match a with | ⟨0, _⟩ => rfl | ⟨1, _⟩ => rfl)
  rw [ReadP.val_main_call0_v7_apply, ReadP.val_main_call0_cst_1_apply]
  simp only [ReadP.val_main_call0_v6_apply, e, shifted0, Ideal.hostUnary_exp_def, Ideal.ofBits_def, Ideal.ofBits_zero_f32, zero_add]

/-- The log-softmax at `(i, j)` is the specification's, of row `i` of the score matrix at column `j`. -/
theorem logSoftmax0 (x0 x1 : (⟨S16384x512, .f32⟩ : BufTy).Contents (Elt Ideal)) (i j : Fin 16384) :
    ReadP.val_main_v6 (F := Ideal) x0 x1 (ix2 i j)
      = Cert.ClipSpec.logSoftmaxAt (fun j' : Fin 16384 => ReadP.val_main_v3 (F := Ideal) x0 x1 (ix2 i j')) j := by
  have e : ReadP.idx_main_call0_v8 (ReadP.idx_main_call0_v10 (ix2 i j)) = ix1 i :=
    funext fun a => Fin.ext (by match a with | ⟨0, _⟩ => rfl)
  rw [ReadP.val_main_v6_apply, shifted0, ReadP.val_main_call0_v10_apply, ReadP.val_main_call0_v9_apply,
    ReadP.val_main_call0_v8_apply, e, sumExp0]
  simp only [Ideal.subf_def, Ideal.hostUnary_log_def]
  rfl

/-! ## The diagonal entry -/

/-- The start index of row `i`: the row's number as a word (it is not negative, so the wrap-around of negative indices
    leaves it alone). -/
theorem idxWord1 (i : Fin 16384) :
    ReadP.val_main_call1_v5 (F := Ideal) (ix3 i (0 : Fin 1) (0 : Fin 1)) = BitVec.ofNat 32 i.val := by
  have e : ReadP.idx_main_call1_v5 (ix3 i (0 : Fin 1) (0 : Fin 1)) = ix2 i (0 : Fin 1) :=
    funext fun a => Fin.ext (by
      match a with
      | ⟨0, _⟩ => show ((i.val * 1 + 0) * 1 + 0) / 1 = i.val; omega
      | ⟨1, _⟩ => rfl)
  have e7 : ReadP.val_main_v7 (F := Ideal) (ix2 i (0 : Fin 1)) = BitVec.ofNat 32 i.val := by
    rw [ReadP.val_main_v7_apply, ReadP.val_main_v5_apply]
  rw [ReadP.val_main_call1_v5_apply, e, ReadP.val_main_call1_v4_apply, ReadP.val_main_call1_v1_apply, e7,
    ReadP.val_main_call1_v0_apply, ReadP.val_main_call1_c_apply, slt_zero_small, select_zero]

/-- Every start index is inside the row, so the in-bounds mask is one. -/
theorem mask1 (i : Fin 16384) : ReadP.val_main_call1_v12 (F := Ideal) (ix2 i (0 : Fin 1)) = 1#1 := by
  unfold ReadP.val_main_call1_v12
  rw [andUnit_apply, ReadP.val_main_call1_v11_apply, ReadP.val_main_call1_v7_apply, ReadP.val_main_call1_v10_apply, idxWord1,
    ReadP.val_main_call1_v6_apply, ReadP.val_main_call1_c_2_apply, ReadP.val_main_call1_v9_apply, ReadP.val_main_call1_v8_apply,
    ReadP.val_main_call1_c_1_apply, sge_zero_small, sle_max_small, ReadP.val_main_call1_c_3_apply]
  rfl

/-- The gather reads, in row `i`, column `i`. -/
theorem gather1 (x0 x1 : (⟨S16384x512, .f32⟩ : BufTy).Contents (Elt Ideal)) (i : Fin 16384) :
    ReadP.val_main_call1_v13 (F := Ideal) x0 x1 (ix2 i (0 : Fin 1)) = ReadP.val_main_v6 (F := Ideal) x0 x1 (ix2 i i) := by
  unfold ReadP.val_main_call1_v13
  rw [gatherRow_apply]
  refine congrArg _ (congrArg (fun c : Fin 16384 => ix2 i c) (Fin.ext ?_))
  show min (ReadP.val_main_call1_v5 (F := Ideal) (ix3 i (0 : Fin 1) (0 : Fin 1))).toInt.toNat (16384 - 1) = i.val
  rw [idxWord1]
  exact clamp_small i

/-- What is taken along the rows: the log-softmax on the diagonal (the fill value for an index out of bounds is never
    selected). -/
theorem take1 (x0 x1 : (⟨S16384x512, .f32⟩ : BufTy).Contents (Elt Ideal)) (i : Fin 16384) :
    ReadP.val_main_v8 (F := Ideal) x0 x1 (ix2 i (0 : Fin 1)) = ReadP.val_main_v6 (F := Ideal) x0 x1 (ix2 i i) := by
  rw [ReadP.val_main_v8_apply, mask1, select_one, gather1]

/-! ## The mean -/

/-- The first cross entropy: minus the mean over the rows of the log-softmax on the diagonal. -/
theorem crossEntropy0 (x0 x1 : (⟨S16384x512, .f32⟩ : BufTy).Contents (Elt Ideal)) :
    ReadP.val_main_v11 (F := Ideal) x0 x1
      = fun _ => Cert.ClipSpec.crossEntropyDiag (Ideal.ofBits .f32 0x46800000#32)
          (fun i j : Fin 16384 => ReadP.val_main_v3 (F := Ideal) x0 x1 (ix2 i j)) := by
  funext y
  rw [ReadP.val_main_v11_apply, ReadP.val_main_v10_apply, ReadP.val_main_v9_apply, ReadP.val_main_cst_0_apply,
    ReadP.val_main_cst_1_apply, sum_idx2]
  simp only [Fin.sum_univ_one, take1, logSoftmax0, Ideal.ofBits_def, Ideal.ofBits_zero_f32, zero_add, Ideal.hostNegf_def,
    Ideal.negf_def, Ideal.hostDivf_def]
  rfl

end Cert.RefSide

end
-- ==== Proof.RefRead4.lean ====
/-
  The second cross entropy of the reference (of the transposed score matrix, row by row): its log-softmax read at an
  entry, the entry that the gather along the rows takes on the diagonal, and the mean over the rows with its sign changed.
-/
import proofs.«116465_j25151328485434_2_alg».proof.Proof.RefRead2
import proofs.«116465_j25151328485434_2_alg».proof.Proof.Consts

noncomputable section

namespace Cert.RefSide

open Cert.ReferenceIdeal Cert.ReferenceIdeal.Gen Idealize.ShloMosaic Idealize.ShloMosaic.ValueIdx

/-! ## The log-softmax of a row -/

/-- The greatest entry of row `i`: the reduction from `-∞`, and once more the maximum with `-∞`. -/
theorem rowMax2 (x0 x1 : (⟨S16384x512, .f32⟩ : BufTy).Contents (Elt Ideal)) (i : Fin 16384) :
    ReadP.val_main_call2_v2 (F := Ideal) x0 x1 (ix1 i)
      = Finset.univ.sup (fun j : Fin 16384 => ReadP.val_main_v4 (F := Ideal) x0 x1 (ix2 i j)) := by
  rw [ReadP.val_main_call2_v2_apply, ReadP.val_main_call2_v1_apply, ReadP.val_main_call2_cst_0_apply]
  unfold ReadP.val_main_call2_v0
  rw [rowMax_apply, ReadP.val_main_call2_cst_apply]
  simp only [Ideal.maximumf_def, Ideal.ofBits_def, Cert.Consts.ofBits_neg_inf]
  rw [fold_max_bot]
  exact max_bot_left _

/-- An entry less its row's greatest entry. -/
theorem shifted2 (x0 x1 : (⟨S16384x512, .f32⟩ : BufTy).Contents (Elt Ideal)) (i j : Fin 16384) :
    ReadP.val_main_call2_v5 (F := Ideal) x0 x1 (ix2 i j)
      = ReadP.val_main_v4 (F := Ideal) x0 x1 (ix2 i j)
        - Finset.univ.sup (fun j' : Fin 16384 => ReadP.val_main_v4 (F := Ideal) x0 x1 (ix2 i j')) := by
  have e : ReadP.idx_main_call2_v3 (ReadP.idx_main_call2_v4 (ix2 i j)) = ix1 i :=
    funext fun a => Fin.ext (by match a with | ⟨0, _⟩ => rfl)
  rw [ReadP.val_main_call2_v5_apply, ReadP.val_main_call2_v4_apply, ReadP.val_main_call2_v3_apply, e, rowMax2]
  rfl

/-- The sum over row `i` of the exponentials of the shifted entries (the sum starts from zero). -/
theorem sumExp2 (x0 x1 : (⟨S16384x512, .f32⟩ : BufTy).Contents (Elt Ideal)) (i : Fin 16384) :
    ReadP.val_main_call2_v7 (F := Ideal) x0 x1 (ix1 i)
      = ∑ k : Fin 16384, Ideal.exp (ReadP.val_main_v4 (F := Ideal) x0 x1 (ix2 i k)
          - Finset.univ.sup (fun j' : Fin 16384 => ReadP.val_main_v4 (F := Ideal) x0 x1 (ix2 i j'))) := by
  have e : ∀ k : Fin 16384, ReadP.idx_main_call2_v7 (ix1 i) k = ix2 i k := fun k =>
    funext fun a => Fin.ext (by match a with | ⟨0, _⟩ => rfl | ⟨1, _⟩ => rfl)
  rw [ReadP.val_main_call2_v7_apply, ReadP.val_main_call2_cst_1_apply]
  simp only [ReadP.val_main_call2_v6_apply, e, shifted2, Ideal.hostUnary_exp_def, Ideal.ofBits_def, Ideal.ofBits_zero_f32, zero_add]

/-- The log-softmax at `(i, j)` is the specification's, of row `i` of the score matrix at column `j`. -/
theorem logSoftmax2 (x0 x1 : (⟨S16384x512, .f32⟩ : BufTy).Contents (Elt Ideal)) (i j : Fin 16384) :
    ReadP.val_main_v12 (F := Ideal) x0 x1 (ix2 i j)
      = Cert.ClipSpec.logSoftmaxAt (fun j' : Fin 16384 => ReadP.val_main_v4 (F := Ideal) x0 x1 (ix2 i j')) j := by
  have e : ReadP.idx_main_call2_v8 (ReadP.idx_main_call2_v10 (ix2 i j)) = ix1 i :=
    funext fun a => Fin.ext (by match a with | ⟨0, _⟩ => rfl)
  rw [ReadP.val_main_v12_apply, shifted2, ReadP.val_main_call2_v10_apply, ReadP.val_main_call2_v9_apply,
    ReadP.val_main_call2_v8_apply, e, sumExp2]
  simp only [Ideal.subf_def, Ideal.hostUnary_log_def]
  rfl

/-! ## The diagonal entry -/

/-- The start index of row `i`: the row's number as a word (it is not negative, so the wrap-around of negative indices
    leaves it alone). -/
theorem idxWord3 (i : Fin 16384) :
    ReadP.val_main_call3_v5 (F := Ideal) (ix3 i (0 : Fin 1) (0 : Fin 1)) = BitVec.ofNat 32 i.val := by
  have e : ReadP.idx_main_call3_v5 (ix3 i (0 : Fin 1) (0 : Fin 1)) = ix2 i (0 : Fin 1) :=
    funext fun a => Fin.ext (by
      match a with
      | ⟨0, _⟩ => show ((i.val * 1 + 0) * 1 + 0) / 1 = i.val; omega
      | ⟨1, _⟩ => rfl)
  have e7 : ReadP.val_main_v13 (F := Ideal) (ix2 i (0 : Fin 1)) = BitVec.ofNat 32 i.val := by
    rw [ReadP.val_main_v13_apply, ReadP.val_main_v5_apply]
  rw [ReadP.val_main_call3_v5_apply, e, ReadP.val_main_call3_v4_apply, ReadP.val_main_call3_v1_apply, e7,
    ReadP.val_main_call3_v0_apply, ReadP.val_main_call3_c_apply, slt_zero_small, select_zero]

/-- Every start index is inside the row, so the in-bounds mask is one. -/
theorem mask3 (i : Fin 16384) : ReadP.val_main_call3_v12 (F := Ideal) (ix2 i (0 : Fin 1)) = 1#1 := by
  unfold ReadP.val_main_call3_v12
  rw [andUnit_apply, ReadP.val_main_call3_v11_apply, ReadP.val_main_call3_v7_apply, ReadP.val_main_call3_v10_apply, idxWord3,
    ReadP.val_main_call3_v6_apply, ReadP.val_main_call3_c_2_apply, ReadP.val_main_call3_v9_apply, ReadP.val_main_call3_v8_apply,
    ReadP.val_main_call3_c_1_apply, sge_zero_small, sle_max_small, ReadP.val_main_call3_c_3_apply]
  rfl

/-- The gather reads, in row `i`, column `i`. -/
theorem gather3 (x0 x1 : (⟨S16384x512, .f32⟩ : BufTy).Contents (Elt Ideal)) (i : Fin 16384) :
    ReadP.val_main_call3_v13 (F := Ideal) x0 x1 (ix2 i (0 : Fin 1)) = ReadP.val_main_v12 (F := Ideal) x0 x1 (ix2 i i) := by
  unfold ReadP.val_main_call3_v13
  rw [gatherRow_apply]
  refine congrArg _ (congrArg (fun c : Fin 16384 => ix2 i c) (Fin.ext ?_))
  show min (ReadP.val_main_call3_v5 (F := Ideal) (ix3 i (0 : Fin 1) (0 : Fin 1))).toInt.toNat (16384 - 1) = i.val
  rw [idxWord3]
  exact clamp_small i

/-- What is taken along the rows: the log-softmax on the diagonal (the fill value for an index out of bounds is never
    selected). -/
theorem take3 (x0 x1 : (⟨S16384x512, .f32⟩ : BufTy).Contents (Elt Ideal)) (i : Fin 16384) :
    ReadP.val_main_v14 (F := Ideal) x0 x1 (ix2 i (0 : Fin 1)) = ReadP.val_main_v12 (F := Ideal) x0 x1 (ix2 i i) := by
  rw [ReadP.val_main_v14_apply, mask3, select_one, gather3]

/-! ## The mean -/

/-- The second cross entropy: minus the mean over the rows of the log-softmax on the diagonal. -/
theorem crossEntropy2 (x0 x1 : (⟨S16384x512, .f32⟩ : BufTy).Contents (Elt Ideal)) :
    ReadP.val_main_v17 (F := Ideal) x0 x1
      = fun _ => Cert.ClipSpec.crossEntropyDiag (Ideal.ofBits .f32 0x46800000#32)
          (fun i j : Fin 16384 => ReadP.val_main_v4 (F := Ideal) x0 x1 (ix2 i j)) := by
  funext y
  rw [ReadP.val_main_v17_apply, ReadP.val_main_v16_apply, ReadP.val_main_v15_apply, ReadP.val_main_cst_2_apply,
    ReadP.val_main_cst_3_apply, sum_idx2]
  simp only [Fin.sum_univ_one, take3, logSoftmax2, Ideal.ofBits_def, Ideal.ofBits_zero_f32, zero_add, Ideal.hostNegf_def,
    Ideal.negf_def, Ideal.hostDivf_def]
  rfl

end Cert.RefSide

end
-- ==== Proof.RefRead.lean ====
/-
  The reference's result as the direct arrangement of the specification: half the sum of the two cross entropies, of
  the score matrix and of its transpose, the scores being the scale times the inner products of the rows.
-/
import proofs.«116465_j25151328485434_2_alg».proof.Proof.RefRead3
import proofs.«116465_j25151328485434_2_alg».proof.Proof.RefRead4

noncomputable section

namespace Cert.RefSide

open Cert.ReferenceIdeal Cert.ReferenceIdeal.Gen Idealize.ShloMosaic Idealize.ShloMosaic.ValueIdx

/-- The reference's result is the direct arrangement at the scale, the row count and the two that the program spells. -/
theorem ref_eq (x0 x1 : (⟨Cert.ReferenceIdeal.S16384x512, .f32⟩ : BufTy).Contents (Elt Ideal)) :
    Cert.ReferenceIdeal.ReadP.val_main_v19 (F := Ideal) x0 x1
      = fun _ => Cert.ClipSpec.direct (Ideal.ofBits .f32 0x41649249#32) (Ideal.ofBits .f32 0x46800000#32) (Ideal.ofBits .f32 0x40000000#32)
          (fun (i : Fin 16384) (k : Fin 512) => x0 (ValueIdx.ix2 i k)) (fun (i : Fin 16384) (k : Fin 512) => x1 (ValueIdx.ix2 i k)) := by
  funext y
  rw [ReadP.val_main_v19_apply, ReadP.val_main_v18_apply, crossEntropy0, crossEntropy2, ReadP.val_main_cst_4_apply]
  simp only [logitsT_apply, logits_apply, Ideal.hostDivf_def, Ideal.addf_def, Ideal.ofBits_def]
  rfl

end Cert.RefSide

end
-- ==== Proof.Finite.lean ====
/-
  The two arguments are arrays of reals under the printed precondition, which says of each argument that every entry's
  absolute value is below `+∞` (a reduction by `and` over the whole array), the two joined by `and`.
-/
import proofs.«116465_j25151328485434_2_alg».proof.Pre_finite_inputs
import Idealize.ShloMosaic.Lib.ReduceAll
import Idealize.ShloMosaic.Lib.IdealHost

noncomputable section

namespace Cert.Finite

open Idealize.ShloMosaic Idealize.ShloMosaic.ValueIdx

/-- The scalar shape has one index. -/
instance : Subsingleton Cert.Pre_finite_inputs.S_.Idx := ⟨fun _ _ => funext fun d => d.elim0⟩

/-- The word with the all-ones exponent, a zero fraction and the sign bit clear is `+∞`. -/
theorem ofBits_pos_inf : Ideal.ofBits .f32 0x7F800000#32 = (⊤ : EReal) := by
  simp [Ideal.ofBits, Ideal.ieee]

/-- An extended real whose absolute value compares below `+∞` is a real: `+∞` is its own absolute value and `-∞`'s. -/
theorem real_of_abs_lt (x : EReal) (h : Ideal.cmp .olt (max x (-x)) (Ideal.ofBits .f32 0x7F800000#32) = 1#1) :
    ∃ r : ℝ, x = (r : EReal) := by
  rw [ofBits_pos_inf] at h
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  induction x using EReal.rec with
  | bot => exact absurd hlt (by simp)
  | coe r => exact ⟨r, rfl⟩
  | top => exact absurd hlt (by simp)

/-- Under the precondition every entry of either argument is a real. -/
theorem finite_of_pre [Cert.Pre_finite_inputs.Facts]
    (x0 x1 : (⟨Cert.Pre_finite_inputs.S16384x512, .f32⟩ : BufTy).Contents (Elt Ideal))
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ix0
  dsimp only [Cert.Pre_finite_inputs.fn] at h0
  obtain ⟨ha, hb⟩ := IntOp.andi_eq_one.mp h0
  refine ⟨fun i => ?_, fun i => ?_⟩
  · have e := Host.reduce_andi_all _ _ _ _ ix0 ha i
    exact real_of_abs_lt (x0 i) e
  · have e := Host.reduce_andi_all _ _ _ _ ix0 hb i
    exact real_of_abs_lt (x1 i) e

end Cert.Finite

end
-- ==== Proof.lean ====
/- The proof of `Cert.Claim`: a symmetric contrastive loss computed by a streaming kernel against the same loss computed directly.

   Rows `x i` (image features) and `y j` (text features), 16384 of each with 512 entries, give the scores `c ⟨x i, y j⟩`. The loss
   is half the sum of the cross entropy of the score matrix against its diagonal and that of its transpose.
   * The reference forms the whole matrix, takes each row's log-softmax, reads the diagonal and averages: the DIRECT arrangement.
   * The kernel never forms the matrix. Twice — rows of `x` against `y`, rows of `y` against `x` — it scales the rows first, reads the
     columns in sixteen blocks of 1024, and keeps per row a running maximum `m` and a running sum `l` of exponentials shifted by
     `m`, rescaled by `exp (m - m')` when the maximum moves; a row's value is `m + log l`. The diagonal score is computed apart, and
     the loss is `½ · (∑ i, (value i + value' i - 2 · diagonal i)) / 16384`: the STREAMING arrangement.
   For real entries the two agree: `(x c) · y = c (x · y)`; the running state after all blocks is the row's maximum `M` with
   `∑ exp (score - M)`, because `exp (a - m) exp (m - m') = exp (a - m')` and the blocks partition the columns; hence a row's value is
   its log-sum-exp, minus the log-softmax at the diagonal is that less the diagonal score, and the two averages are the same
   number. All of this needs the entries to be real numbers, which is what the precondition says of the inputs.

   The frames: each kernel region's body is run once per case (a first column block resets the carried pair, a later one folds
   into it); the region's invariant carries the pair from point to point; @main is the host lines, the two regions and the host
   lines again, launched once. The reference is host lines only. -/
import proofs.«116465_j25151328485434_2_alg».proof.Defs
import proofs.«116465_j25151328485434_2_alg».proof.Proof.Gen.Kernel
import proofs.«116465_j25151328485434_2_alg».proof.Proof.Gen.KernelIdeal
import proofs.«116465_j25151328485434_2_alg».proof.Proof.Gen.ReferenceIdeal
import proofs.«116465_j25151328485434_2_alg».proof.Proof.Gen.Pre_finite_inputs
import proofs.«116465_j25151328485434_2_alg».proof.Proof.KBMain
import proofs.«116465_j25151328485434_2_alg».proof.Proof.KIResult
import proofs.«116465_j25151328485434_2_alg».proof.Proof.RefRun
import proofs.«116465_j25151328485434_2_alg».proof.Proof.RefRead
import proofs.«116465_j25151328485434_2_alg».proof.Proof.Finite
import proofs.«116465_j25151328485434_2_alg».proof.Proof.Glue
import Idealize.ShloMosaic.Adequacy
import Idealize.ShloMosaic.Init

noncomputable section

namespace Cert.Proof

open Idealize.ShloMosaic Idealize.SL.Sem ValueIdx

/-- The word-level kernel runs to the end, faults nowhere and leaves its arguments as launched. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- So does the reference: its run with the result dropped. -/
theorem frame_ri : Cert.frame_ReferenceIdeal := fun m ρ _ =>
  (θ_run Cert.ReferenceIdeal.defs _ _).mono (fun _ h c => (h c).2) (Cert.RefSide.run (F := Ideal) m ρ)

/-- The idealization rewrote nothing. -/
theorem preserves : Cert.preserves_Kernel_KernelIdeal := trivial

/-- Both idealized programs end at the direct arrangement over the arguments' rows: the kernel at the streaming arrangement,
    which for real entries is the direct one; the reference at the direct one as it stands. -/
theorem algebraic : Cert.algebraic_KernelIdeal_ReferenceIdeal := by
  intro m ρ m' ρ' hpre hagree
  refine ⟨fun c => fun _ => Cert.ClipSpec.direct (Ideal.ofBits .f32 0x41649249#32) (Ideal.ofBits .f32 0x46800000#32) (Ideal.ofBits .f32 0x40000000#32)
      (fun (i : Fin 16384) (k : Fin 512) => Cert.KernelIdeal.Hand.arg0 m c (ix2 i k))
      (fun (i : Fin 16384) (k : Fin 512) => Cert.KernelIdeal.Hand.arg1 m c (ix2 i k)), ?_, ?_⟩
  · refine (θ_run Cert.KernelIdeal.defs _ _).mono (fun _ h c => ⟨(h c).1.trans ?_, (h c).2⟩)
      (Cert.KernelIdeal.Hand.run_result (F := Ideal) m ρ)
    rw [Cert.KernelIdeal.Hand.result_eq m c]
    funext _
    obtain ⟨hx, hy⟩ := Cert.Finite.finite_of_pre _ _ (hpre c)
    exact Cert.ClipSpec.loss_eq _ _ (fun i k => hx (ix2 i k)) (fun i k => hy (ix2 i k))
  · refine (θ_run Cert.ReferenceIdeal.defs _ _).mono (fun _ h c => ⟨(h c).1.trans ?_, (h c).2⟩)
      (Cert.RefSide.run (F := Ideal) m' ρ')
    rw [Cert.ReferenceIdeal.ReadP.val_main_v19_eq, Cert.RefSide.ref_eq, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
